-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512x8x8 : Shape := ⟨4, ![1024, 512, 8, 8]⟩
abbrev S1024x256x8x8 : Shape := ⟨4, ![1024, 256, 8, 8]⟩
abbrev S512x512 : Shape := ⟨2, ![512, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S1024x512x8x8 : S_.BroadcastsInDim S1024x512x8x8 (![] : Fin 0 → Fin S1024x512x8x8.rank)
  reducesTo_S1024x512x8x8_S_d0_1_2_3 : S1024x512x8x8.ReducesTo [0, 1, 2, 3] S_
  h_S_ : 0 < S_.numel
  bcast_S_S1024x256x8x8 : S_.BroadcastsInDim S1024x256x8x8 (![] : Fin 0 → Fin S1024x256x8x8.rank)
  reducesTo_S1024x256x8x8_S_d0_1_2_3 : S1024x256x8x8.ReducesTo [0, 1, 2, 3] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S512x256 .f32) (main_arg5 : FVec F S256 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S1024x512x8x8 .f32) (main_arg1 : FVec F S1024x256x8x8 .f32) (main_arg2 : FVec F S512x512 .f32) (main_arg3 : FVec F S512 .f32) (main_arg4 : FVec F S512x256 .f32) (main_arg5 : FVec F S256 .f32) : IVec S_ 1 :=
  let main_v0 : FVec F S1024x512x8x8 .f32 := Host.absf main_arg0
  let main_cst : FVec F S_ .f32 := constant S_ .f32 0x7F800000#32
  let main_v1 : FVec F S1024x512x8x8 .f32 := broadcastInDim S1024x512x8x8 ![] bcast_S_S1024x512x8x8 main_cst
  let main_v2 : IVec S1024x512x8x8 1 := cmpf .olt main_v0 main_v1
  let main_c : IVec S_ 1 := constantI S_ 1 1#1
  let main_v3 : IVec S_ 1 := (fun x v => Host.reduce IntOp.andi x v reducesTo_S1024x512x8x8_S_d0_1_2_3 h_S_) main_v2 main_c
  let main_v4 : FVec F S1024x256x8x8 .f32 := Host.absf main_arg1
  let main_cst_0 : FVec F S_ .f32 := constant S_ .f32 0x7F800000#32
  let main_v5 : FVec F S1024x256x8x8 .f32 := broadcastInDim S1024x256x8x8 ![] bcast_S_S1024x256x8x8 main_cst_0
  let main_v6 : IVec S1024x256x8x8 1 := cmpf .olt main_v4 main_v5
  let main_c_1 : IVec S_ 1 := constantI S_ 1 1#1
  let main_v7 : IVec S_ 1 := (fun x v => Host.reduce IntOp.andi x v reducesTo_S1024x256x8x8_S_d0_1_2_3 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S1024x512x8x8 : Shape := ⟨4, ![1024, 512, 8, 8]⟩
abbrev S1024x256x8x8 : Shape := ⟨4, ![1024, 256, 8, 8]⟩
abbrev S512x512 : Shape := ⟨2, ![512, 512]⟩
abbrev S512 : Shape := ⟨1, ![512]⟩
abbrev S512x256 : Shape := ⟨2, ![512, 256]⟩
abbrev S256 : Shape := ⟨1, ![256]⟩
abbrev S1024x512x64 : Shape := ⟨3, ![1024, 512, 64]⟩
abbrev S1024x256x64 : Shape := ⟨3, ![1024, 256, 64]⟩
abbrev S1024x512 : Shape := ⟨2, ![1024, 512]⟩
abbrev S64x512x64 : Shape := ⟨3, ![64, 512, 64]⟩
abbrev S64x512 : Shape := ⟨2, ![64, 512]⟩
abbrev S1024x256 : Shape := ⟨2, ![1024, 256]⟩
abbrev S64x256x64 : Shape := ⟨3, ![64, 256, 64]⟩
abbrev S64x256 : Shape := ⟨2, ![64, 256]⟩
abbrev S_ : Shape := ⟨0, ![]⟩
abbrev S1x256 : Shape := ⟨2, ![1, 256]⟩
abbrev S1x512 : Shape := ⟨2, ![1, 512]⟩
abbrev S1x1 : Shape := ⟨2, ![1, 1]⟩
abbrev S256x512 : Shape := ⟨2, ![256, 512]⟩
abbrev S256x256 : Shape := ⟨2, ![256, 256]⟩
abbrev S1 : Shape := ⟨1, ![1]⟩

abbrev nBuf : Space → Nat
  | .hbm => 33
  | .vmem => 19
  | .smem => 0
  | _ => 0

abbrev bufTy : (tb : Table) → Fin (tcTables nBuf tb) → BufTy
  | .hbm, ⟨0, _⟩ => ⟨S1024x512x8x8, .f32⟩
  | .hbm, ⟨1, _⟩ => ⟨S1024x256x8x8, .f32⟩
  | .hbm, ⟨2, _⟩ => ⟨S512x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S1024x512x64, .f32⟩
  | .hbm, ⟨7, _⟩ => ⟨S1024x256x64, .f32⟩
  | .hbm, ⟨8, _⟩ => ⟨S1024x512, .f32⟩
  | .hbm, ⟨9, _⟩ => ⟨S1024x256, .f32⟩
  | .hbm, ⟨10, _⟩ => ⟨S_, .f32⟩
  | .hbm, ⟨11, _⟩ => ⟨S256, .f32⟩
  | .hbm, ⟨12, _⟩ => ⟨S1x256, .f32⟩
  | .hbm, ⟨13, _⟩ => ⟨S_, .f32⟩
  | .hbm, ⟨14, _⟩ => ⟨S1x256, .f32⟩
  | .hbm, ⟨15, _⟩ => ⟨S1x256, .f32⟩
  | .hbm, ⟨16, _⟩ => ⟨S1024x256, .f32⟩
  | .hbm, ⟨17, _⟩ => ⟨S_, .f32⟩
  | .hbm, ⟨18, _⟩ => ⟨S256, .f32⟩
  | .hbm, ⟨19, _⟩ => ⟨S_, .f32⟩
  | .hbm, ⟨20, _⟩ => ⟨S256, .f32⟩
  | .hbm, ⟨21, _⟩ => ⟨S256, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1x512, .f32⟩
  | .hbm, ⟨27, _⟩ => ⟨S1x256, .f32⟩
  | .hbm, ⟨28, _⟩ => ⟨S1x1, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S64x512x64, .f32⟩
  | .local _ .vmem, ⟨1, _⟩ => ⟨S64x512x64, .f32⟩
  | .local _ .vmem, ⟨2, _⟩ => ⟨S64x512, .f32⟩
  | .local _ .vmem, ⟨3, _⟩ => ⟨S64x512, .f32⟩
  | .local _ .vmem, ⟨4, _⟩ => ⟨S64x256x64, .f32⟩
  | .local _ .vmem, ⟨5, _⟩ => ⟨S64x256x64, .f32⟩
  | .local _ .vmem, ⟨6, _⟩ => ⟨S64x256, .f32⟩
  | .local _ .vmem, ⟨7, _⟩ => ⟨S64x256, .f32⟩
  | .local _ .vmem, ⟨8, _⟩ => ⟨S256x512, .f32⟩
  | .local _ .vmem, ⟨9, _⟩ => ⟨S256x512, .f32⟩
  | .local _ .vmem, ⟨10, _⟩ => ⟨S256x256, .f32⟩
  | .local _ .vmem, ⟨11, _⟩ => ⟨S256x256, .f32⟩
  | .local _ .vmem, ⟨12, _⟩ => ⟨S512x512, .f32⟩
  | .local _ .vmem, ⟨13, _⟩ => ⟨S1x512, .f32⟩
  | .local _ .vmem, ⟨14, _⟩ => ⟨S512x256, .f32⟩
  | .local _ .vmem, ⟨15, _⟩ => ⟨S1x256, .f32⟩
  | .local _ .vmem, ⟨16, _⟩ => ⟨S1x256, .f32⟩
  | .local _ .vmem, ⟨17, _⟩ => ⟨S1x1, .f32⟩
  | .local _ .vmem, ⟨18, _⟩ => ⟨S1x1, .f32⟩
  | _, _ => ⟨S1024x512x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg6_0 : Ref sig .tc := ⟨.vmem, 16, rfl⟩
abbrev cc2_stg7_0 : Ref sig .tc := ⟨.vmem, 17, rfl⟩
abbrev cc2_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem6_0 : DmaSem sig := 16
abbrev cc2_sem7_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x256x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![4], ![false]⟩

def k2_cond2 (i : grid2.Coords) : BitVec 1 :=
  let arg0 : BitVec 32 := BitVec.ofNat 32 (i 0).val
  let c3_i32 : BitVec 32 := 3#32
  let v47 : BitVec 1 := Scalar.cmpi .eq arg0 c3_i32
  let v48 : BitVec 32 := Scalar.extui v47
  let c0_i32_26 : BitVec 32 := 0#32
  let v49 : BitVec 1 := Scalar.cmpi .ne v48 c0_i32_26
  v49

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S256x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S512x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

class Facts₀ : Prop where
  shapeCasts_S1024x512x8x8_S1024x512x64 : S1024x512x8x8.ShapeCasts S1024x512x64
  shapeCasts_S1024x256x8x8_S1024x256x64 : S1024x256x8x8.ShapeCasts S1024x256x64
  inb_S64x512x64_S64x512x64_0_0_0 : ∀ a, (![0, 0, 0] : Fin 3 → Nat) a + S64x512x64.size a ≤ S64x512x64.size a
  h_S64x512x64 : 0 < S64x512x64.numel
  shapeCasts_S64x512x64_S64x512x64 : S64x512x64.ShapeCasts S64x512x64
  reduces_S64x512x64_S64x512 : S64x512x64.Reduces [2] S64x512
  inb_S64x512_S64x512_0_0 : ∀ a, (![0, 0] : Fin 2 → Nat) a + S64x512.size a ≤ S64x512.size a
  h_S64x512 : 0 < S64x512.numel
  inb_S64x256x64_S64x256x64_0_0_0 : ∀ a, (![0, 0, 0] : Fin 3 → Nat) a + S64x256x64.size a ≤ S64x256x64.size a
  h_S64x256x64 : 0 < S64x256x64.numel
  shapeCasts_S64x256x64_S64x256x64 : S64x256x64.ShapeCasts S64x256x64
  reduces_S64x256x64_S64x256 : S64x256x64.Reduces [2] S64x256
  inb_S64x256_S64x256_0_0 : ∀ a, (![0, 0] : Fin 2 → Nat) a + S64x256.size a ≤ S64x256.size a
  h_S64x256 : 0 < S64x256.numel
  reducesTo_S1024x256_S256_d0 : S1024x256.ReducesTo [0] S256
  h_S_ : 0 < S_.numel
  bcast_S256_S1x256_1 : S256.BroadcastsInDim S1x256 (![1] : Fin 1 → Fin S1x256.rank)
  bcast_S_S1x256 : S_.BroadcastsInDim S1x256 (![] : Fin 0 → Fin S1x256.rank)
  bcast_S_S256 : S_.BroadcastsInDim S256 (![] : Fin 0 → Fin S256.rank)
  reducesTo_S256_S_d0 : S256.ReducesTo [0] S_
  shapeCasts_S512_S1x512 : S512.ShapeCasts S1x512
  shapeCasts_S256_S1x256 : S256.ShapeCasts S1x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  reduces_S256x256_S256 : S256x256.Reduces [1] S256
  reduces_S1x256_S1 : S1x256.Reduces [1] S1
  shapeCasts_S1_S1x1 : S1.ShapeCasts S1x1
  inpos_S1x1_p0_0 : ∀ a, (![0, 0] : Fin 2 → Nat) a < S1x1.size a
  shapeCasts_S1x1_S_ : S1x1.ShapeCasts S_
  dot_S256x512_S512x512_S256x512_1_0_0_1_n_n_wf : DotDims.WF S256x512 S512x512 S256x512 [1] [0] [0] [1] [] []
  dot_S256x512_S512x256_S256x256_1_0_0_1_n_n_wf : DotDims.WF S256x512 S512x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x512x64.size a ≤ S1024x512x64.size a
  hwx0_0 : ∀ i : grid0.Coords, EltTy.bits .f32 = 32 ∨ (Rect.block (s := S1024x512x64) S64x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S1024x512.size a
  hwx0_1 : ∀ i : grid0.Coords, EltTy.bits .f32 = 32 ∨ (Rect.block (s := S1024x512) S64x512.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x256x64.size a ≤ S1024x256x64.size a
  hwx1_0 : ∀ i : grid1.Coords, EltTy.bits .f32 = 32 ∨ (Rect.block (s := S1024x256x64) S64x256x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x256.size a ≤ S1024x256.size a
  hwx1_1 : ∀ i : grid1.Coords, EltTy.bits .f32 = 32 ∨ (Rect.block (s := S1024x256) S64x256.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x512.size a ≤ S1024x512.size a
  hwx2_0 : ∀ i : grid2.Coords, EltTy.bits .f32 = 32 ∨ (Rect.block (s := S1024x512) S256x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S1024x256.size a
  hwx2_1 : ∀ i : grid2.Coords, EltTy.bits .f32 = 32 ∨ (Rect.block (s := S1024x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S512x512.size a
  hwx2_2 : ∀ i : grid2.Coords, EltTy.bits .f32 = 32 ∨ (Rect.block (s := S512x512) S512x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512x256.size a ≤ S512x256.size a
  hwx2_4 : ∀ i : grid2.Coords, EltTy.bits .f32 = 32 ∨ (Rect.block (s := S512x256) S512x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x1.size a ≤ S1x1.size a
  hwx2_7 : ∀ i : grid2.Coords, EltTy.bits .f32 = 32 ∨ (Rect.block (s := S1x1) S1x1.size (cc2_transform_7 i) (hinb2_7 i)).WholeWords (EltTy.packing .f32)

variable [Facts₀]

def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf

abbrev win0_0 : Pipeline.Window sig grid0 :=
  Pipeline.Window.ofSpec (Memref.whole main_v0) S64x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S64x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S64x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S64x256.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v2) S256x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S256x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S512x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg4) S512x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v15) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v7) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v16) S1x1.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun _ => false | 7 => fun i => !(k2_cond2 i == 1#1) | ⟨_ + 8, h⟩ => absurd h (Nat.not_lt.2 (Nat.le_add_left _ _))

class Facts : Prop extends Facts₀ where

variable [Facts]
-- ==== ReferenceIdeal.lean ====
abbrev S1024x512x8x8 : Shape := ⟨4, ![1024, 512, 8, 8]⟩
abbrev S1024x256x8x8 : Shape := ⟨4, ![1024, 256, 8, 8]⟩
abbrev S512x512 : Shape := ⟨2, ![512, 512]⟩
abbrev S512 : Shape := ⟨1, ![512]⟩
abbrev S512x256 : Shape := ⟨2, ![512, 256]⟩
abbrev S256 : Shape := ⟨1, ![256]⟩
abbrev S_ : Shape := ⟨0, ![]⟩
abbrev S1024x512 : Shape := ⟨2, ![1024, 512]⟩
abbrev S1024x256 : Shape := ⟨2, ![1024, 256]⟩
abbrev S1x512 : Shape := ⟨2, ![1, 512]⟩
abbrev S1x256 : Shape := ⟨2, ![1, 256]⟩
abbrev S1024 : Shape := ⟨1, ![1024]⟩
abbrev S1x1024x256 : Shape := ⟨3, ![1, 1024, 256]⟩
abbrev S1024x1x256 : Shape := ⟨3, ![1024, 1, 256]⟩
abbrev S1024x1024x256 : Shape := ⟨3, ![1024, 1024, 256]⟩

abbrev nBuf : Space → Nat
  | .hbm => 57
  | .vmem => 0
  | .smem => 0
  | _ => 0

abbrev bufTy : (tb : Table) → Fin (tcTables nBuf tb) → BufTy
  | .hbm, ⟨0, _⟩ => ⟨S1024x512x8x8, .f32⟩
  | .hbm, ⟨1, _⟩ => ⟨S1024x256x8x8, .f32⟩
  | .hbm, ⟨2, _⟩ => ⟨S512x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S_, .f32⟩
  | .hbm, ⟨7, _⟩ => ⟨S1024x512, .f32⟩
  | .hbm, ⟨8, _⟩ => ⟨S_, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x256, .f32⟩
  | .hbm, ⟨13, _⟩ => ⟨S_, .f32⟩
  | .hbm, ⟨14, _⟩ => ⟨S1024x256, .f32⟩
  | .hbm, ⟨15, _⟩ => ⟨S1024x256, .f32⟩
  | .hbm, ⟨16, _⟩ => ⟨S1024x512, .f32⟩
  | .hbm, ⟨17, _⟩ => ⟨S1x512, .f32⟩
  | .hbm, ⟨18, _⟩ => ⟨S1024x512, .f32⟩
  | .hbm, ⟨19, _⟩ => ⟨S1024x512, .f32⟩
  | .hbm, ⟨20, _⟩ => ⟨S_, .f32⟩
  | .hbm, ⟨21, _⟩ => ⟨S1024x512, .f32⟩
  | .hbm, ⟨22, _⟩ => ⟨S1024x512, .f32⟩
  | .hbm, ⟨23, _⟩ => ⟨S1024x256, .f32⟩
  | .hbm, ⟨24, _⟩ => ⟨S1x256, .f32⟩
  | .hbm, ⟨25, _⟩ => ⟨S1024x256, .f32⟩
  | .hbm, ⟨26, _⟩ => ⟨S1024x256, .f32⟩
  | .hbm, ⟨27, _⟩ => ⟨S1024x256, .f32⟩
  | .hbm, ⟨28, _⟩ => ⟨S1024x256, .f32⟩
  | .hbm, ⟨29, _⟩ => ⟨S1024x256, .f32⟩
  | .hbm, ⟨30, _⟩ => ⟨S_, .f32⟩
  | .hbm, ⟨31, _⟩ => ⟨S1024x256, .f32⟩
  | .hbm, ⟨32, _⟩ => ⟨S1024x256, .f32⟩
  | .hbm, ⟨33, _⟩ => ⟨S_, .f32⟩
  | .hbm, ⟨34, _⟩ => ⟨S1024, .f32⟩
  | .hbm, ⟨35, _⟩ => ⟨S1x1024x256, .f32⟩
  | .hbm, ⟨36, _⟩ => ⟨S1024x1x256, .f32⟩
  | .hbm, ⟨37, _⟩ => ⟨S1024x1024x256, .f32⟩
  | .hbm, ⟨38, _⟩ => ⟨S1024x1024x256, .f32⟩
  | .hbm, ⟨39, _⟩ => ⟨S1024x1024x256, .f32⟩
  | .hbm, ⟨40, _⟩ => ⟨S1024x1024x256, .f32⟩
  | .hbm, ⟨41, _⟩ => ⟨S_, .f32⟩
  | .hbm, ⟨42, _⟩ => ⟨S1024x256, .f32⟩
  | .hbm, ⟨43, _⟩ => ⟨S_, .f32⟩
  | .hbm, ⟨44, _⟩ => ⟨S1024x256, .f32⟩
  | .hbm, ⟨45, _⟩ => ⟨S1024x256, .f32⟩
  | .hbm, ⟨46, _⟩ => ⟨S1024x256, .f32⟩
  | .hbm, ⟨47, _⟩ => ⟨S_, .f32⟩
  | .hbm, ⟨48, _⟩ => ⟨S1024x256, .f32⟩
  | .hbm, ⟨49, _⟩ => ⟨S1024x256, .f32⟩
  | .hbm, ⟨50, _⟩ => ⟨S_, .f32⟩
  | .hbm, ⟨51, _⟩ => ⟨S1024, .f32⟩
  | .hbm, ⟨52, _⟩ => ⟨S1024, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | _, _ => ⟨S1024x512x8x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_cst_2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call0_cst : Ref sig .tc := ⟨.hbm, 20, rfl⟩
abbrev main_call0_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_v34 : Ref sig .tc := ⟨.hbm, 52, rfl⟩
abbrev main_cst_9 : Ref sig .tc := ⟨.hbm, 53, rfl⟩
abbrev main_v35 : Ref sig .tc := ⟨.hbm, 54, rfl⟩
abbrev main_cst_10 : Ref sig .tc := ⟨.hbm, 55, rfl⟩
abbrev main_v36 : Ref sig .tc := ⟨.hbm, 56, rfl⟩

abbrev nD : Nat := 1
abbrev τ : Topo := Topo.v7x

variable {F : FTy → Type} [FloatOps F]

class Facts₀ : Prop where
  reducesTo_S1024x512x8x8_S1024x512_d2_3 : S1024x512x8x8.ReducesTo [2, 3] S1024x512
  h_S_ : 0 < S_.numel
  bcast_S_S1024x512 : S_.BroadcastsInDim S1024x512 (![] : Fin 0 → Fin S1024x512.rank)
  reducesTo_S1024x256x8x8_S1024x256_d2_3 : S1024x256x8x8.ReducesTo [2, 3] S1024x256
  bcast_S_S1024x256 : S_.BroadcastsInDim S1024x256 (![] : Fin 0 → Fin S1024x256.rank)
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  reducesTo_S1024x256_S1024_d1 : S1024x256.ReducesTo [1] S1024
  bcast_S1024x256_S1x1024x256_1_2 : S1024x256.BroadcastsInDim S1x1024x256 (![1, 2] : Fin 2 → Fin S1x1024x256.rank)
  bcast_S1024x256_S1024x1x256_0_2 : S1024x256.BroadcastsInDim S1024x1x256 (![0, 2] : Fin 2 → Fin S1024x1x256.rank)
  bcast_S1x1024x256_S1024x1024x256_0_1_2 : S1x1024x256.BroadcastsInDim S1024x1024x256 (![0, 1, 2] : Fin 3 → Fin S1024x1024x256.rank)
  bcast_S1024x1x256_S1024x1024x256_0_1_2 : S1024x1x256.BroadcastsInDim S1024x1024x256 (![0, 1, 2] : Fin 3 → Fin S1024x1024x256.rank)
  reducesTo_S1024x1024x256_S1024x256_d1 : S1024x1024x256.ReducesTo [1] S1024x256
  reducesTo_S1024_S_d0 : S1024.ReducesTo [0] S_
  dot_S1024x512_S512x512_S1024x512_1_0_0_1_n_n_wf : DotDims.WF S1024x512 S512x512 S1024x512 [1] [0] [0] [1] [] []
  dot_S1024x512_S512x256_S1024x256_1_0_0_1_n_n_wf : DotDims.WF S1024x512 S512x256 S1024x256 [1] [0] [0] [1] [] []

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

class Facts : Prop extends Facts₀ where

variable [Facts]
-- ==== Proof.K.Pools.lean ====
/-
  The two pooling regions of the program, each at the buffer contents `V` it is entered from: what one grid point
  leaves in its output block, the body's run on the staging buffers, and the pipeline's proof data.
-/
import proofs.«173461_j48704929137027_2_alg».proof.Proof.Gen.Kernel.Launch
import proofs.«173461_j48704929137027_2_alg».proof.Proof.Gen.Kernel.Skeleton
import proofs.«173461_j48704929137027_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Pools
variable (V : (c : Dev nD) → (b : Ref sig .tc) → Buf (Elt F) ((c : Thread nD τ).loc b))

/-! # The pooling kernel of call 0: one grid point reads a block of 64 samples × 512 channels × 64 positions and stores,
    for every sample and channel of the block, the sum of the 64 positions times 1/64 -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole input block and the whole output block, as the body's load and store address them. -/
abbrev rin0 : Rect S64x512x64 := Rect.unit (s := S64x512x64) ![0, 0, 0] S64x512x64.size inb_S64x512x64_S64x512x64_0_0_0
abbrev rout0 : Rect S64x512 := Rect.unit (s := S64x512) ![0, 0] S64x512.size inb_S64x512_S64x512_0_0

/-- The output window's staging buffer after the body: its one store, of the pooled block. -/
def out0_1 (x0 : Vec F S64x512x64 .f32) : Vec F S64x512 .f32 :=
  View.canon [⟨rout0, k0_pay1 (View.ld x0 rin0)⟩]

/-- The one store covers the output block. -/
theorem cover0_1 (p0 : Vec F S64x512 .f32) (y : S64x512.Idx) :
    ∃ pc ∈ ([⟨rout0, p0⟩] : List (View.Piece (Elt F) S64x512 .f32)), y ∈ pc.1.set :=
  View.cover_of_tiled [⟨rout0, p0⟩] S64x512.size (by rfl) y

set_option maxHeartbeats 1000000 in
/-- The body on whole staging buffers, the input's at contents `x0` and the output's at anything, runs to the
    continuation holding the input's as it was and the output's at `out0_1 x0`. -/
theorem sound_kernel0 (c : Dev nD) (E : Set ℕ) (i : grid0.Coords) (arg1 : Memref sig .tc .vmem S64x512x64 .f32) (harg1 : arg1.IsWhole) (arg2 : Memref sig .tc .vmem S64x512 .f32) (harg2 : arg2.IsWhole)
    (x0 : Vec F S64x512x64 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__pool_kernel i arg1 harg1 arg2 harg2) K := by
  simp only [cc0__pool_kernel_eq_skeleton]; unfold cc0__pool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of pipeline 0 on core `c`: the arrays as the region finds them; after the body at point `t`
    the input's buffer at its block and the output's at the pooled block; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

/-! # The pooling kernel of call 1: one grid point reads a block of 64 samples × 256 channels × 64 positions and stores,
    for every sample and channel of the block, the sum of the 64 positions times 1/64 -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds its block at every point, for any proof data whose array is `V`'s and
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole input block and the whole output block, as the body's load and store address them. -/
abbrev rin1 : Rect S64x256x64 := Rect.unit (s := S64x256x64) ![0, 0, 0] S64x256x64.size inb_S64x256x64_S64x256x64_0_0_0
abbrev rout1 : Rect S64x256 := Rect.unit (s := S64x256) ![0, 0] S64x256.size inb_S64x256_S64x256_0_0

/-- The output window's staging buffer after the body: its one store, of the pooled block. -/
def out1_1 (x0 : Vec F S64x256x64 .f32) : Vec F S64x256 .f32 :=
  View.canon [⟨rout1, k1_pay1 (View.ld x0 rin1)⟩]

/-- The one store covers the output block. -/
theorem cover1_1 (p0 : Vec F S64x256 .f32) (y : S64x256.Idx) :
    ∃ pc ∈ ([⟨rout1, p0⟩] : List (View.Piece (Elt F) S64x256 .f32)), y ∈ pc.1.set :=
  View.cover_of_tiled [⟨rout1, p0⟩] S64x256.size (by rfl) y

set_option maxHeartbeats 1000000 in
/-- The body on whole staging buffers, the input's at contents `x0` and the output's at anything, runs to the
    continuation holding the input's as it was and the output's at `out1_1 x0`. -/
theorem sound_kernel1 (c : Dev nD) (E : Set ℕ) (i : grid1.Coords) (arg1 : Memref sig .tc .vmem S64x256x64 .f32) (harg1 : arg1.IsWhole) (arg2 : Memref sig .tc .vmem S64x256 .f32) (harg2 : arg2.IsWhole)
    (x0 : Vec F S64x256x64 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__pool_kernel i arg1 harg1 arg2 harg2) K := by
  simp only [cc1__pool_kernel_eq_skeleton]; unfold cc1__pool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The proof data of pipeline 1 on core `c`: the arrays as the region finds them; after the body at point `t`
    the input's buffer at its block and the output's at the pooled block; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation1 (c : Dev nD) : BodyObligation (dat1 (F := F) V c) (defs₀ (F := F)) Variants.none () Set.univ := fun t => by
  rw [bigSep_W1, bigSep_W1]
  exact sound_body1 V c t

end Pools

end Cert.Kernel.Hand

end
-- ==== Proof.K.MlpRuns.lean ====
/-
  The network region (call 2), at the buffer contents `V` it is entered from: its grid of four points, each reading
  256 rows of the pooled inputs and the whole weights; the accumulator it keeps between points in a scratch cell —
  reset at the first point, added to at every point, copied to the output at the last —, and the body's run in each of
  the three cases (first point, middle points, last point).
-/
import proofs.«173461_j48704929137027_2_alg».proof.Proof.Gen.Kernel.Launch
import proofs.«173461_j48704929137027_2_alg».proof.Proof.Gen.Kernel.Skeleton
import proofs.«173461_j48704929137027_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Mlp
variable (V : (c : Dev nD) → (b : Ref sig .tc) → Buf (Elt F) ((c : Thread nD τ).loc b))

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not (a window fetched only at
    the first point has the same block at every point). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions -/

/-- "This is the first point": the accumulator is reset. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- "This is the last point": the accumulator is copied to the output. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_in : ∀ (w : Fin cfg2.W), w.val < 7 → ∀ i, cfg2.idle w i = false := by
  intro w hw i
  match w, hw with
  | ⟨0, _⟩, _ => rfl | ⟨1, _⟩, _ => rfl | ⟨2, _⟩, _ => rfl | ⟨3, _⟩, _ => rfl | ⟨4, _⟩, _ => rfl | ⟨5, _⟩, _ => rfl | ⟨6, _⟩, _ => rfl
/-- Away from the last point the output block is idle and is not written back. -/
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
theorem liveAt2_7 : ∀ t : Fin cfg2.N, cond2_1 (grid2.coords t) → cfg2.idle 7 (grid2.coords t) = false := by decide +kernel

/-! ## The staging buffers at a point, and the scratch cell -/

abbrev VO2 : View sig .tc .vmem S1x1 .f32 := (Memref.whole cc2_stg7_0 : Memref sig .tc .vmem S1x1 .f32).view
abbrev ms2_0 (t : Fin cfg2.N) : Memref sig .tc .vmem S256x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x256 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x256 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x256 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x1 .f32 := win2_7.stage (cfg2.slots t 7)
abbrev hs2_7 (t : Fin cfg2.N) : (ms2_7 t).IsWhole := hstage2_7 ((cfg2.slots t 7).cast nbuf2_7)
/-- The scratch cell that carries the accumulator between points. -/
abbrev scM2 : Memref sig .tc .vmem S1x1 .f32 := Memref.whole cc2_scratch0
abbrev VS2 : View sig .tc .vmem S1x1 .f32 := scM2.view

/-- The region's invariant with the scratch cell as a buffer owned at some contents. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ d, owns (c : Thread nD τ) scM2 fullShare d)) ∗ (∃ r, prngReg c r)) := by
  unfold Pipeline.ΦA; rw [scopedRest2_eq]; simp only [scM2, owns_whole]; try rfl

set_option maxHeartbeats 4000000 in
/-- The body's run in case A: the pieces its stores leave in the output block and in the accumulator, with the proof
    that on whole staging buffers, the inputs' at their contents, the body runs to the continuation holding the inputs'
    as they were and those pieces written. -/
noncomputable def kernelRun2_A (c : Dev nD) (i : grid2.Coords) (arg1 : Memref sig .tc .vmem S256x512 .f32) (harg1 : arg1.IsWhole) (arg2 : Memref sig .tc .vmem S256x256 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S1x1 .f32) (harg9 : arg9.IsWhole) (hc0 : cond2_0 i) (hc1 : ¬cond2_1 i)
    (x0 : Vec F S256x512 .f32) (x1 : Vec F S256x256 .f32) (x2 : Vec F S512x512 .f32) (x3 : Vec F S1x512 .f32) (x4 : Vec F S512x256 .f32) (x5 : Vec F S1x256 .f32) (x6 : Vec F S1x256 .f32) :
    Σ' (L7 : List (View.Piece (Elt F) S1x1 .f32)), { LS : List (View.Piece (Elt F) S1x1 .f32) //
      ∀ (xi7 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ f, arg9.view.loc (c : Thread nD τ) ↦[arg9.view.set]{fullShare} arg9.view.writes (Elt F) f LS)) -∗ K ⟨⟩))
          ⊢ wp frame (wpE (defs₀ (F := F)) Variants.none c none) E (cc2__mlp_kernel i arg1 harg1 arg2 harg2 arg3 harg3 arg4 harg4 arg5 harg5 arg6 harg6 arg7 harg7 arg8 harg8 arg9 harg9) K } := by
  refine ⟨[], ?_, fun xi7 E K => ?run⟩
  case run =>
    simp only [cc2__mlp_kernel_eq_skeleton]; unfold cc2__mlp_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact HS

set_option maxHeartbeats 4000000 in
/-- The body's run in case B: the pieces its stores leave in the output block and in the accumulator, with the proof
    that on whole staging buffers, the inputs' at their contents, the body runs to the continuation holding the inputs'
    as they were and those pieces written. -/
noncomputable def kernelRun2_B (c : Dev nD) (i : grid2.Coords) (arg1 : Memref sig .tc .vmem S256x512 .f32) (harg1 : arg1.IsWhole) (arg2 : Memref sig .tc .vmem S256x256 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : ¬cond2_1 i)
    (x0 : Vec F S256x512 .f32) (x1 : Vec F S256x256 .f32) (x2 : Vec F S512x512 .f32) (x3 : Vec F S1x512 .f32) (x4 : Vec F S512x256 .f32) (x5 : Vec F S1x256 .f32) (x6 : Vec F S1x256 .f32) (xs : Vec F S1x1 .f32) :
    Σ' (L7 : List (View.Piece (Elt F) S1x1 .f32)), { LS : List (View.Piece (Elt F) S1x1 .f32) //
      ∀ (xi7 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ f, arg9.view.loc (c : Thread nD τ) ↦[arg9.view.set]{fullShare} arg9.view.writes (Elt F) f LS)) -∗ K ⟨⟩))
          ⊢ wp frame (wpE (defs₀ (F := F)) Variants.none c none) E (cc2__mlp_kernel i arg1 harg1 arg2 harg2 arg3 harg3 arg4 harg4 arg5 harg5 arg6 harg6 arg7 harg7 arg8 harg8 arg9 harg9) K } := by
  refine ⟨[], ?_, fun xi7 E K => ?run⟩
  case run =>
    simp only [cc2__mlp_kernel_eq_skeleton]; unfold cc2__mlp_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact HS

set_option maxHeartbeats 4000000 in
/-- The body's run in case C: the pieces its stores leave in the output block and in the accumulator, with the proof
    that on whole staging buffers, the inputs' at their contents, the body runs to the continuation holding the inputs'
    as they were and those pieces written. -/
noncomputable def kernelRun2_C (c : Dev nD) (i : grid2.Coords) (arg1 : Memref sig .tc .vmem S256x512 .f32) (harg1 : arg1.IsWhole) (arg2 : Memref sig .tc .vmem S256x256 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : cond2_1 i)
    (x0 : Vec F S256x512 .f32) (x1 : Vec F S256x256 .f32) (x2 : Vec F S512x512 .f32) (x3 : Vec F S1x512 .f32) (x4 : Vec F S512x256 .f32) (x5 : Vec F S1x256 .f32) (x6 : Vec F S1x256 .f32) (xs : Vec F S1x1 .f32) :
    Σ' (L7 : List (View.Piece (Elt F) S1x1 .f32)), { LS : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS)) -∗ K ⟨⟩))
          ⊢ wp frame (wpE (defs₀ (F := F)) Variants.none c none) E (cc2__mlp_kernel i arg1 harg1 arg2 harg2 arg3 harg3 arg4 harg4 arg5 harg5 arg6 harg6 arg7 harg7 arg8 harg8 arg9 harg9) K } := by
  refine ⟨?_, ?_, fun E K => ?run⟩
  case run =>
    simp only [cc2__mlp_kernel_eq_skeleton]; unfold cc2__mlp_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    iexists _; iexact HS

end Mlp

end Cert.Kernel.Hand

end
-- ==== Proof.K.Mlp.lean ====
/-
  The network region (call 2): what the accumulator and the output block hold after each of the four grid points,
  the pipeline's proof data with the accumulator carried in the region's invariant, and the body obligation at every
  point.
-/
import proofs.«173461_j48704929137027_2_alg».proof.Proof.Gen.Kernel.Launch
import proofs.«173461_j48704929137027_2_alg».proof.Proof.Gen.Kernel.Skeleton
import proofs.«173461_j48704929137027_2_alg».proof.Proof.Gen.Kernel.Points
import proofs.«173461_j48704929137027_2_alg».proof.Proof.K.MlpRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Mlp
variable (V : (c : Dev nD) → (b : Ref sig .tc) → Buf (Elt F) ((c : Thread nD τ).loc b))

/-- Case A's pieces for the accumulator cover the cell. -/
theorem scover2_A (c : Dev nD) (i : grid2.Coords) (arg1 : Memref sig .tc .vmem S256x512 .f32) (harg1 : arg1.IsWhole) (arg2 : Memref sig .tc .vmem S256x256 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S1x1 .f32) (harg9 : arg9.IsWhole) (hc0 : cond2_0 i) (hc1 : ¬cond2_1 i)
    (x0 : Vec F S256x512 .f32) (x1 : Vec F S256x256 .f32) (x2 : Vec F S512x512 .f32) (x3 : Vec F S1x512 .f32) (x4 : Vec F S512x256 .f32) (x5 : Vec F S1x256 .f32) (x6 : Vec F S1x256 .f32) (y : S1x1.Idx) :
    ∃ pc ∈ (kernelRun2_A c i arg1 harg1 arg2 harg2 arg3 harg3 arg4 harg4 arg5 harg5 arg6 harg6 arg7 harg7 arg8 harg8 arg9 harg9 hc0 hc1 x0 x1 x2 x3 x4 x5 x6).2.1, y ∈ pc.1.set :=
  View.cover_of_tiledL (kernelRun2_A c i arg1 harg1 arg2 harg2 arg3 harg3 arg4 harg4 arg5 harg5 arg6 harg6 arg7 harg7 arg8 harg8 arg9 harg9 hc0 hc1 x0 x1 x2 x3 x4 x5 x6).2.1 S1x1.size (by sl_kernel_rfl) y

/-- What case A leaves in the accumulator. -/
def sout2_A (c : Dev nD) (i : grid2.Coords) (arg1 : Memref sig .tc .vmem S256x512 .f32) (harg1 : arg1.IsWhole) (arg2 : Memref sig .tc .vmem S256x256 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S1x1 .f32) (harg9 : arg9.IsWhole) (hc0 : cond2_0 i) (hc1 : ¬cond2_1 i)
    (x0 : Vec F S256x512 .f32) (x1 : Vec F S256x256 .f32) (x2 : Vec F S512x512 .f32) (x3 : Vec F S1x512 .f32) (x4 : Vec F S512x256 .f32) (x5 : Vec F S1x256 .f32) (x6 : Vec F S1x256 .f32) : Vec F S1x1 .f32 :=
  VS2.read (Elt F) (VS2.writes (Elt F) VS2.junk (kernelRun2_A c i arg1 harg1 arg2 harg2 arg3 harg3 arg4 harg4 arg5 harg5 arg6 harg6 arg7 harg7 arg8 harg8 arg9 harg9 hc0 hc1 x0 x1 x2 x3 x4 x5 x6).2.1)

/-- What case A leaves in the output block (nothing is stored: a placeholder no one reads). -/
def out2_A (c : Dev nD) (i : grid2.Coords) (arg1 : Memref sig .tc .vmem S256x512 .f32) (harg1 : arg1.IsWhole) (arg2 : Memref sig .tc .vmem S256x256 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S1x1 .f32) (harg9 : arg9.IsWhole) (hc0 : cond2_0 i) (hc1 : ¬cond2_1 i)
    (x0 : Vec F S256x512 .f32) (x1 : Vec F S256x256 .f32) (x2 : Vec F S512x512 .f32) (x3 : Vec F S1x512 .f32) (x4 : Vec F S512x256 .f32) (x5 : Vec F S1x256 .f32) (x6 : Vec F S1x256 .f32) : Vec F S1x1 .f32 :=
  VO2.read (Elt F) (VO2.writes (Elt F) VO2.junk (kernelRun2_A c i arg1 harg1 arg2 harg2 arg3 harg3 arg4 harg4 arg5 harg5 arg6 harg6 arg7 harg7 arg8 harg8 arg9 harg9 hc0 hc1 x0 x1 x2 x3 x4 x5 x6).1)

/-- Case B's pieces for the accumulator cover the cell. -/
theorem scover2_B (c : Dev nD) (i : grid2.Coords) (arg1 : Memref sig .tc .vmem S256x512 .f32) (harg1 : arg1.IsWhole) (arg2 : Memref sig .tc .vmem S256x256 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : ¬cond2_1 i)
    (x0 : Vec F S256x512 .f32) (x1 : Vec F S256x256 .f32) (x2 : Vec F S512x512 .f32) (x3 : Vec F S1x512 .f32) (x4 : Vec F S512x256 .f32) (x5 : Vec F S1x256 .f32) (x6 : Vec F S1x256 .f32) (xs : Vec F S1x1 .f32) (y : S1x1.Idx) :
    ∃ pc ∈ (kernelRun2_B c i arg1 harg1 arg2 harg2 arg3 harg3 arg4 harg4 arg5 harg5 arg6 harg6 arg7 harg7 arg8 harg8 arg9 harg9 hc0 hc1 x0 x1 x2 x3 x4 x5 x6 xs).2.1, y ∈ pc.1.set :=
  View.cover_of_tiledL (kernelRun2_B c i arg1 harg1 arg2 harg2 arg3 harg3 arg4 harg4 arg5 harg5 arg6 harg6 arg7 harg7 arg8 harg8 arg9 harg9 hc0 hc1 x0 x1 x2 x3 x4 x5 x6 xs).2.1 S1x1.size (by sl_kernel_rfl) y

/-- What case B leaves in the accumulator. -/
def sout2_B (c : Dev nD) (i : grid2.Coords) (arg1 : Memref sig .tc .vmem S256x512 .f32) (harg1 : arg1.IsWhole) (arg2 : Memref sig .tc .vmem S256x256 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : ¬cond2_1 i)
    (x0 : Vec F S256x512 .f32) (x1 : Vec F S256x256 .f32) (x2 : Vec F S512x512 .f32) (x3 : Vec F S1x512 .f32) (x4 : Vec F S512x256 .f32) (x5 : Vec F S1x256 .f32) (x6 : Vec F S1x256 .f32) (xs : Vec F S1x1 .f32) : Vec F S1x1 .f32 :=
  VS2.read (Elt F) (VS2.writes (Elt F) VS2.junk (kernelRun2_B c i arg1 harg1 arg2 harg2 arg3 harg3 arg4 harg4 arg5 harg5 arg6 harg6 arg7 harg7 arg8 harg8 arg9 harg9 hc0 hc1 x0 x1 x2 x3 x4 x5 x6 xs).2.1)

/-- What case B leaves in the output block (nothing is stored: a placeholder no one reads). -/
def out2_B (c : Dev nD) (i : grid2.Coords) (arg1 : Memref sig .tc .vmem S256x512 .f32) (harg1 : arg1.IsWhole) (arg2 : Memref sig .tc .vmem S256x256 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : ¬cond2_1 i)
    (x0 : Vec F S256x512 .f32) (x1 : Vec F S256x256 .f32) (x2 : Vec F S512x512 .f32) (x3 : Vec F S1x512 .f32) (x4 : Vec F S512x256 .f32) (x5 : Vec F S1x256 .f32) (x6 : Vec F S1x256 .f32) (xs : Vec F S1x1 .f32) : Vec F S1x1 .f32 :=
  VO2.read (Elt F) (VO2.writes (Elt F) VO2.junk (kernelRun2_B c i arg1 harg1 arg2 harg2 arg3 harg3 arg4 harg4 arg5 harg5 arg6 harg6 arg7 harg7 arg8 harg8 arg9 harg9 hc0 hc1 x0 x1 x2 x3 x4 x5 x6 xs).1)

/-- Case C's pieces for the accumulator cover the cell. -/
theorem scover2_C (c : Dev nD) (i : grid2.Coords) (arg1 : Memref sig .tc .vmem S256x512 .f32) (harg1 : arg1.IsWhole) (arg2 : Memref sig .tc .vmem S256x256 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : cond2_1 i)
    (x0 : Vec F S256x512 .f32) (x1 : Vec F S256x256 .f32) (x2 : Vec F S512x512 .f32) (x3 : Vec F S1x512 .f32) (x4 : Vec F S512x256 .f32) (x5 : Vec F S1x256 .f32) (x6 : Vec F S1x256 .f32) (xs : Vec F S1x1 .f32) (y : S1x1.Idx) :
    ∃ pc ∈ (kernelRun2_C c i arg1 harg1 arg2 harg2 arg3 harg3 arg4 harg4 arg5 harg5 arg6 harg6 arg7 harg7 arg8 harg8 arg9 harg9 hc0 hc1 x0 x1 x2 x3 x4 x5 x6 xs).2.1, y ∈ pc.1.set :=
  View.cover_of_tiledL (kernelRun2_C c i arg1 harg1 arg2 harg2 arg3 harg3 arg4 harg4 arg5 harg5 arg6 harg6 arg7 harg7 arg8 harg8 arg9 harg9 hc0 hc1 x0 x1 x2 x3 x4 x5 x6 xs).2.1 S1x1.size (by sl_kernel_rfl) y

/-- What case C leaves in the accumulator. -/
def sout2_C (c : Dev nD) (i : grid2.Coords) (arg1 : Memref sig .tc .vmem S256x512 .f32) (harg1 : arg1.IsWhole) (arg2 : Memref sig .tc .vmem S256x256 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : cond2_1 i)
    (x0 : Vec F S256x512 .f32) (x1 : Vec F S256x256 .f32) (x2 : Vec F S512x512 .f32) (x3 : Vec F S1x512 .f32) (x4 : Vec F S512x256 .f32) (x5 : Vec F S1x256 .f32) (x6 : Vec F S1x256 .f32) (xs : Vec F S1x1 .f32) : Vec F S1x1 .f32 :=
  VS2.read (Elt F) (VS2.writes (Elt F) VS2.junk (kernelRun2_C c i arg1 harg1 arg2 harg2 arg3 harg3 arg4 harg4 arg5 harg5 arg6 harg6 arg7 harg7 arg8 harg8 arg9 harg9 hc0 hc1 x0 x1 x2 x3 x4 x5 x6 xs).2.1)

/-- What case C leaves in the output block. -/
def out2_C (c : Dev nD) (i : grid2.Coords) (arg1 : Memref sig .tc .vmem S256x512 .f32) (harg1 : arg1.IsWhole) (arg2 : Memref sig .tc .vmem S256x256 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : cond2_1 i)
    (x0 : Vec F S256x512 .f32) (x1 : Vec F S256x256 .f32) (x2 : Vec F S512x512 .f32) (x3 : Vec F S1x512 .f32) (x4 : Vec F S512x256 .f32) (x5 : Vec F S1x256 .f32) (x6 : Vec F S1x256 .f32) (xs : Vec F S1x1 .f32) : Vec F S1x1 .f32 :=
  VO2.read (Elt F) (VO2.writes (Elt F) VO2.junk (kernelRun2_C c i arg1 harg1 arg2 harg2 arg3 harg3 arg4 harg4 arg5 harg5 arg6 harg6 arg7 harg7 arg8 harg8 arg9 harg9 hc0 hc1 x0 x1 x2 x3 x4 x5 x6 xs).1)

/-- Case C's one store into the output block covers it. -/
theorem cover2_C (c : Dev nD) (i : grid2.Coords) (arg1 : Memref sig .tc .vmem S256x512 .f32) (harg1 : arg1.IsWhole) (arg2 : Memref sig .tc .vmem S256x256 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : cond2_1 i)
    (x0 : Vec F S256x512 .f32) (x1 : Vec F S256x256 .f32) (x2 : Vec F S512x512 .f32) (x3 : Vec F S1x512 .f32) (x4 : Vec F S512x256 .f32) (x5 : Vec F S1x256 .f32) (x6 : Vec F S1x256 .f32) (xs : Vec F S1x1 .f32) (y : S1x1.Idx) :
    ∃ pc ∈ (kernelRun2_C c i arg1 harg1 arg2 harg2 arg3 harg3 arg4 harg4 arg5 harg5 arg6 harg6 arg7 harg7 arg8 harg8 arg9 harg9 hc0 hc1 x0 x1 x2 x3 x4 x5 x6 xs).1, y ∈ pc.1.set :=
  View.cover_of_tiledL (kernelRun2_C c i arg1 harg1 arg2 harg2 arg3 harg3 arg4 harg4 arg5 harg5 arg6 harg6 arg7 harg7 arg8 harg8 arg9 harg9 hc0 hc1 x0 x1 x2 x3 x4 x5 x6 xs).1 S1x1.size (by sl_kernel_rfl) y

/-! ## What the output block and the accumulator hold after each point -/

/-- After the body at position `n`: (the output block, the accumulator) — the case of the point, run at the point's
    staging buffers and input blocks, the accumulator read at what the point before left. -/
def outsAt2 (c : Dev nD) : (n : ℕ) → n < cfg2.N → Vec F S1x1 .f32 × Vec F S1x1 .f32
  | 0, hn => (out2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩), sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩))
  | n + 1, hn =>
    if h0 : (n + 1) % 4 = 0 then
      False.elim (by have hN : n + 1 < 4 := lt_of_lt_of_eq hn (show cfg2.N = 4 from N_2); omega)
    else
      if h1 : (n + 1) % 4 = 3 then
        (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2, sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2)
      else
        (out2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = (out2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t), sout2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)) := by
  obtain ⟨n, hn⟩ := t
  cases n with
  | zero => exact rfl
  | succ n => exact absurd h0 (by have hN : n + 1 < 4 := lt_of_lt_of_eq hn (show cfg2.N = 4 from N_2); (try dsimp only); omega)

theorem outsAt2_B (c : Dev nD) (t : Fin cfg2.N) (h0 : ¬t.val % 4 = 0) (h1 : ¬t.val % 4 = 3) :
    outsAt2 V c t.val t.isLt = (out2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2, sout2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2, sout2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scoped buffer no window stages at
    anything; afterwards the same with the accumulator at what the point before left. -/
def PhiS (c : Dev nD) : (n : ℕ) → n ≤ cfg2.N → sProp 𝕄
  | 0, _ => Pipeline.ΦA spec2 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ owns (c : Thread nD τ) scM2 fullShare ((outsAt2 V c n hn).2)) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ owns (c : Thread nD τ) scM2 fullShare ((outsAt2 V c n hn).2)) ∗ (∃ r, prngReg c r)) := rfl

theorem PhiS_pos (c : Dev nD) (n : ℕ) (h : n ≤ cfg2.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ owns (c : Thread nD τ) scM2 fullShare ((outsAt2 V c (n - 1) (by omega)).2)) ∗ (∃ r, prngReg c r)) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => (outsAt2 V c t.val t.isLt).1
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS V c (t.val + 1) t.isLt from rfl, PhiS_succ]
  have hN : t.val < 4 := lt_of_lt_of_eq t.isLt (show cfg2.N = 4 from N_2)
  rw [show (dat2 V c).leavesExact 0 t = owns (c : Thread nD τ) (ms2_0 t) fullShare ((dat2 V c).after 0 t) from by
    unfold Dat.leavesExact; rw [liveAt2_in 0 (by decide) (grid2.coords t)], after2_0]
  rw [show (dat2 V c).leavesExact 1 t = owns (c : Thread nD τ) (ms2_1 t) fullShare ((dat2 V c).after 1 t) from by
    unfold Dat.leavesExact; rw [liveAt2_in 1 (by decide) (grid2.coords t)], after2_1]
  rw [show (dat2 V c).leavesExact 2 t = owns (c : Thread nD τ) (ms2_2 t) fullShare ((dat2 V c).after 2 t) from by
    unfold Dat.leavesExact; rw [liveAt2_in 2 (by decide) (grid2.coords t)], after2_2]
  rw [show (dat2 V c).leavesExact 3 t = owns (c : Thread nD τ) (ms2_3 t) fullShare ((dat2 V c).after 3 t) from by
    unfold Dat.leavesExact; rw [liveAt2_in 3 (by decide) (grid2.coords t)], after2_3]
  rw [show (dat2 V c).leavesExact 4 t = owns (c : Thread nD τ) (ms2_4 t) fullShare ((dat2 V c).after 4 t) from by
    unfold Dat.leavesExact; rw [liveAt2_in 4 (by decide) (grid2.coords t)], after2_4]
  rw [show (dat2 V c).leavesExact 5 t = owns (c : Thread nD τ) (ms2_5 t) fullShare ((dat2 V c).after 5 t) from by
    unfold Dat.leavesExact; rw [liveAt2_in 5 (by decide) (grid2.coords t)], after2_5]
  rw [show (dat2 V c).leavesExact 6 t = owns (c : Thread nD τ) (ms2_6 t) fullShare ((dat2 V c).after 6 t) from by
    unfold Dat.leavesExact; rw [liveAt2_in 6 (by decide) (grid2.coords t)], after2_6]
  by_cases h0 : t.val % 4 = 0
  · by_cases h1 : t.val % 4 = 3
    · exfalso; omega
    · rw [Dat.leavesExact_idle (dat2 V c) 7 t (idleAt2_7 t (fun h => h1 ((hcond2_1 t).mp h))) (noFlush2_7 t (fun h => h1 ((hcond2_1 t).mp h)))]
      rw [outsAt2_A V c t h0 h1]
      unfold sout2_A; (try dsimp only)
      by_cases hz : t.val = 0
      ·
        rw [PhiS_castSucc V c t, PhiS_zero V c _ _ hz, PhiA2_eq]
        iintro ⟨⟨⟨Hr0, Hr1, Hr2, Hr3, Hr4, Hr5, Hr6, Hr7, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun2_A c (grid2.coords t) _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexact HS
        iintro ⟨H0, H1, H2, H3, H4, H5, H6, H7, ⟨%es, HS⟩⟩
        isplitl [Hr0 Hr1 Hr2 Hr3 Hr4 Hr5 Hr6 Hr7 HS Hg]
        · isplitl [Hr0 Hr1 Hr2 Hr3 Hr4 Hr5 Hr6 Hr7 HS]
          · isplitl [Hr0]; · iexact Hr0
            isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            unfold owns; iexists _; isplitr
            swap; · iexact HS
            ipureintro; exact View.read_writes_of_cover _ _ _ _ _ (scover2_A c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · exfalso; omega
  · by_cases h1 : t.val % 4 = 3
    · rw [show (dat2 V c).leavesExact 7 t = owns (c : Thread nD τ) (ms2_7 t) fullShare ((dat2 V c).after 7 t) from by
        unfold Dat.leavesExact; rw [liveAt2_7 t ((hcond2_1 t).mpr h1)], after2_7]
      rw [outsAt2_C V c t h0 h1]
      unfold out2_C sout2_C; (try dsimp only)
      by_cases hz : t.val = 0
      · exfalso; omega
      ·
        rw [PhiS_castSucc V c t, PhiS_pos V c _ _ hz]
        iintro ⟨⟨⟨Hr0, Hr1, Hr2, Hr3, Hr4, Hr5, Hr6, Hr7, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun2_C c (grid2.coords t) _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS]; · iexact HS
        iintro ⟨H0, H1, H2, H3, H4, H5, H6, ⟨%e7, H7⟩, ⟨%es, HS⟩⟩
        isplitl [Hr0 Hr1 Hr2 Hr3 Hr4 Hr5 Hr6 Hr7 HS Hg]
        · isplitl [Hr0 Hr1 Hr2 Hr3 Hr4 Hr5 Hr6 Hr7 HS]
          · isplitl [Hr0]; · iexact Hr0
            isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            unfold owns; iexists _; isplitr
            swap; · iexact HS
            ipureintro; exact View.read_writes_of_cover _ _ _ _ _ (scover2_C c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (cover2_C c _ _ _ _ _ _ _ _ _ _ _ _ _ _ _ _ _ _ _ _ _ _ _ _ _ _ _ _ _)
    · rw [Dat.leavesExact_idle (dat2 V c) 7 t (idleAt2_7 t (fun h => h1 ((hcond2_1 t).mp h))) (noFlush2_7 t (fun h => h1 ((hcond2_1 t).mp h)))]
      rw [outsAt2_B V c t h0 h1]
      unfold sout2_B; (try dsimp only)
      by_cases hz : t.val = 0
      · exfalso; omega
      ·
        rw [PhiS_castSucc V c t, PhiS_pos V c _ _ hz]
        iintro ⟨⟨⟨Hr0, Hr1, Hr2, Hr3, Hr4, Hr5, Hr6, Hr7, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun2_B c (grid2.coords t) _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexact HS
        iintro ⟨H0, H1, H2, H3, H4, H5, H6, H7, ⟨%es, HS⟩⟩
        isplitl [Hr0 Hr1 Hr2 Hr3 Hr4 Hr5 Hr6 Hr7 HS Hg]
        · isplitl [Hr0 Hr1 Hr2 Hr3 Hr4 Hr5 Hr6 Hr7 HS]
          · isplitl [Hr0]; · iexact Hr0
            isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            unfold owns; iexists _; isplitr
            swap; · iexact HS
            ipureintro; exact View.read_writes_of_cover _ _ _ _ _ (scover2_B c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After the last point the invariant gives the launch's back: the accumulator's contents are forgotten. -/
theorem hout2 (c : Dev nD) : (dat2 V c).Φ (Fin.last cfg2.N) ⊢ Pipeline.ΦA spec2 c := by
  rw [show (dat2 V c).Φ (Fin.last cfg2.N) = PhiS V c (Fin.last cfg2.N).val (Nat.le_of_lt_succ (Fin.last cfg2.N).isLt) from rfl,
    PhiS_pos V c _ _ (by rw [Fin.val_last]; have : cfg2.N = 4 := N_2; omega), PhiA2_eq]
  iintro ⟨⟨Hr0, Hr1, Hr2, Hr3, Hr4, Hr5, Hr6, Hr7, HS⟩, Hg⟩
  isplitl [Hr0 Hr1 Hr2 Hr3 Hr4 Hr5 Hr6 Hr7 HS]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    iexists _; iexact HS
  iexact Hg

end Mlp

end Cert.Kernel.Hand

end
-- ==== Proof.K.Run.lean ====
/-
  The whole program as a run: the buffer contents at every boundary between a stretch of host operations and a
  kernel region, folded from the launch memory; each region as a segment between two boundaries; and the run of @main
  to a final memory that holds, in every unscoped buffer, the last boundary's contents. The arguments are written by no
  operation and no region, so they end as launched.
-/
import proofs.«173461_j48704929137027_2_alg».proof.Proof.Gen.Kernel.Launch
import proofs.«173461_j48704929137027_2_alg».proof.Proof.Gen.Kernel.Skeleton
import proofs.«173461_j48704929137027_2_alg».proof.Proof.Gen.Kernel.Points
import proofs.«173461_j48704929137027_2_alg».proof.Proof.Gen.Kernel.Regions
import proofs.«173461_j48704929137027_2_alg».proof.Proof.K.Pools
import proofs.«173461_j48704929137027_2_alg».proof.Proof.K.Mlp
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev Bd0 : Dev nD → Valuation τ sig (Elt F) := fun c b => (s₀ m ρ).mem ((c : Dev nD), b)
/-- After the two reshapes of the inputs (region 0's entry). -/
abbrev Bd1 : Dev nD → Valuation τ sig (Elt F) := fun c => StableHlo.after hostOps0 (Bd0 m ρ c)
abbrev En0 : (c : Dev nD) → (b : Ref sig .tc) → Buf (Elt F) ((c : Thread nD τ).loc b) := fun c b => Bd1 m ρ c b

/-- At region 0's exit: its arrays at what the pipeline leaves, every other buffer as entered. -/
def Bd2 (c : Dev nD) : Valuation τ sig (Elt F) :=
  Pipeline.withArrays spec0 c (Bd1 m ρ c) fun w => (dat0 (En0 m ρ) c).arrAt w cfg0.N
theorem Bd2_arr (c : Dev nD) (w : Fin cfg0.W) :
    Bd2 m ρ c (Proc.devRef .tc (Pipeline.arrRef spec0 w)) = (dat0 (En0 m ρ) c).arrAt w cfg0.N := by
  unfold Bd2; exact Pipeline.withArrays_arr spec0 launch0.win.arr_inj c _ _ w
theorem Bd2_of_ne (c : Dev nD) (b : Ref sig .tc) (hb : ∀ w, Pipeline.arrRef spec0 w ≠ b) :
    Bd2 m ρ c (Proc.devRef .tc b) = Bd1 m ρ c (Proc.devRef .tc b) := by
  unfold Bd2; exact Pipeline.withArrays_of_ne spec0 c _ _ b hb
abbrev En1 : (c : Dev nD) → (b : Ref sig .tc) → Buf (Elt F) ((c : Thread nD τ).loc b) := fun c b => Bd2 m ρ c b
theorem hF0 (c : Dev nD) (w : Fin cfg0.W) : (dat0 (En0 m ρ) c).arrAt w cfg0.N = En1 m ρ c (Pipeline.arrRef spec0 w) :=
  (Bd2_arr m ρ c w).symm
theorem hrest0 (c : Dev nD) : ∀ b, b ∉ Finset.univ.image (Pipeline.arrRef spec0) → En1 m ρ c b = En0 m ρ c b :=
  fun b hb => Bd2_of_ne m ρ c b fun w e => hb (Finset.mem_image.mpr ⟨w, Finset.mem_univ _, e⟩)

/-- At region 1's exit: its arrays at what the pipeline leaves, every other buffer as entered. -/
def Bd3 (c : Dev nD) : Valuation τ sig (Elt F) :=
  Pipeline.withArrays spec1 c (Bd2 m ρ c) fun w => (dat1 (En1 m ρ) c).arrAt w cfg1.N
theorem Bd3_arr (c : Dev nD) (w : Fin cfg1.W) :
    Bd3 m ρ c (Proc.devRef .tc (Pipeline.arrRef spec1 w)) = (dat1 (En1 m ρ) c).arrAt w cfg1.N := by
  unfold Bd3; exact Pipeline.withArrays_arr spec1 launch1.win.arr_inj c _ _ w
theorem Bd3_of_ne (c : Dev nD) (b : Ref sig .tc) (hb : ∀ w, Pipeline.arrRef spec1 w ≠ b) :
    Bd3 m ρ c (Proc.devRef .tc b) = Bd2 m ρ c (Proc.devRef .tc b) := by
  unfold Bd3; exact Pipeline.withArrays_of_ne spec1 c _ _ b hb
abbrev Ex1 : (c : Dev nD) → (b : Ref sig .tc) → Buf (Elt F) ((c : Thread nD τ).loc b) := fun c b => Bd3 m ρ c b
theorem hF1 (c : Dev nD) (w : Fin cfg1.W) : (dat1 (En1 m ρ) c).arrAt w cfg1.N = Ex1 m ρ c (Pipeline.arrRef spec1 w) :=
  (Bd3_arr m ρ c w).symm
theorem hrest1 (c : Dev nD) : ∀ b, b ∉ Finset.univ.image (Pipeline.arrRef spec1) → Ex1 m ρ c b = En1 m ρ c b :=
  fun b hb => Bd3_of_ne m ρ c b fun w e => hb (Finset.mem_image.mpr ⟨w, Finset.mem_univ _, e⟩)

/-- After the host operations between the pooling regions and the network region (region 2's entry). -/
abbrev Bd4 : Dev nD → Valuation τ sig (Elt F) := fun c => StableHlo.after hostOps2 (Bd3 m ρ c)
abbrev En2 : (c : Dev nD) → (b : Ref sig .tc) → Buf (Elt F) ((c : Thread nD τ).loc b) := fun c b => Bd4 m ρ c b

/-- At region 2's exit: its arrays at what the pipeline leaves, every other buffer as entered. -/
def Bd5 (c : Dev nD) : Valuation τ sig (Elt F) :=
  Pipeline.withArrays spec2 c (Bd4 m ρ c) fun w => (dat2 (En2 m ρ) c).arrAt w cfg2.N
theorem Bd5_arr (c : Dev nD) (w : Fin cfg2.W) :
    Bd5 m ρ c (Proc.devRef .tc (Pipeline.arrRef spec2 w)) = (dat2 (En2 m ρ) c).arrAt w cfg2.N := by
  unfold Bd5; exact Pipeline.withArrays_arr spec2 launch2.win.arr_inj c _ _ w
theorem Bd5_of_ne (c : Dev nD) (b : Ref sig .tc) (hb : ∀ w, Pipeline.arrRef spec2 w ≠ b) :
    Bd5 m ρ c (Proc.devRef .tc b) = Bd4 m ρ c (Proc.devRef .tc b) := by
  unfold Bd5; exact Pipeline.withArrays_of_ne spec2 c _ _ b hb
abbrev Ex2 : (c : Dev nD) → (b : Ref sig .tc) → Buf (Elt F) ((c : Thread nD τ).loc b) := fun c b => Bd5 m ρ c b
theorem hF2 (c : Dev nD) (w : Fin cfg2.W) : (dat2 (En2 m ρ) c).arrAt w cfg2.N = Ex2 m ρ c (Pipeline.arrRef spec2 w) :=
  (Bd5_arr m ρ c w).symm
theorem hrest2 (c : Dev nD) : ∀ b, b ∉ Finset.univ.image (Pipeline.arrRef spec2) → Ex2 m ρ c b = En2 m ρ c b :=
  fun b hb => Bd5_of_ne m ρ c b fun w e => hb (Finset.mem_image.mpr ⟨w, Finset.mem_univ _, e⟩)

/-- After the last host operations: the end. -/
abbrev Bd6 : Dev nD → Valuation τ sig (Elt F) := fun c => StableHlo.after hostOps3 (Bd5 m ρ c)

/-! ## The arguments end as launched -/

theorem Bd6_main_arg0 (c : Dev nD) : Bd6 m ρ c (Proc.devRef .tc main_arg0) = m ((c : Thread nD τ).loc main_arg0) :=
  calc Bd6 m ρ c (Proc.devRef .tc main_arg0)
    _ = Bd5 m ρ c (Proc.devRef .tc main_arg0) := StableHlo.after_of_writes_sub hostOps3 _ hostOps3_writes (r := main_arg0) (by decide)
    _ = Bd4 m ρ c (Proc.devRef .tc main_arg0) := Bd5_of_ne m ρ c main_arg0 (by decide)
    _ = Bd3 m ρ c (Proc.devRef .tc main_arg0) := StableHlo.after_of_writes_sub hostOps2 _ hostOps2_writes (r := main_arg0) (by decide)
    _ = Bd2 m ρ c (Proc.devRef .tc main_arg0) := Bd3_of_ne m ρ c main_arg0 (by decide)
    _ = Bd1 m ρ c (Proc.devRef .tc main_arg0) := Bd2_of_ne m ρ c main_arg0 (by decide)
    _ = Bd0 m ρ c (Proc.devRef .tc main_arg0) := StableHlo.after_of_writes_sub hostOps0 _ hostOps0_writes (r := main_arg0) (by decide)
    _ = m ((c : Thread nD τ).loc main_arg0) := rfl

theorem Bd6_main_arg1 (c : Dev nD) : Bd6 m ρ c (Proc.devRef .tc main_arg1) = m ((c : Thread nD τ).loc main_arg1) :=
  calc Bd6 m ρ c (Proc.devRef .tc main_arg1)
    _ = Bd5 m ρ c (Proc.devRef .tc main_arg1) := StableHlo.after_of_writes_sub hostOps3 _ hostOps3_writes (r := main_arg1) (by decide)
    _ = Bd4 m ρ c (Proc.devRef .tc main_arg1) := Bd5_of_ne m ρ c main_arg1 (by decide)
    _ = Bd3 m ρ c (Proc.devRef .tc main_arg1) := StableHlo.after_of_writes_sub hostOps2 _ hostOps2_writes (r := main_arg1) (by decide)
    _ = Bd2 m ρ c (Proc.devRef .tc main_arg1) := Bd3_of_ne m ρ c main_arg1 (by decide)
    _ = Bd1 m ρ c (Proc.devRef .tc main_arg1) := Bd2_of_ne m ρ c main_arg1 (by decide)
    _ = Bd0 m ρ c (Proc.devRef .tc main_arg1) := StableHlo.after_of_writes_sub hostOps0 _ hostOps0_writes (r := main_arg1) (by decide)
    _ = m ((c : Thread nD τ).loc main_arg1) := rfl

theorem Bd6_main_arg2 (c : Dev nD) : Bd6 m ρ c (Proc.devRef .tc main_arg2) = m ((c : Thread nD τ).loc main_arg2) :=
  calc Bd6 m ρ c (Proc.devRef .tc main_arg2)
    _ = Bd5 m ρ c (Proc.devRef .tc main_arg2) := StableHlo.after_of_writes_sub hostOps3 _ hostOps3_writes (r := main_arg2) (by decide)
    _ = Bd4 m ρ c (Proc.devRef .tc main_arg2) := (Bd5_arr m ρ c 2).trans (((dat2 (En2 m ρ) c).arrAt_in 2 rfl _).trans (A_eq2 (En2 m ρ) c 2))
    _ = Bd3 m ρ c (Proc.devRef .tc main_arg2) := StableHlo.after_of_writes_sub hostOps2 _ hostOps2_writes (r := main_arg2) (by decide)
    _ = Bd2 m ρ c (Proc.devRef .tc main_arg2) := Bd3_of_ne m ρ c main_arg2 (by decide)
    _ = Bd1 m ρ c (Proc.devRef .tc main_arg2) := Bd2_of_ne m ρ c main_arg2 (by decide)
    _ = Bd0 m ρ c (Proc.devRef .tc main_arg2) := StableHlo.after_of_writes_sub hostOps0 _ hostOps0_writes (r := main_arg2) (by decide)
    _ = m ((c : Thread nD τ).loc main_arg2) := rfl

theorem Bd6_main_arg3 (c : Dev nD) : Bd6 m ρ c (Proc.devRef .tc main_arg3) = m ((c : Thread nD τ).loc main_arg3) :=
  calc Bd6 m ρ c (Proc.devRef .tc main_arg3)
    _ = Bd5 m ρ c (Proc.devRef .tc main_arg3) := StableHlo.after_of_writes_sub hostOps3 _ hostOps3_writes (r := main_arg3) (by decide)
    _ = Bd4 m ρ c (Proc.devRef .tc main_arg3) := Bd5_of_ne m ρ c main_arg3 (by decide)
    _ = Bd3 m ρ c (Proc.devRef .tc main_arg3) := StableHlo.after_of_writes_sub hostOps2 _ hostOps2_writes (r := main_arg3) (by decide)
    _ = Bd2 m ρ c (Proc.devRef .tc main_arg3) := Bd3_of_ne m ρ c main_arg3 (by decide)
    _ = Bd1 m ρ c (Proc.devRef .tc main_arg3) := Bd2_of_ne m ρ c main_arg3 (by decide)
    _ = Bd0 m ρ c (Proc.devRef .tc main_arg3) := StableHlo.after_of_writes_sub hostOps0 _ hostOps0_writes (r := main_arg3) (by decide)
    _ = m ((c : Thread nD τ).loc main_arg3) := rfl

theorem Bd6_main_arg4 (c : Dev nD) : Bd6 m ρ c (Proc.devRef .tc main_arg4) = m ((c : Thread nD τ).loc main_arg4) :=
  calc Bd6 m ρ c (Proc.devRef .tc main_arg4)
    _ = Bd5 m ρ c (Proc.devRef .tc main_arg4) := StableHlo.after_of_writes_sub hostOps3 _ hostOps3_writes (r := main_arg4) (by decide)
    _ = Bd4 m ρ c (Proc.devRef .tc main_arg4) := (Bd5_arr m ρ c 4).trans (((dat2 (En2 m ρ) c).arrAt_in 4 rfl _).trans (A_eq2 (En2 m ρ) c 4))
    _ = Bd3 m ρ c (Proc.devRef .tc main_arg4) := StableHlo.after_of_writes_sub hostOps2 _ hostOps2_writes (r := main_arg4) (by decide)
    _ = Bd2 m ρ c (Proc.devRef .tc main_arg4) := Bd3_of_ne m ρ c main_arg4 (by decide)
    _ = Bd1 m ρ c (Proc.devRef .tc main_arg4) := Bd2_of_ne m ρ c main_arg4 (by decide)
    _ = Bd0 m ρ c (Proc.devRef .tc main_arg4) := StableHlo.after_of_writes_sub hostOps0 _ hostOps0_writes (r := main_arg4) (by decide)
    _ = m ((c : Thread nD τ).loc main_arg4) := rfl

theorem Bd6_main_arg5 (c : Dev nD) : Bd6 m ρ c (Proc.devRef .tc main_arg5) = m ((c : Thread nD τ).loc main_arg5) :=
  calc Bd6 m ρ c (Proc.devRef .tc main_arg5)
    _ = Bd5 m ρ c (Proc.devRef .tc main_arg5) := StableHlo.after_of_writes_sub hostOps3 _ hostOps3_writes (r := main_arg5) (by decide)
    _ = Bd4 m ρ c (Proc.devRef .tc main_arg5) := Bd5_of_ne m ρ c main_arg5 (by decide)
    _ = Bd3 m ρ c (Proc.devRef .tc main_arg5) := StableHlo.after_of_writes_sub hostOps2 _ hostOps2_writes (r := main_arg5) (by decide)
    _ = Bd2 m ρ c (Proc.devRef .tc main_arg5) := Bd3_of_ne m ρ c main_arg5 (by decide)
    _ = Bd1 m ρ c (Proc.devRef .tc main_arg5) := Bd2_of_ne m ρ c main_arg5 (by decide)
    _ = Bd0 m ρ c (Proc.devRef .tc main_arg5) := StableHlo.after_of_writes_sub hostOps0 _ hostOps0_writes (r := main_arg5) (by decide)
    _ = m ((c : Thread nD τ).loc main_arg5) := rfl

/-! ## The proof data family and the thread state -/

abbrev admH : (p : Fin 3) → (pcfgs (F := F) p).Adm := fun p => (cfgs p).toPCfg_adm
/-- Every pipeline's proof data, each at its region's entry contents. -/
def pdatsH : (p : Fin 3) → (c : Dev nD) → Dat τ (Elt F) Unit ℕ (UR sig nD τ) ℕ (Pipeline.pin (pcfgs (F := F)) admH p) c
  | ⟨0, _⟩ => fun c => dat0 (En0 m ρ) c
  | ⟨1, _⟩ => fun c => dat1 (En1 m ρ) c
  | ⟨2, _⟩ => fun c => dat2 (En2 m ρ) c
abbrev VarH : Variants := Variants.none
abbrev LH : GSem nD τ sig → Finset Unit := fun _ => ∅
abbrev lvH : GSem nD τ sig → Unit → ℕ := fun _ _ => 0
/-- What rides beside the buffers through every segment: the generator register at some state and the core owing nothing. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ VarH LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev TnH (c : Dev nD) : sProp 𝕄 := iprop(StableHlo.held (c : Thread nD τ) (Pipeline.ucRefs τ sig) (Bd6 m ρ c) ∗ ∃ r, prngReg c r)

/-! ## The regions as segments -/

set_option backward.isDefEq.respectTransparency.types false in
/-- Region 0 over the thread state: entered with every unscoped buffer at `Bd1`, left with them at `Bd2`: its
    arrays split out of the unscoped buffers and put back at what the write-backs leave; the generator register into the
    region's invariant and out; nothing owed; no semaphore of the kernel's own. -/
def reg0 : Pipeline.RegionSeg (pcfgs (F := F)) admH (pdatsH m ρ) () defs₀ VarH LH lvH 0 where
  win := launch0.win.to₀
  block_pos := launch0.block_pos
  stage_whole := launch0.stage_whole
  K := PEmpty
  osem k := k.elim
  ho := Pipeline.OwnSemFacts.none _
  hbody c := (body_obligation0 (En0 m ρ) c).loose
  hwaits := Pipeline.hwaits_of_owed_zero _ _ _ _ LH lvH 0 fun _ _ => rfl
  pre c := iprop(StableHlo.held (c : Thread nD τ) (Pipeline.ucRefs τ sig) (Bd1 m ρ c) ∗ RH c)
  post c := iprop(StableHlo.held (c : Thread nD τ) (Pipeline.ucRefs τ sig) (Bd2 m ρ c) ∗ RH c)
  X c := iprop(∃ r, prngReg c r)
  Y c := iprop(∃ r, prngReg c r)
  Z c := Pipeline.unscopedRest (Ix := Unit) (Name := ℕ) (U := UR sig nD τ) (Lvl := ℕ) spec0 c (En0 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (En0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdatsH m ρ 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (En0 m ρ c) (En1 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `Bd2`, left with them at `Bd3`: its
    arrays split out of the unscoped buffers and put back at what the write-backs leave; the generator register into the
    region's invariant and out; nothing owed; no semaphore of the kernel's own. -/
def reg1 : Pipeline.RegionSeg (pcfgs (F := F)) admH (pdatsH m ρ) () defs₀ VarH LH lvH 1 where
  win := launch1.win.to₀
  block_pos := launch1.block_pos
  stage_whole := launch1.stage_whole
  K := PEmpty
  osem k := k.elim
  ho := Pipeline.OwnSemFacts.none _
  hbody c := (body_obligation1 (En1 m ρ) c).loose
  hwaits := Pipeline.hwaits_of_owed_zero _ _ _ _ LH lvH 1 fun _ _ => rfl
  pre c := iprop(StableHlo.held (c : Thread nD τ) (Pipeline.ucRefs τ sig) (Bd2 m ρ c) ∗ RH c)
  post c := iprop(StableHlo.held (c : Thread nD τ) (Pipeline.ucRefs τ sig) (Bd3 m ρ c) ∗ RH c)
  X c := iprop(∃ r, prngReg c r)
  Y c := iprop(∃ r, prngReg c r)
  Z c := Pipeline.unscopedRest (Ix := Unit) (Name := ℕ) (U := UR sig nD τ) (Lvl := ℕ) spec1 c (En1 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (En1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdatsH m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (En1 m ρ c) (Ex1 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `Bd4`, left with them at `Bd5`: its
    arrays split out of the unscoped buffers and put back at what the write-backs leave; the generator register into the
    region's invariant and out; nothing owed; no semaphore of the kernel's own. -/
def reg2 : Pipeline.RegionSeg (pcfgs (F := F)) admH (pdatsH m ρ) () defs₀ VarH LH lvH 2 where
  win := launch2.win.to₀
  block_pos := launch2.block_pos
  stage_whole := launch2.stage_whole
  K := PEmpty
  osem k := k.elim
  ho := Pipeline.OwnSemFacts.none _
  hbody c := (body_obligation2 (En2 m ρ) c).loose
  hwaits := Pipeline.hwaits_of_owed_zero _ _ _ _ LH lvH 2 fun _ _ => rfl
  pre c := iprop(StableHlo.held (c : Thread nD τ) (Pipeline.ucRefs τ sig) (Bd4 m ρ c) ∗ RH c)
  post c := iprop(StableHlo.held (c : Thread nD τ) (Pipeline.ucRefs τ sig) (Bd5 m ρ c) ∗ RH c)
  X c := iprop(∃ r, prngReg c r)
  Y c := iprop(∃ r, prngReg c r)
  Z c := Pipeline.unscopedRest (Ix := Unit) (Name := ℕ) (U := UR sig nD τ) (Lvl := ℕ) spec2 c (En2 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (En2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    have h2 := hout2 (En2 m ρ) c
    unfold Pipeline.ΦA at h2
    show ((dat2 (En2 m ρ) c).Φ (Fin.last cfg2.N) : sProp 𝕄) ⊢ _
    iintro H
    ihave H' := h2 $$ H
    icases H' with ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (En2 m ρ c) (Ex2 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segsH : List (Pipeline.Seg (pcfgs (F := F)) admH (pdatsH m ρ) () defs₀ VarH LH lvH) :=
  [ .host (hsegH hostOps0 hostOps0_sub hostOps0_fresh (Bd0 m ρ)),
    .region (reg0 m ρ),
    .region (reg1 m ρ),
    .host (hsegH hostOps2 hostOps2_sub hostOps2_fresh (Bd3 m ρ)),
    .region (reg2 m ρ),
    .host (hsegH hostOps3 hostOps3_sub hostOps3_fresh (Bd5 m ρ)) ]

theorem main_runH (c : Dev nD) : main (F := F) c = Pipeline.Seg.run (segsH m ρ) := (main_chain c).trans (by chain_rfl)

set_option backward.isDefEq.respectTransparency.types false in
/-- THE RUN: from any memory with zero counters every weakly fair execution of @main terminates, nothing faulting, in a
    memory that holds the last boundary's contents in every unscoped buffer. -/
theorem run : θ_run defs (onTc (τ := τ) (main (F := F))) ⟨m, fun _ => 0, ρ⟩ (fun r => ∀ c : Dev nD,
      ∀ b ∈ Pipeline.ucRefs τ sig, r.2.mem (((c : Thread nD τ)).1, b) = Bd6 m ρ c b) :=
  Pipeline.θ_run_regions_kit (pcfgs (F := F)) admH (pdatsH m ρ) () cellOf_inj emb₁ defs₀ VarH LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m ρ c) ∗ RH c)) (Tₙ := TnH m ρ)
    (hch := ⟨fun _ => .rfl, fun _ => .rfl, fun _ => .rfl, fun _ => .rfl, fun _ => .rfl, fun _ => .rfl, fun c => (show (iprop(StableHlo.held (c : Thread nD τ) (Pipeline.ucRefs τ sig) (Bd6 m ρ c) ∗ RH c) : sProp 𝕄)
          ⊢ iprop(TnH m ρ c ∗ ∃ W, owes (c : Thread nD τ) (0 : CellTallies nD τ sig Unit) W) from by
      iintro ⟨Hh, Hp, HO⟩
      isplitl [Hh Hp]
      · isplitl [Hh]; · iexact Hh
        iexact Hp
      iexact HO)⟩)
    (hinit := by
      refine Pipeline.initEach LH lvH fun c => ?_
      rw [show unscopedBufs c (fun b => m ((c : Thread nD τ).loc b)) = StableHlo.held (c : Thread nD τ) (Pipeline.ucRefs τ sig) (Bd0 m ρ c)
        from Pipeline.unscopedBufs_held c (Bd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd6 m ρ c b)
    (hfin := fun c s' => by
      iintro ⟨⟨Hh, -⟩, HSI⟩
      unfold StableHlo.held
      imodintro
      iapply (pointsTo_read_all (Pipeline.ucRefs τ sig) (fun b => (((c : Thread nD τ)).1, b)) (Bd6 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (Bd6_main_arg0 m ρ c),
     (h c _ (mem_uc main_arg1 (by decide))).trans (Bd6_main_arg1 m ρ c),
     (h c _ (mem_uc main_arg2 (by decide))).trans (Bd6_main_arg2 m ρ c),
     (h c _ (mem_uc main_arg3 (by decide))).trans (Bd6_main_arg3 m ρ c),
     (h c _ (mem_uc main_arg4 (by decide))).trans (Bd6_main_arg4 m ρ c),
     (h c _ (mem_uc main_arg5 (by decide))).trans (Bd6_main_arg5 m ρ c)⟩) (run m ρ)

end Cert.Kernel.Hand

end
-- ==== Proof.KI.Pools.lean ====
/-
  The two pooling regions of the program, each at the buffer contents `V` it is entered from: what one grid point
  leaves in its output block, the body's run on the staging buffers, and the pipeline's proof data.
-/
import proofs.«173461_j48704929137027_2_alg».proof.Proof.Gen.KernelIdeal.Launch
import proofs.«173461_j48704929137027_2_alg».proof.Proof.Gen.KernelIdeal.Skeleton
import proofs.«173461_j48704929137027_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Pools
variable (V : (c : Dev nD) → (b : Ref sig .tc) → Buf (Elt F) ((c : Thread nD τ).loc b))

/-! # The pooling kernel of call 0: one grid point reads a block of 64 samples × 512 channels × 64 positions and stores,
    for every sample and channel of the block, the sum of the 64 positions times 1/64 -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole input block and the whole output block, as the body's load and store address them. -/
abbrev rin0 : Rect S64x512x64 := Rect.unit (s := S64x512x64) ![0, 0, 0] S64x512x64.size inb_S64x512x64_S64x512x64_0_0_0
abbrev rout0 : Rect S64x512 := Rect.unit (s := S64x512) ![0, 0] S64x512.size inb_S64x512_S64x512_0_0

/-- The output window's staging buffer after the body: its one store, of the pooled block. -/
def out0_1 (x0 : Vec F S64x512x64 .f32) : Vec F S64x512 .f32 :=
  View.canon [⟨rout0, k0_pay1 (View.ld x0 rin0)⟩]

/-- The one store covers the output block. -/
theorem cover0_1 (p0 : Vec F S64x512 .f32) (y : S64x512.Idx) :
    ∃ pc ∈ ([⟨rout0, p0⟩] : List (View.Piece (Elt F) S64x512 .f32)), y ∈ pc.1.set :=
  View.cover_of_tiled [⟨rout0, p0⟩] S64x512.size (by rfl) y

set_option maxHeartbeats 1000000 in
/-- The body on whole staging buffers, the input's at contents `x0` and the output's at anything, runs to the
    continuation holding the input's as it was and the output's at `out0_1 x0`. -/
theorem sound_kernel0 (c : Dev nD) (E : Set ℕ) (i : grid0.Coords) (arg1 : Memref sig .tc .vmem S64x512x64 .f32) (harg1 : arg1.IsWhole) (arg2 : Memref sig .tc .vmem S64x512 .f32) (harg2 : arg2.IsWhole)
    (x0 : Vec F S64x512x64 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__pool_kernel i arg1 harg1 arg2 harg2) K := by
  simp only [cc0__pool_kernel_eq_skeleton]; unfold cc0__pool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of pipeline 0 on core `c`: the arrays as the region finds them; after the body at point `t`
    the input's buffer at its block and the output's at the pooled block; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

/-! # The pooling kernel of call 1: one grid point reads a block of 64 samples × 256 channels × 64 positions and stores,
    for every sample and channel of the block, the sum of the 64 positions times 1/64 -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds its block at every point, for any proof data whose array is `V`'s and
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole input block and the whole output block, as the body's load and store address them. -/
abbrev rin1 : Rect S64x256x64 := Rect.unit (s := S64x256x64) ![0, 0, 0] S64x256x64.size inb_S64x256x64_S64x256x64_0_0_0
abbrev rout1 : Rect S64x256 := Rect.unit (s := S64x256) ![0, 0] S64x256.size inb_S64x256_S64x256_0_0

/-- The output window's staging buffer after the body: its one store, of the pooled block. -/
def out1_1 (x0 : Vec F S64x256x64 .f32) : Vec F S64x256 .f32 :=
  View.canon [⟨rout1, k1_pay1 (View.ld x0 rin1)⟩]

/-- The one store covers the output block. -/
theorem cover1_1 (p0 : Vec F S64x256 .f32) (y : S64x256.Idx) :
    ∃ pc ∈ ([⟨rout1, p0⟩] : List (View.Piece (Elt F) S64x256 .f32)), y ∈ pc.1.set :=
  View.cover_of_tiled [⟨rout1, p0⟩] S64x256.size (by rfl) y

set_option maxHeartbeats 1000000 in
/-- The body on whole staging buffers, the input's at contents `x0` and the output's at anything, runs to the
    continuation holding the input's as it was and the output's at `out1_1 x0`. -/
theorem sound_kernel1 (c : Dev nD) (E : Set ℕ) (i : grid1.Coords) (arg1 : Memref sig .tc .vmem S64x256x64 .f32) (harg1 : arg1.IsWhole) (arg2 : Memref sig .tc .vmem S64x256 .f32) (harg2 : arg2.IsWhole)
    (x0 : Vec F S64x256x64 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__pool_kernel i arg1 harg1 arg2 harg2) K := by
  simp only [cc1__pool_kernel_eq_skeleton]; unfold cc1__pool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The proof data of pipeline 1 on core `c`: the arrays as the region finds them; after the body at point `t`
    the input's buffer at its block and the output's at the pooled block; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation1 (c : Dev nD) : BodyObligation (dat1 (F := F) V c) (defs₀ (F := F)) Variants.none () Set.univ := fun t => by
  rw [bigSep_W1, bigSep_W1]
  exact sound_body1 V c t

end Pools

end Cert.KernelIdeal.Hand

end
-- ==== Proof.KI.MlpRuns.lean ====
/-
  The network region (call 2), at the buffer contents `V` it is entered from: its grid of four points, each reading
  256 rows of the pooled inputs and the whole weights; the accumulator it keeps between points in a scratch cell —
  reset at the first point, added to at every point, copied to the output at the last —, and the body's run in each of
  the three cases (first point, middle points, last point).
-/
import proofs.«173461_j48704929137027_2_alg».proof.Proof.Gen.KernelIdeal.Launch
import proofs.«173461_j48704929137027_2_alg».proof.Proof.Gen.KernelIdeal.Skeleton
import proofs.«173461_j48704929137027_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Mlp
variable (V : (c : Dev nD) → (b : Ref sig .tc) → Buf (Elt F) ((c : Thread nD τ).loc b))

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not (a window fetched only at
    the first point has the same block at every point). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions -/

/-- "This is the first point": the accumulator is reset. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- "This is the last point": the accumulator is copied to the output. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_in : ∀ (w : Fin cfg2.W), w.val < 7 → ∀ i, cfg2.idle w i = false := by
  intro w hw i
  match w, hw with
  | ⟨0, _⟩, _ => rfl | ⟨1, _⟩, _ => rfl | ⟨2, _⟩, _ => rfl | ⟨3, _⟩, _ => rfl | ⟨4, _⟩, _ => rfl | ⟨5, _⟩, _ => rfl | ⟨6, _⟩, _ => rfl
/-- Away from the last point the output block is idle and is not written back. -/
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
theorem liveAt2_7 : ∀ t : Fin cfg2.N, cond2_1 (grid2.coords t) → cfg2.idle 7 (grid2.coords t) = false := by decide +kernel

/-! ## The staging buffers at a point, and the scratch cell -/

abbrev VO2 : View sig .tc .vmem S1x1 .f32 := (Memref.whole cc2_stg7_0 : Memref sig .tc .vmem S1x1 .f32).view
abbrev ms2_0 (t : Fin cfg2.N) : Memref sig .tc .vmem S256x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x256 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x256 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x256 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x1 .f32 := win2_7.stage (cfg2.slots t 7)
abbrev hs2_7 (t : Fin cfg2.N) : (ms2_7 t).IsWhole := hstage2_7 ((cfg2.slots t 7).cast nbuf2_7)
/-- The scratch cell that carries the accumulator between points. -/
abbrev scM2 : Memref sig .tc .vmem S1x1 .f32 := Memref.whole cc2_scratch0
abbrev VS2 : View sig .tc .vmem S1x1 .f32 := scM2.view

/-- The region's invariant with the scratch cell as a buffer owned at some contents. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ d, owns (c : Thread nD τ) scM2 fullShare d)) ∗ (∃ r, prngReg c r)) := by
  unfold Pipeline.ΦA; rw [scopedRest2_eq]; simp only [scM2, owns_whole]; try rfl

set_option maxHeartbeats 4000000 in
/-- The body's run in case A: the pieces its stores leave in the output block and in the accumulator, with the proof
    that on whole staging buffers, the inputs' at their contents, the body runs to the continuation holding the inputs'
    as they were and those pieces written. -/
noncomputable def kernelRun2_A (c : Dev nD) (i : grid2.Coords) (arg1 : Memref sig .tc .vmem S256x512 .f32) (harg1 : arg1.IsWhole) (arg2 : Memref sig .tc .vmem S256x256 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S1x1 .f32) (harg9 : arg9.IsWhole) (hc0 : cond2_0 i) (hc1 : ¬cond2_1 i)
    (x0 : Vec F S256x512 .f32) (x1 : Vec F S256x256 .f32) (x2 : Vec F S512x512 .f32) (x3 : Vec F S1x512 .f32) (x4 : Vec F S512x256 .f32) (x5 : Vec F S1x256 .f32) (x6 : Vec F S1x256 .f32) :
    Σ' (L7 : List (View.Piece (Elt F) S1x1 .f32)), { LS : List (View.Piece (Elt F) S1x1 .f32) //
      ∀ (xi7 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ f, arg9.view.loc (c : Thread nD τ) ↦[arg9.view.set]{fullShare} arg9.view.writes (Elt F) f LS)) -∗ K ⟨⟩))
          ⊢ wp frame (wpE (defs₀ (F := F)) Variants.none c none) E (cc2__mlp_kernel i arg1 harg1 arg2 harg2 arg3 harg3 arg4 harg4 arg5 harg5 arg6 harg6 arg7 harg7 arg8 harg8 arg9 harg9) K } := by
  refine ⟨[], ?_, fun xi7 E K => ?run⟩
  case run =>
    simp only [cc2__mlp_kernel_eq_skeleton]; unfold cc2__mlp_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact HS

set_option maxHeartbeats 4000000 in
/-- The body's run in case B: the pieces its stores leave in the output block and in the accumulator, with the proof
    that on whole staging buffers, the inputs' at their contents, the body runs to the continuation holding the inputs'
    as they were and those pieces written. -/
noncomputable def kernelRun2_B (c : Dev nD) (i : grid2.Coords) (arg1 : Memref sig .tc .vmem S256x512 .f32) (harg1 : arg1.IsWhole) (arg2 : Memref sig .tc .vmem S256x256 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : ¬cond2_1 i)
    (x0 : Vec F S256x512 .f32) (x1 : Vec F S256x256 .f32) (x2 : Vec F S512x512 .f32) (x3 : Vec F S1x512 .f32) (x4 : Vec F S512x256 .f32) (x5 : Vec F S1x256 .f32) (x6 : Vec F S1x256 .f32) (xs : Vec F S1x1 .f32) :
    Σ' (L7 : List (View.Piece (Elt F) S1x1 .f32)), { LS : List (View.Piece (Elt F) S1x1 .f32) //
      ∀ (xi7 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ f, arg9.view.loc (c : Thread nD τ) ↦[arg9.view.set]{fullShare} arg9.view.writes (Elt F) f LS)) -∗ K ⟨⟩))
          ⊢ wp frame (wpE (defs₀ (F := F)) Variants.none c none) E (cc2__mlp_kernel i arg1 harg1 arg2 harg2 arg3 harg3 arg4 harg4 arg5 harg5 arg6 harg6 arg7 harg7 arg8 harg8 arg9 harg9) K } := by
  refine ⟨[], ?_, fun xi7 E K => ?run⟩
  case run =>
    simp only [cc2__mlp_kernel_eq_skeleton]; unfold cc2__mlp_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact HS

set_option maxHeartbeats 4000000 in
/-- The body's run in case C: the pieces its stores leave in the output block and in the accumulator, with the proof
    that on whole staging buffers, the inputs' at their contents, the body runs to the continuation holding the inputs'
    as they were and those pieces written. -/
noncomputable def kernelRun2_C (c : Dev nD) (i : grid2.Coords) (arg1 : Memref sig .tc .vmem S256x512 .f32) (harg1 : arg1.IsWhole) (arg2 : Memref sig .tc .vmem S256x256 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : cond2_1 i)
    (x0 : Vec F S256x512 .f32) (x1 : Vec F S256x256 .f32) (x2 : Vec F S512x512 .f32) (x3 : Vec F S1x512 .f32) (x4 : Vec F S512x256 .f32) (x5 : Vec F S1x256 .f32) (x6 : Vec F S1x256 .f32) (xs : Vec F S1x1 .f32) :
    Σ' (L7 : List (View.Piece (Elt F) S1x1 .f32)), { LS : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS)) -∗ K ⟨⟩))
          ⊢ wp frame (wpE (defs₀ (F := F)) Variants.none c none) E (cc2__mlp_kernel i arg1 harg1 arg2 harg2 arg3 harg3 arg4 harg4 arg5 harg5 arg6 harg6 arg7 harg7 arg8 harg8 arg9 harg9) K } := by
  refine ⟨?_, ?_, fun E K => ?run⟩
  case run =>
    simp only [cc2__mlp_kernel_eq_skeleton]; unfold cc2__mlp_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    iexists _; iexact HS

end Mlp

end Cert.KernelIdeal.Hand

end
-- ==== Proof.KI.Mlp.lean ====
/-
  The network region (call 2): what the accumulator and the output block hold after each of the four grid points,
  the pipeline's proof data with the accumulator carried in the region's invariant, and the body obligation at every
  point.
-/
import proofs.«173461_j48704929137027_2_alg».proof.Proof.Gen.KernelIdeal.Launch
import proofs.«173461_j48704929137027_2_alg».proof.Proof.Gen.KernelIdeal.Skeleton
import proofs.«173461_j48704929137027_2_alg».proof.Proof.Gen.KernelIdeal.Points
import proofs.«173461_j48704929137027_2_alg».proof.Proof.KI.MlpRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Mlp
variable (V : (c : Dev nD) → (b : Ref sig .tc) → Buf (Elt F) ((c : Thread nD τ).loc b))

/-- Case A's pieces for the accumulator cover the cell. -/
theorem scover2_A (c : Dev nD) (i : grid2.Coords) (arg1 : Memref sig .tc .vmem S256x512 .f32) (harg1 : arg1.IsWhole) (arg2 : Memref sig .tc .vmem S256x256 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S1x1 .f32) (harg9 : arg9.IsWhole) (hc0 : cond2_0 i) (hc1 : ¬cond2_1 i)
    (x0 : Vec F S256x512 .f32) (x1 : Vec F S256x256 .f32) (x2 : Vec F S512x512 .f32) (x3 : Vec F S1x512 .f32) (x4 : Vec F S512x256 .f32) (x5 : Vec F S1x256 .f32) (x6 : Vec F S1x256 .f32) (y : S1x1.Idx) :
    ∃ pc ∈ (kernelRun2_A c i arg1 harg1 arg2 harg2 arg3 harg3 arg4 harg4 arg5 harg5 arg6 harg6 arg7 harg7 arg8 harg8 arg9 harg9 hc0 hc1 x0 x1 x2 x3 x4 x5 x6).2.1, y ∈ pc.1.set :=
  View.cover_of_tiledL (kernelRun2_A c i arg1 harg1 arg2 harg2 arg3 harg3 arg4 harg4 arg5 harg5 arg6 harg6 arg7 harg7 arg8 harg8 arg9 harg9 hc0 hc1 x0 x1 x2 x3 x4 x5 x6).2.1 S1x1.size (by sl_kernel_rfl) y

/-- What case A leaves in the accumulator. -/
def sout2_A (c : Dev nD) (i : grid2.Coords) (arg1 : Memref sig .tc .vmem S256x512 .f32) (harg1 : arg1.IsWhole) (arg2 : Memref sig .tc .vmem S256x256 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S1x1 .f32) (harg9 : arg9.IsWhole) (hc0 : cond2_0 i) (hc1 : ¬cond2_1 i)
    (x0 : Vec F S256x512 .f32) (x1 : Vec F S256x256 .f32) (x2 : Vec F S512x512 .f32) (x3 : Vec F S1x512 .f32) (x4 : Vec F S512x256 .f32) (x5 : Vec F S1x256 .f32) (x6 : Vec F S1x256 .f32) : Vec F S1x1 .f32 :=
  VS2.read (Elt F) (VS2.writes (Elt F) VS2.junk (kernelRun2_A c i arg1 harg1 arg2 harg2 arg3 harg3 arg4 harg4 arg5 harg5 arg6 harg6 arg7 harg7 arg8 harg8 arg9 harg9 hc0 hc1 x0 x1 x2 x3 x4 x5 x6).2.1)

/-- What case A leaves in the output block (nothing is stored: a placeholder no one reads). -/
def out2_A (c : Dev nD) (i : grid2.Coords) (arg1 : Memref sig .tc .vmem S256x512 .f32) (harg1 : arg1.IsWhole) (arg2 : Memref sig .tc .vmem S256x256 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S1x1 .f32) (harg9 : arg9.IsWhole) (hc0 : cond2_0 i) (hc1 : ¬cond2_1 i)
    (x0 : Vec F S256x512 .f32) (x1 : Vec F S256x256 .f32) (x2 : Vec F S512x512 .f32) (x3 : Vec F S1x512 .f32) (x4 : Vec F S512x256 .f32) (x5 : Vec F S1x256 .f32) (x6 : Vec F S1x256 .f32) : Vec F S1x1 .f32 :=
  VO2.read (Elt F) (VO2.writes (Elt F) VO2.junk (kernelRun2_A c i arg1 harg1 arg2 harg2 arg3 harg3 arg4 harg4 arg5 harg5 arg6 harg6 arg7 harg7 arg8 harg8 arg9 harg9 hc0 hc1 x0 x1 x2 x3 x4 x5 x6).1)

/-- Case B's pieces for the accumulator cover the cell. -/
theorem scover2_B (c : Dev nD) (i : grid2.Coords) (arg1 : Memref sig .tc .vmem S256x512 .f32) (harg1 : arg1.IsWhole) (arg2 : Memref sig .tc .vmem S256x256 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : ¬cond2_1 i)
    (x0 : Vec F S256x512 .f32) (x1 : Vec F S256x256 .f32) (x2 : Vec F S512x512 .f32) (x3 : Vec F S1x512 .f32) (x4 : Vec F S512x256 .f32) (x5 : Vec F S1x256 .f32) (x6 : Vec F S1x256 .f32) (xs : Vec F S1x1 .f32) (y : S1x1.Idx) :
    ∃ pc ∈ (kernelRun2_B c i arg1 harg1 arg2 harg2 arg3 harg3 arg4 harg4 arg5 harg5 arg6 harg6 arg7 harg7 arg8 harg8 arg9 harg9 hc0 hc1 x0 x1 x2 x3 x4 x5 x6 xs).2.1, y ∈ pc.1.set :=
  View.cover_of_tiledL (kernelRun2_B c i arg1 harg1 arg2 harg2 arg3 harg3 arg4 harg4 arg5 harg5 arg6 harg6 arg7 harg7 arg8 harg8 arg9 harg9 hc0 hc1 x0 x1 x2 x3 x4 x5 x6 xs).2.1 S1x1.size (by sl_kernel_rfl) y

/-- What case B leaves in the accumulator. -/
def sout2_B (c : Dev nD) (i : grid2.Coords) (arg1 : Memref sig .tc .vmem S256x512 .f32) (harg1 : arg1.IsWhole) (arg2 : Memref sig .tc .vmem S256x256 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : ¬cond2_1 i)
    (x0 : Vec F S256x512 .f32) (x1 : Vec F S256x256 .f32) (x2 : Vec F S512x512 .f32) (x3 : Vec F S1x512 .f32) (x4 : Vec F S512x256 .f32) (x5 : Vec F S1x256 .f32) (x6 : Vec F S1x256 .f32) (xs : Vec F S1x1 .f32) : Vec F S1x1 .f32 :=
  VS2.read (Elt F) (VS2.writes (Elt F) VS2.junk (kernelRun2_B c i arg1 harg1 arg2 harg2 arg3 harg3 arg4 harg4 arg5 harg5 arg6 harg6 arg7 harg7 arg8 harg8 arg9 harg9 hc0 hc1 x0 x1 x2 x3 x4 x5 x6 xs).2.1)

/-- What case B leaves in the output block (nothing is stored: a placeholder no one reads). -/
def out2_B (c : Dev nD) (i : grid2.Coords) (arg1 : Memref sig .tc .vmem S256x512 .f32) (harg1 : arg1.IsWhole) (arg2 : Memref sig .tc .vmem S256x256 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : ¬cond2_1 i)
    (x0 : Vec F S256x512 .f32) (x1 : Vec F S256x256 .f32) (x2 : Vec F S512x512 .f32) (x3 : Vec F S1x512 .f32) (x4 : Vec F S512x256 .f32) (x5 : Vec F S1x256 .f32) (x6 : Vec F S1x256 .f32) (xs : Vec F S1x1 .f32) : Vec F S1x1 .f32 :=
  VO2.read (Elt F) (VO2.writes (Elt F) VO2.junk (kernelRun2_B c i arg1 harg1 arg2 harg2 arg3 harg3 arg4 harg4 arg5 harg5 arg6 harg6 arg7 harg7 arg8 harg8 arg9 harg9 hc0 hc1 x0 x1 x2 x3 x4 x5 x6 xs).1)

/-- Case C's pieces for the accumulator cover the cell. -/
theorem scover2_C (c : Dev nD) (i : grid2.Coords) (arg1 : Memref sig .tc .vmem S256x512 .f32) (harg1 : arg1.IsWhole) (arg2 : Memref sig .tc .vmem S256x256 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : cond2_1 i)
    (x0 : Vec F S256x512 .f32) (x1 : Vec F S256x256 .f32) (x2 : Vec F S512x512 .f32) (x3 : Vec F S1x512 .f32) (x4 : Vec F S512x256 .f32) (x5 : Vec F S1x256 .f32) (x6 : Vec F S1x256 .f32) (xs : Vec F S1x1 .f32) (y : S1x1.Idx) :
    ∃ pc ∈ (kernelRun2_C c i arg1 harg1 arg2 harg2 arg3 harg3 arg4 harg4 arg5 harg5 arg6 harg6 arg7 harg7 arg8 harg8 arg9 harg9 hc0 hc1 x0 x1 x2 x3 x4 x5 x6 xs).2.1, y ∈ pc.1.set :=
  View.cover_of_tiledL (kernelRun2_C c i arg1 harg1 arg2 harg2 arg3 harg3 arg4 harg4 arg5 harg5 arg6 harg6 arg7 harg7 arg8 harg8 arg9 harg9 hc0 hc1 x0 x1 x2 x3 x4 x5 x6 xs).2.1 S1x1.size (by sl_kernel_rfl) y

/-- What case C leaves in the accumulator. -/
def sout2_C (c : Dev nD) (i : grid2.Coords) (arg1 : Memref sig .tc .vmem S256x512 .f32) (harg1 : arg1.IsWhole) (arg2 : Memref sig .tc .vmem S256x256 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : cond2_1 i)
    (x0 : Vec F S256x512 .f32) (x1 : Vec F S256x256 .f32) (x2 : Vec F S512x512 .f32) (x3 : Vec F S1x512 .f32) (x4 : Vec F S512x256 .f32) (x5 : Vec F S1x256 .f32) (x6 : Vec F S1x256 .f32) (xs : Vec F S1x1 .f32) : Vec F S1x1 .f32 :=
  VS2.read (Elt F) (VS2.writes (Elt F) VS2.junk (kernelRun2_C c i arg1 harg1 arg2 harg2 arg3 harg3 arg4 harg4 arg5 harg5 arg6 harg6 arg7 harg7 arg8 harg8 arg9 harg9 hc0 hc1 x0 x1 x2 x3 x4 x5 x6 xs).2.1)

/-- What case C leaves in the output block. -/
def out2_C (c : Dev nD) (i : grid2.Coords) (arg1 : Memref sig .tc .vmem S256x512 .f32) (harg1 : arg1.IsWhole) (arg2 : Memref sig .tc .vmem S256x256 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : cond2_1 i)
    (x0 : Vec F S256x512 .f32) (x1 : Vec F S256x256 .f32) (x2 : Vec F S512x512 .f32) (x3 : Vec F S1x512 .f32) (x4 : Vec F S512x256 .f32) (x5 : Vec F S1x256 .f32) (x6 : Vec F S1x256 .f32) (xs : Vec F S1x1 .f32) : Vec F S1x1 .f32 :=
  VO2.read (Elt F) (VO2.writes (Elt F) VO2.junk (kernelRun2_C c i arg1 harg1 arg2 harg2 arg3 harg3 arg4 harg4 arg5 harg5 arg6 harg6 arg7 harg7 arg8 harg8 arg9 harg9 hc0 hc1 x0 x1 x2 x3 x4 x5 x6 xs).1)

/-- Case C's one store into the output block covers it. -/
theorem cover2_C (c : Dev nD) (i : grid2.Coords) (arg1 : Memref sig .tc .vmem S256x512 .f32) (harg1 : arg1.IsWhole) (arg2 : Memref sig .tc .vmem S256x256 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : cond2_1 i)
    (x0 : Vec F S256x512 .f32) (x1 : Vec F S256x256 .f32) (x2 : Vec F S512x512 .f32) (x3 : Vec F S1x512 .f32) (x4 : Vec F S512x256 .f32) (x5 : Vec F S1x256 .f32) (x6 : Vec F S1x256 .f32) (xs : Vec F S1x1 .f32) (y : S1x1.Idx) :
    ∃ pc ∈ (kernelRun2_C c i arg1 harg1 arg2 harg2 arg3 harg3 arg4 harg4 arg5 harg5 arg6 harg6 arg7 harg7 arg8 harg8 arg9 harg9 hc0 hc1 x0 x1 x2 x3 x4 x5 x6 xs).1, y ∈ pc.1.set :=
  View.cover_of_tiledL (kernelRun2_C c i arg1 harg1 arg2 harg2 arg3 harg3 arg4 harg4 arg5 harg5 arg6 harg6 arg7 harg7 arg8 harg8 arg9 harg9 hc0 hc1 x0 x1 x2 x3 x4 x5 x6 xs).1 S1x1.size (by sl_kernel_rfl) y

/-! ## What the output block and the accumulator hold after each point -/

/-- After the body at position `n`: (the output block, the accumulator) — the case of the point, run at the point's
    staging buffers and input blocks, the accumulator read at what the point before left. -/
def outsAt2 (c : Dev nD) : (n : ℕ) → n < cfg2.N → Vec F S1x1 .f32 × Vec F S1x1 .f32
  | 0, hn => (out2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩), sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩))
  | n + 1, hn =>
    if h0 : (n + 1) % 4 = 0 then
      False.elim (by have hN : n + 1 < 4 := lt_of_lt_of_eq hn (show cfg2.N = 4 from N_2); omega)
    else
      if h1 : (n + 1) % 4 = 3 then
        (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2, sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2)
      else
        (out2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = (out2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t), sout2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)) := by
  obtain ⟨n, hn⟩ := t
  cases n with
  | zero => exact rfl
  | succ n => exact absurd h0 (by have hN : n + 1 < 4 := lt_of_lt_of_eq hn (show cfg2.N = 4 from N_2); (try dsimp only); omega)

theorem outsAt2_B (c : Dev nD) (t : Fin cfg2.N) (h0 : ¬t.val % 4 = 0) (h1 : ¬t.val % 4 = 3) :
    outsAt2 V c t.val t.isLt = (out2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2, sout2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2, sout2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scoped buffer no window stages at
    anything; afterwards the same with the accumulator at what the point before left. -/
def PhiS (c : Dev nD) : (n : ℕ) → n ≤ cfg2.N → sProp 𝕄
  | 0, _ => Pipeline.ΦA spec2 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ owns (c : Thread nD τ) scM2 fullShare ((outsAt2 V c n hn).2)) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ owns (c : Thread nD τ) scM2 fullShare ((outsAt2 V c n hn).2)) ∗ (∃ r, prngReg c r)) := rfl

theorem PhiS_pos (c : Dev nD) (n : ℕ) (h : n ≤ cfg2.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ owns (c : Thread nD τ) scM2 fullShare ((outsAt2 V c (n - 1) (by omega)).2)) ∗ (∃ r, prngReg c r)) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => (outsAt2 V c t.val t.isLt).1
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS V c (t.val + 1) t.isLt from rfl, PhiS_succ]
  have hN : t.val < 4 := lt_of_lt_of_eq t.isLt (show cfg2.N = 4 from N_2)
  rw [show (dat2 V c).leavesExact 0 t = owns (c : Thread nD τ) (ms2_0 t) fullShare ((dat2 V c).after 0 t) from by
    unfold Dat.leavesExact; rw [liveAt2_in 0 (by decide) (grid2.coords t)], after2_0]
  rw [show (dat2 V c).leavesExact 1 t = owns (c : Thread nD τ) (ms2_1 t) fullShare ((dat2 V c).after 1 t) from by
    unfold Dat.leavesExact; rw [liveAt2_in 1 (by decide) (grid2.coords t)], after2_1]
  rw [show (dat2 V c).leavesExact 2 t = owns (c : Thread nD τ) (ms2_2 t) fullShare ((dat2 V c).after 2 t) from by
    unfold Dat.leavesExact; rw [liveAt2_in 2 (by decide) (grid2.coords t)], after2_2]
  rw [show (dat2 V c).leavesExact 3 t = owns (c : Thread nD τ) (ms2_3 t) fullShare ((dat2 V c).after 3 t) from by
    unfold Dat.leavesExact; rw [liveAt2_in 3 (by decide) (grid2.coords t)], after2_3]
  rw [show (dat2 V c).leavesExact 4 t = owns (c : Thread nD τ) (ms2_4 t) fullShare ((dat2 V c).after 4 t) from by
    unfold Dat.leavesExact; rw [liveAt2_in 4 (by decide) (grid2.coords t)], after2_4]
  rw [show (dat2 V c).leavesExact 5 t = owns (c : Thread nD τ) (ms2_5 t) fullShare ((dat2 V c).after 5 t) from by
    unfold Dat.leavesExact; rw [liveAt2_in 5 (by decide) (grid2.coords t)], after2_5]
  rw [show (dat2 V c).leavesExact 6 t = owns (c : Thread nD τ) (ms2_6 t) fullShare ((dat2 V c).after 6 t) from by
    unfold Dat.leavesExact; rw [liveAt2_in 6 (by decide) (grid2.coords t)], after2_6]
  by_cases h0 : t.val % 4 = 0
  · by_cases h1 : t.val % 4 = 3
    · exfalso; omega
    · rw [Dat.leavesExact_idle (dat2 V c) 7 t (idleAt2_7 t (fun h => h1 ((hcond2_1 t).mp h))) (noFlush2_7 t (fun h => h1 ((hcond2_1 t).mp h)))]
      rw [outsAt2_A V c t h0 h1]
      unfold sout2_A; (try dsimp only)
      by_cases hz : t.val = 0
      ·
        rw [PhiS_castSucc V c t, PhiS_zero V c _ _ hz, PhiA2_eq]
        iintro ⟨⟨⟨Hr0, Hr1, Hr2, Hr3, Hr4, Hr5, Hr6, Hr7, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun2_A c (grid2.coords t) _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexact HS
        iintro ⟨H0, H1, H2, H3, H4, H5, H6, H7, ⟨%es, HS⟩⟩
        isplitl [Hr0 Hr1 Hr2 Hr3 Hr4 Hr5 Hr6 Hr7 HS Hg]
        · isplitl [Hr0 Hr1 Hr2 Hr3 Hr4 Hr5 Hr6 Hr7 HS]
          · isplitl [Hr0]; · iexact Hr0
            isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            unfold owns; iexists _; isplitr
            swap; · iexact HS
            ipureintro; exact View.read_writes_of_cover _ _ _ _ _ (scover2_A c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · exfalso; omega
  · by_cases h1 : t.val % 4 = 3
    · rw [show (dat2 V c).leavesExact 7 t = owns (c : Thread nD τ) (ms2_7 t) fullShare ((dat2 V c).after 7 t) from by
        unfold Dat.leavesExact; rw [liveAt2_7 t ((hcond2_1 t).mpr h1)], after2_7]
      rw [outsAt2_C V c t h0 h1]
      unfold out2_C sout2_C; (try dsimp only)
      by_cases hz : t.val = 0
      · exfalso; omega
      ·
        rw [PhiS_castSucc V c t, PhiS_pos V c _ _ hz]
        iintro ⟨⟨⟨Hr0, Hr1, Hr2, Hr3, Hr4, Hr5, Hr6, Hr7, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun2_C c (grid2.coords t) _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS]; · iexact HS
        iintro ⟨H0, H1, H2, H3, H4, H5, H6, ⟨%e7, H7⟩, ⟨%es, HS⟩⟩
        isplitl [Hr0 Hr1 Hr2 Hr3 Hr4 Hr5 Hr6 Hr7 HS Hg]
        · isplitl [Hr0 Hr1 Hr2 Hr3 Hr4 Hr5 Hr6 Hr7 HS]
          · isplitl [Hr0]; · iexact Hr0
            isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            unfold owns; iexists _; isplitr
            swap; · iexact HS
            ipureintro; exact View.read_writes_of_cover _ _ _ _ _ (scover2_C c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (cover2_C c _ _ _ _ _ _ _ _ _ _ _ _ _ _ _ _ _ _ _ _ _ _ _ _ _ _ _ _ _)
    · rw [Dat.leavesExact_idle (dat2 V c) 7 t (idleAt2_7 t (fun h => h1 ((hcond2_1 t).mp h))) (noFlush2_7 t (fun h => h1 ((hcond2_1 t).mp h)))]
      rw [outsAt2_B V c t h0 h1]
      unfold sout2_B; (try dsimp only)
      by_cases hz : t.val = 0
      · exfalso; omega
      ·
        rw [PhiS_castSucc V c t, PhiS_pos V c _ _ hz]
        iintro ⟨⟨⟨Hr0, Hr1, Hr2, Hr3, Hr4, Hr5, Hr6, Hr7, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun2_B c (grid2.coords t) _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexact HS
        iintro ⟨H0, H1, H2, H3, H4, H5, H6, H7, ⟨%es, HS⟩⟩
        isplitl [Hr0 Hr1 Hr2 Hr3 Hr4 Hr5 Hr6 Hr7 HS Hg]
        · isplitl [Hr0 Hr1 Hr2 Hr3 Hr4 Hr5 Hr6 Hr7 HS]
          · isplitl [Hr0]; · iexact Hr0
            isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            unfold owns; iexists _; isplitr
            swap; · iexact HS
            ipureintro; exact View.read_writes_of_cover _ _ _ _ _ (scover2_B c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After the last point the invariant gives the launch's back: the accumulator's contents are forgotten. -/
theorem hout2 (c : Dev nD) : (dat2 V c).Φ (Fin.last cfg2.N) ⊢ Pipeline.ΦA spec2 c := by
  rw [show (dat2 V c).Φ (Fin.last cfg2.N) = PhiS V c (Fin.last cfg2.N).val (Nat.le_of_lt_succ (Fin.last cfg2.N).isLt) from rfl,
    PhiS_pos V c _ _ (by rw [Fin.val_last]; have : cfg2.N = 4 := N_2; omega), PhiA2_eq]
  iintro ⟨⟨Hr0, Hr1, Hr2, Hr3, Hr4, Hr5, Hr6, Hr7, HS⟩, Hg⟩
  isplitl [Hr0 Hr1 Hr2 Hr3 Hr4 Hr5 Hr6 Hr7 HS]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    iexists _; iexact HS
  iexact Hg

end Mlp

end Cert.KernelIdeal.Hand

end
-- ==== Proof.KI.Run.lean ====
/-
  The whole program as a run: the buffer contents at every boundary between a stretch of host operations and a
  kernel region, folded from the launch memory; each region as a segment between two boundaries; and the run of @main
  to a final memory that holds, in every unscoped buffer, the last boundary's contents. The arguments are written by no
  operation and no region, so they end as launched.
-/
import proofs.«173461_j48704929137027_2_alg».proof.Proof.Gen.KernelIdeal.Launch
import proofs.«173461_j48704929137027_2_alg».proof.Proof.Gen.KernelIdeal.Skeleton
import proofs.«173461_j48704929137027_2_alg».proof.Proof.Gen.KernelIdeal.Points
import proofs.«173461_j48704929137027_2_alg».proof.Proof.Gen.KernelIdeal.Regions
import proofs.«173461_j48704929137027_2_alg».proof.Proof.KI.Pools
import proofs.«173461_j48704929137027_2_alg».proof.Proof.KI.Mlp
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev Bd0 : Dev nD → Valuation τ sig (Elt F) := fun c b => (s₀ m ρ).mem ((c : Dev nD), b)
/-- After the two reshapes of the inputs (region 0's entry). -/
abbrev Bd1 : Dev nD → Valuation τ sig (Elt F) := fun c => StableHlo.after hostOps0 (Bd0 m ρ c)
abbrev En0 : (c : Dev nD) → (b : Ref sig .tc) → Buf (Elt F) ((c : Thread nD τ).loc b) := fun c b => Bd1 m ρ c b

/-- At region 0's exit: its arrays at what the pipeline leaves, every other buffer as entered. -/
def Bd2 (c : Dev nD) : Valuation τ sig (Elt F) :=
  Pipeline.withArrays spec0 c (Bd1 m ρ c) fun w => (dat0 (En0 m ρ) c).arrAt w cfg0.N
theorem Bd2_arr (c : Dev nD) (w : Fin cfg0.W) :
    Bd2 m ρ c (Proc.devRef .tc (Pipeline.arrRef spec0 w)) = (dat0 (En0 m ρ) c).arrAt w cfg0.N := by
  unfold Bd2; exact Pipeline.withArrays_arr spec0 launch0.win.arr_inj c _ _ w
theorem Bd2_of_ne (c : Dev nD) (b : Ref sig .tc) (hb : ∀ w, Pipeline.arrRef spec0 w ≠ b) :
    Bd2 m ρ c (Proc.devRef .tc b) = Bd1 m ρ c (Proc.devRef .tc b) := by
  unfold Bd2; exact Pipeline.withArrays_of_ne spec0 c _ _ b hb
abbrev En1 : (c : Dev nD) → (b : Ref sig .tc) → Buf (Elt F) ((c : Thread nD τ).loc b) := fun c b => Bd2 m ρ c b
theorem hF0 (c : Dev nD) (w : Fin cfg0.W) : (dat0 (En0 m ρ) c).arrAt w cfg0.N = En1 m ρ c (Pipeline.arrRef spec0 w) :=
  (Bd2_arr m ρ c w).symm
theorem hrest0 (c : Dev nD) : ∀ b, b ∉ Finset.univ.image (Pipeline.arrRef spec0) → En1 m ρ c b = En0 m ρ c b :=
  fun b hb => Bd2_of_ne m ρ c b fun w e => hb (Finset.mem_image.mpr ⟨w, Finset.mem_univ _, e⟩)

/-- At region 1's exit: its arrays at what the pipeline leaves, every other buffer as entered. -/
def Bd3 (c : Dev nD) : Valuation τ sig (Elt F) :=
  Pipeline.withArrays spec1 c (Bd2 m ρ c) fun w => (dat1 (En1 m ρ) c).arrAt w cfg1.N
theorem Bd3_arr (c : Dev nD) (w : Fin cfg1.W) :
    Bd3 m ρ c (Proc.devRef .tc (Pipeline.arrRef spec1 w)) = (dat1 (En1 m ρ) c).arrAt w cfg1.N := by
  unfold Bd3; exact Pipeline.withArrays_arr spec1 launch1.win.arr_inj c _ _ w
theorem Bd3_of_ne (c : Dev nD) (b : Ref sig .tc) (hb : ∀ w, Pipeline.arrRef spec1 w ≠ b) :
    Bd3 m ρ c (Proc.devRef .tc b) = Bd2 m ρ c (Proc.devRef .tc b) := by
  unfold Bd3; exact Pipeline.withArrays_of_ne spec1 c _ _ b hb
abbrev Ex1 : (c : Dev nD) → (b : Ref sig .tc) → Buf (Elt F) ((c : Thread nD τ).loc b) := fun c b => Bd3 m ρ c b
theorem hF1 (c : Dev nD) (w : Fin cfg1.W) : (dat1 (En1 m ρ) c).arrAt w cfg1.N = Ex1 m ρ c (Pipeline.arrRef spec1 w) :=
  (Bd3_arr m ρ c w).symm
theorem hrest1 (c : Dev nD) : ∀ b, b ∉ Finset.univ.image (Pipeline.arrRef spec1) → Ex1 m ρ c b = En1 m ρ c b :=
  fun b hb => Bd3_of_ne m ρ c b fun w e => hb (Finset.mem_image.mpr ⟨w, Finset.mem_univ _, e⟩)

/-- After the host operations between the pooling regions and the network region (region 2's entry). -/
abbrev Bd4 : Dev nD → Valuation τ sig (Elt F) := fun c => StableHlo.after hostOps2 (Bd3 m ρ c)
abbrev En2 : (c : Dev nD) → (b : Ref sig .tc) → Buf (Elt F) ((c : Thread nD τ).loc b) := fun c b => Bd4 m ρ c b

/-- At region 2's exit: its arrays at what the pipeline leaves, every other buffer as entered. -/
def Bd5 (c : Dev nD) : Valuation τ sig (Elt F) :=
  Pipeline.withArrays spec2 c (Bd4 m ρ c) fun w => (dat2 (En2 m ρ) c).arrAt w cfg2.N
theorem Bd5_arr (c : Dev nD) (w : Fin cfg2.W) :
    Bd5 m ρ c (Proc.devRef .tc (Pipeline.arrRef spec2 w)) = (dat2 (En2 m ρ) c).arrAt w cfg2.N := by
  unfold Bd5; exact Pipeline.withArrays_arr spec2 launch2.win.arr_inj c _ _ w
theorem Bd5_of_ne (c : Dev nD) (b : Ref sig .tc) (hb : ∀ w, Pipeline.arrRef spec2 w ≠ b) :
    Bd5 m ρ c (Proc.devRef .tc b) = Bd4 m ρ c (Proc.devRef .tc b) := by
  unfold Bd5; exact Pipeline.withArrays_of_ne spec2 c _ _ b hb
abbrev Ex2 : (c : Dev nD) → (b : Ref sig .tc) → Buf (Elt F) ((c : Thread nD τ).loc b) := fun c b => Bd5 m ρ c b
theorem hF2 (c : Dev nD) (w : Fin cfg2.W) : (dat2 (En2 m ρ) c).arrAt w cfg2.N = Ex2 m ρ c (Pipeline.arrRef spec2 w) :=
  (Bd5_arr m ρ c w).symm
theorem hrest2 (c : Dev nD) : ∀ b, b ∉ Finset.univ.image (Pipeline.arrRef spec2) → Ex2 m ρ c b = En2 m ρ c b :=
  fun b hb => Bd5_of_ne m ρ c b fun w e => hb (Finset.mem_image.mpr ⟨w, Finset.mem_univ _, e⟩)

/-- After the last host operations: the end. -/
abbrev Bd6 : Dev nD → Valuation τ sig (Elt F) := fun c => StableHlo.after hostOps3 (Bd5 m ρ c)

/-! ## The arguments end as launched -/

theorem Bd6_main_arg0 (c : Dev nD) : Bd6 m ρ c (Proc.devRef .tc main_arg0) = m ((c : Thread nD τ).loc main_arg0) :=
  calc Bd6 m ρ c (Proc.devRef .tc main_arg0)
    _ = Bd5 m ρ c (Proc.devRef .tc main_arg0) := StableHlo.after_of_writes_sub hostOps3 _ hostOps3_writes (r := main_arg0) (by decide)
    _ = Bd4 m ρ c (Proc.devRef .tc main_arg0) := Bd5_of_ne m ρ c main_arg0 (by decide)
    _ = Bd3 m ρ c (Proc.devRef .tc main_arg0) := StableHlo.after_of_writes_sub hostOps2 _ hostOps2_writes (r := main_arg0) (by decide)
    _ = Bd2 m ρ c (Proc.devRef .tc main_arg0) := Bd3_of_ne m ρ c main_arg0 (by decide)
    _ = Bd1 m ρ c (Proc.devRef .tc main_arg0) := Bd2_of_ne m ρ c main_arg0 (by decide)
    _ = Bd0 m ρ c (Proc.devRef .tc main_arg0) := StableHlo.after_of_writes_sub hostOps0 _ hostOps0_writes (r := main_arg0) (by decide)
    _ = m ((c : Thread nD τ).loc main_arg0) := rfl

theorem Bd6_main_arg1 (c : Dev nD) : Bd6 m ρ c (Proc.devRef .tc main_arg1) = m ((c : Thread nD τ).loc main_arg1) :=
  calc Bd6 m ρ c (Proc.devRef .tc main_arg1)
    _ = Bd5 m ρ c (Proc.devRef .tc main_arg1) := StableHlo.after_of_writes_sub hostOps3 _ hostOps3_writes (r := main_arg1) (by decide)
    _ = Bd4 m ρ c (Proc.devRef .tc main_arg1) := Bd5_of_ne m ρ c main_arg1 (by decide)
    _ = Bd3 m ρ c (Proc.devRef .tc main_arg1) := StableHlo.after_of_writes_sub hostOps2 _ hostOps2_writes (r := main_arg1) (by decide)
    _ = Bd2 m ρ c (Proc.devRef .tc main_arg1) := Bd3_of_ne m ρ c main_arg1 (by decide)
    _ = Bd1 m ρ c (Proc.devRef .tc main_arg1) := Bd2_of_ne m ρ c main_arg1 (by decide)
    _ = Bd0 m ρ c (Proc.devRef .tc main_arg1) := StableHlo.after_of_writes_sub hostOps0 _ hostOps0_writes (r := main_arg1) (by decide)
    _ = m ((c : Thread nD τ).loc main_arg1) := rfl

theorem Bd6_main_arg2 (c : Dev nD) : Bd6 m ρ c (Proc.devRef .tc main_arg2) = m ((c : Thread nD τ).loc main_arg2) :=
  calc Bd6 m ρ c (Proc.devRef .tc main_arg2)
    _ = Bd5 m ρ c (Proc.devRef .tc main_arg2) := StableHlo.after_of_writes_sub hostOps3 _ hostOps3_writes (r := main_arg2) (by decide)
    _ = Bd4 m ρ c (Proc.devRef .tc main_arg2) := (Bd5_arr m ρ c 2).trans (((dat2 (En2 m ρ) c).arrAt_in 2 rfl _).trans (A_eq2 (En2 m ρ) c 2))
    _ = Bd3 m ρ c (Proc.devRef .tc main_arg2) := StableHlo.after_of_writes_sub hostOps2 _ hostOps2_writes (r := main_arg2) (by decide)
    _ = Bd2 m ρ c (Proc.devRef .tc main_arg2) := Bd3_of_ne m ρ c main_arg2 (by decide)
    _ = Bd1 m ρ c (Proc.devRef .tc main_arg2) := Bd2_of_ne m ρ c main_arg2 (by decide)
    _ = Bd0 m ρ c (Proc.devRef .tc main_arg2) := StableHlo.after_of_writes_sub hostOps0 _ hostOps0_writes (r := main_arg2) (by decide)
    _ = m ((c : Thread nD τ).loc main_arg2) := rfl

theorem Bd6_main_arg3 (c : Dev nD) : Bd6 m ρ c (Proc.devRef .tc main_arg3) = m ((c : Thread nD τ).loc main_arg3) :=
  calc Bd6 m ρ c (Proc.devRef .tc main_arg3)
    _ = Bd5 m ρ c (Proc.devRef .tc main_arg3) := StableHlo.after_of_writes_sub hostOps3 _ hostOps3_writes (r := main_arg3) (by decide)
    _ = Bd4 m ρ c (Proc.devRef .tc main_arg3) := Bd5_of_ne m ρ c main_arg3 (by decide)
    _ = Bd3 m ρ c (Proc.devRef .tc main_arg3) := StableHlo.after_of_writes_sub hostOps2 _ hostOps2_writes (r := main_arg3) (by decide)
    _ = Bd2 m ρ c (Proc.devRef .tc main_arg3) := Bd3_of_ne m ρ c main_arg3 (by decide)
    _ = Bd1 m ρ c (Proc.devRef .tc main_arg3) := Bd2_of_ne m ρ c main_arg3 (by decide)
    _ = Bd0 m ρ c (Proc.devRef .tc main_arg3) := StableHlo.after_of_writes_sub hostOps0 _ hostOps0_writes (r := main_arg3) (by decide)
    _ = m ((c : Thread nD τ).loc main_arg3) := rfl

theorem Bd6_main_arg4 (c : Dev nD) : Bd6 m ρ c (Proc.devRef .tc main_arg4) = m ((c : Thread nD τ).loc main_arg4) :=
  calc Bd6 m ρ c (Proc.devRef .tc main_arg4)
    _ = Bd5 m ρ c (Proc.devRef .tc main_arg4) := StableHlo.after_of_writes_sub hostOps3 _ hostOps3_writes (r := main_arg4) (by decide)
    _ = Bd4 m ρ c (Proc.devRef .tc main_arg4) := (Bd5_arr m ρ c 4).trans (((dat2 (En2 m ρ) c).arrAt_in 4 rfl _).trans (A_eq2 (En2 m ρ) c 4))
    _ = Bd3 m ρ c (Proc.devRef .tc main_arg4) := StableHlo.after_of_writes_sub hostOps2 _ hostOps2_writes (r := main_arg4) (by decide)
    _ = Bd2 m ρ c (Proc.devRef .tc main_arg4) := Bd3_of_ne m ρ c main_arg4 (by decide)
    _ = Bd1 m ρ c (Proc.devRef .tc main_arg4) := Bd2_of_ne m ρ c main_arg4 (by decide)
    _ = Bd0 m ρ c (Proc.devRef .tc main_arg4) := StableHlo.after_of_writes_sub hostOps0 _ hostOps0_writes (r := main_arg4) (by decide)
    _ = m ((c : Thread nD τ).loc main_arg4) := rfl

theorem Bd6_main_arg5 (c : Dev nD) : Bd6 m ρ c (Proc.devRef .tc main_arg5) = m ((c : Thread nD τ).loc main_arg5) :=
  calc Bd6 m ρ c (Proc.devRef .tc main_arg5)
    _ = Bd5 m ρ c (Proc.devRef .tc main_arg5) := StableHlo.after_of_writes_sub hostOps3 _ hostOps3_writes (r := main_arg5) (by decide)
    _ = Bd4 m ρ c (Proc.devRef .tc main_arg5) := Bd5_of_ne m ρ c main_arg5 (by decide)
    _ = Bd3 m ρ c (Proc.devRef .tc main_arg5) := StableHlo.after_of_writes_sub hostOps2 _ hostOps2_writes (r := main_arg5) (by decide)
    _ = Bd2 m ρ c (Proc.devRef .tc main_arg5) := Bd3_of_ne m ρ c main_arg5 (by decide)
    _ = Bd1 m ρ c (Proc.devRef .tc main_arg5) := Bd2_of_ne m ρ c main_arg5 (by decide)
    _ = Bd0 m ρ c (Proc.devRef .tc main_arg5) := StableHlo.after_of_writes_sub hostOps0 _ hostOps0_writes (r := main_arg5) (by decide)
    _ = m ((c : Thread nD τ).loc main_arg5) := rfl

/-! ## The proof data family and the thread state -/

abbrev admH : (p : Fin 3) → (pcfgs (F := F) p).Adm := fun p => (cfgs p).toPCfg_adm
/-- Every pipeline's proof data, each at its region's entry contents. -/
def pdatsH : (p : Fin 3) → (c : Dev nD) → Dat τ (Elt F) Unit ℕ (UR sig nD τ) ℕ (Pipeline.pin (pcfgs (F := F)) admH p) c
  | ⟨0, _⟩ => fun c => dat0 (En0 m ρ) c
  | ⟨1, _⟩ => fun c => dat1 (En1 m ρ) c
  | ⟨2, _⟩ => fun c => dat2 (En2 m ρ) c
abbrev VarH : Variants := Variants.none
abbrev LH : GSem nD τ sig → Finset Unit := fun _ => ∅
abbrev lvH : GSem nD τ sig → Unit → ℕ := fun _ _ => 0
/-- What rides beside the buffers through every segment: the generator register at some state and the core owing nothing. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ VarH LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev TnH (c : Dev nD) : sProp 𝕄 := iprop(StableHlo.held (c : Thread nD τ) (Pipeline.ucRefs τ sig) (Bd6 m ρ c) ∗ ∃ r, prngReg c r)

/-! ## The regions as segments -/

set_option backward.isDefEq.respectTransparency.types false in
/-- Region 0 over the thread state: entered with every unscoped buffer at `Bd1`, left with them at `Bd2`: its
    arrays split out of the unscoped buffers and put back at what the write-backs leave; the generator register into the
    region's invariant and out; nothing owed; no semaphore of the kernel's own. -/
def reg0 : Pipeline.RegionSeg (pcfgs (F := F)) admH (pdatsH m ρ) () defs₀ VarH LH lvH 0 where
  win := launch0.win.to₀
  block_pos := launch0.block_pos
  stage_whole := launch0.stage_whole
  K := PEmpty
  osem k := k.elim
  ho := Pipeline.OwnSemFacts.none _
  hbody c := (body_obligation0 (En0 m ρ) c).loose
  hwaits := Pipeline.hwaits_of_owed_zero _ _ _ _ LH lvH 0 fun _ _ => rfl
  pre c := iprop(StableHlo.held (c : Thread nD τ) (Pipeline.ucRefs τ sig) (Bd1 m ρ c) ∗ RH c)
  post c := iprop(StableHlo.held (c : Thread nD τ) (Pipeline.ucRefs τ sig) (Bd2 m ρ c) ∗ RH c)
  X c := iprop(∃ r, prngReg c r)
  Y c := iprop(∃ r, prngReg c r)
  Z c := Pipeline.unscopedRest (Ix := Unit) (Name := ℕ) (U := UR sig nD τ) (Lvl := ℕ) spec0 c (En0 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (En0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdatsH m ρ 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (En0 m ρ c) (En1 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `Bd2`, left with them at `Bd3`: its
    arrays split out of the unscoped buffers and put back at what the write-backs leave; the generator register into the
    region's invariant and out; nothing owed; no semaphore of the kernel's own. -/
def reg1 : Pipeline.RegionSeg (pcfgs (F := F)) admH (pdatsH m ρ) () defs₀ VarH LH lvH 1 where
  win := launch1.win.to₀
  block_pos := launch1.block_pos
  stage_whole := launch1.stage_whole
  K := PEmpty
  osem k := k.elim
  ho := Pipeline.OwnSemFacts.none _
  hbody c := (body_obligation1 (En1 m ρ) c).loose
  hwaits := Pipeline.hwaits_of_owed_zero _ _ _ _ LH lvH 1 fun _ _ => rfl
  pre c := iprop(StableHlo.held (c : Thread nD τ) (Pipeline.ucRefs τ sig) (Bd2 m ρ c) ∗ RH c)
  post c := iprop(StableHlo.held (c : Thread nD τ) (Pipeline.ucRefs τ sig) (Bd3 m ρ c) ∗ RH c)
  X c := iprop(∃ r, prngReg c r)
  Y c := iprop(∃ r, prngReg c r)
  Z c := Pipeline.unscopedRest (Ix := Unit) (Name := ℕ) (U := UR sig nD τ) (Lvl := ℕ) spec1 c (En1 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (En1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdatsH m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (En1 m ρ c) (Ex1 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `Bd4`, left with them at `Bd5`: its
    arrays split out of the unscoped buffers and put back at what the write-backs leave; the generator register into the
    region's invariant and out; nothing owed; no semaphore of the kernel's own. -/
def reg2 : Pipeline.RegionSeg (pcfgs (F := F)) admH (pdatsH m ρ) () defs₀ VarH LH lvH 2 where
  win := launch2.win.to₀
  block_pos := launch2.block_pos
  stage_whole := launch2.stage_whole
  K := PEmpty
  osem k := k.elim
  ho := Pipeline.OwnSemFacts.none _
  hbody c := (body_obligation2 (En2 m ρ) c).loose
  hwaits := Pipeline.hwaits_of_owed_zero _ _ _ _ LH lvH 2 fun _ _ => rfl
  pre c := iprop(StableHlo.held (c : Thread nD τ) (Pipeline.ucRefs τ sig) (Bd4 m ρ c) ∗ RH c)
  post c := iprop(StableHlo.held (c : Thread nD τ) (Pipeline.ucRefs τ sig) (Bd5 m ρ c) ∗ RH c)
  X c := iprop(∃ r, prngReg c r)
  Y c := iprop(∃ r, prngReg c r)
  Z c := Pipeline.unscopedRest (Ix := Unit) (Name := ℕ) (U := UR sig nD τ) (Lvl := ℕ) spec2 c (En2 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (En2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    have h2 := hout2 (En2 m ρ) c
    unfold Pipeline.ΦA at h2
    show ((dat2 (En2 m ρ) c).Φ (Fin.last cfg2.N) : sProp 𝕄) ⊢ _
    iintro H
    ihave H' := h2 $$ H
    icases H' with ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (En2 m ρ c) (Ex2 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segsH : List (Pipeline.Seg (pcfgs (F := F)) admH (pdatsH m ρ) () defs₀ VarH LH lvH) :=
  [ .host (hsegH hostOps0 hostOps0_sub hostOps0_fresh (Bd0 m ρ)),
    .region (reg0 m ρ),
    .region (reg1 m ρ),
    .host (hsegH hostOps2 hostOps2_sub hostOps2_fresh (Bd3 m ρ)),
    .region (reg2 m ρ),
    .host (hsegH hostOps3 hostOps3_sub hostOps3_fresh (Bd5 m ρ)) ]

theorem main_runH (c : Dev nD) : main (F := F) c = Pipeline.Seg.run (segsH m ρ) := (main_chain c).trans (by chain_rfl)

set_option backward.isDefEq.respectTransparency.types false in
/-- THE RUN: from any memory with zero counters every weakly fair execution of @main terminates, nothing faulting, in a
    memory that holds the last boundary's contents in every unscoped buffer. -/
theorem run : θ_run defs (onTc (τ := τ) (main (F := F))) ⟨m, fun _ => 0, ρ⟩ (fun r => ∀ c : Dev nD,
      ∀ b ∈ Pipeline.ucRefs τ sig, r.2.mem (((c : Thread nD τ)).1, b) = Bd6 m ρ c b) :=
  Pipeline.θ_run_regions_kit (pcfgs (F := F)) admH (pdatsH m ρ) () cellOf_inj emb₁ defs₀ VarH LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m ρ c) ∗ RH c)) (Tₙ := TnH m ρ)
    (hch := ⟨fun _ => .rfl, fun _ => .rfl, fun _ => .rfl, fun _ => .rfl, fun _ => .rfl, fun _ => .rfl, fun c => (show (iprop(StableHlo.held (c : Thread nD τ) (Pipeline.ucRefs τ sig) (Bd6 m ρ c) ∗ RH c) : sProp 𝕄)
          ⊢ iprop(TnH m ρ c ∗ ∃ W, owes (c : Thread nD τ) (0 : CellTallies nD τ sig Unit) W) from by
      iintro ⟨Hh, Hp, HO⟩
      isplitl [Hh Hp]
      · isplitl [Hh]; · iexact Hh
        iexact Hp
      iexact HO)⟩)
    (hinit := by
      refine Pipeline.initEach LH lvH fun c => ?_
      rw [show unscopedBufs c (fun b => m ((c : Thread nD τ).loc b)) = StableHlo.held (c : Thread nD τ) (Pipeline.ucRefs τ sig) (Bd0 m ρ c)
        from Pipeline.unscopedBufs_held c (Bd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd6 m ρ c b)
    (hfin := fun c s' => by
      iintro ⟨⟨Hh, -⟩, HSI⟩
      unfold StableHlo.held
      imodintro
      iapply (pointsTo_read_all (Pipeline.ucRefs τ sig) (fun b => (((c : Thread nD τ)).1, b)) (Bd6 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (Bd6_main_arg0 m ρ c),
     (h c _ (mem_uc main_arg1 (by decide))).trans (Bd6_main_arg1 m ρ c),
     (h c _ (mem_uc main_arg2 (by decide))).trans (Bd6_main_arg2 m ρ c),
     (h c _ (mem_uc main_arg3 (by decide))).trans (Bd6_main_arg3 m ρ c),
     (h c _ (mem_uc main_arg4 (by decide))).trans (Bd6_main_arg4 m ρ c),
     (h c _ (mem_uc main_arg5 (by decide))).trans (Bd6_main_arg5 m ρ c)⟩) (run m ρ)

end Cert.KernelIdeal.Hand

end
-- ==== Proof.Spec.lean ====
/-
  The two programs as formulas over the real numbers.

  Data: `x n c k` is the first input at sample `n`, channel `c`, spatial position `k = 8·h + w` (the 8×8 spatial
  grid read row by row), `y n d k` the second input likewise; `w1, b1, w2, b2` the two dense layers.

  Both programs pool each channel over its 64 spatial positions, send the pooled `x` through the network
  `μ = relu(x·W1 + b1)·W2 + b2`, and return the mean over the samples `n` of
    (−½ Σ_d (μ_n,d − y_n,d)²)  −  (−½ Σ_d mean_j (y_j,d − μ_n,d)²).
  The reference computes the inner mean over all pairs `(n, j)`. The kernel expands the square,
    mean_j (y_j,d − μ_n,d)² = mean_j y_j,d² − 2 μ_n,d · mean_j y_j,d + μ_n,d²,
  so that only the two column statistics `mean_j y_j,d` and `mean_j y_j,d²` are needed, and accumulates the
  samples in four groups of 256 consecutive rows.
-/
import Mathlib.Data.Real.Basic
import Mathlib.Algebra.BigOperators.Fin
import Mathlib.Algebra.Order.Group.MinMax

noncomputable section

namespace Cert.Spec

open Finset BigOperators

variable (x : Fin 1024 → Fin 512 → Fin 64 → ℝ) (y : Fin 1024 → Fin 256 → Fin 64 → ℝ)
  (w1 : Fin 512 → Fin 512 → ℝ) (b1 : Fin 512 → ℝ) (w2 : Fin 512 → Fin 256 → ℝ) (b2 : Fin 256 → ℝ)

/-! ## The kernel's formula -/

/-- A pooled channel, the kernel's way: the sum of the 64 positions times 1/64. -/
def poolK {C : ℕ} (a : Fin 1024 → Fin C → Fin 64 → ℝ) (n : Fin 1024) (c : Fin C) : ℝ := (∑ k, a n c k) * (1 / 64)

/-- The hidden layer on the kernel's pooled `x`. -/
def hidK (n : Fin 1024) (j : Fin 512) : ℝ := max (∑ c, poolK x n c * w1 c j + b1 j) 0

/-- The network's output on the kernel's pooled `x`. -/
def muK (n : Fin 1024) (d : Fin 256) : ℝ := ∑ j, hidK x w1 b1 n j * w2 j d + b2 d

/-- The column means of the pooled `y`. -/
def ybarK (d : Fin 256) : ℝ := (∑ n, poolK y n d) / 1024

/-- The kernel's contribution of sample `n`: −½ Σ_d (μ − y)² − (Σ_d μ·ȳ − ½ Σ_d μ²). -/
def rowK (n : Fin 1024) : ℝ :=
  (-1 / 2) * (∑ d, (muK x w1 b1 w2 b2 n d - poolK y n d) * (muK x w1 b1 w2 b2 n d - poolK y n d))
    - ((∑ d, muK x w1 b1 w2 b2 n d * ybarK y d) - (1 / 2) * ∑ d, muK x w1 b1 w2 b2 n d * muK x w1 b1 w2 b2 n d)

/-- Row `r` of the group `t` of 256 consecutive samples. -/
def rowAt (t : Fin 4) (r : Fin 256) : Fin 1024 := ⟨256 * t.val + r.val, by omega⟩

/-- The sum of the contributions of group `t`. -/
def groupK (t : Fin 4) : ℝ := ∑ r, rowK x y w1 b1 w2 b2 (rowAt t r)

/-- The accumulator after the four groups, added in order. -/
def accK : ℝ := groupK x y w1 b1 w2 b2 0 + groupK x y w1 b1 w2 b2 1 + groupK x y w1 b1 w2 b2 2 + groupK x y w1 b1 w2 b2 3

/-- −½ times the sum over the columns of the column means of the pooled `y` squared. -/
def c0K : ℝ := (-1 / 2) * ∑ d, (∑ n, poolK y n d * poolK y n d) / 1024

/-- The kernel's result. -/
def resK : ℝ := accK x y w1 b1 w2 b2 / 1024 - c0K y

/-! ## The reference's formula -/

/-- A pooled channel, the reference's way: the sum of the 64 positions divided by 64. -/
def poolR {C : ℕ} (a : Fin 1024 → Fin C → Fin 64 → ℝ) (n : Fin 1024) (c : Fin C) : ℝ := (∑ k, a n c k) / 64

def hidR (n : Fin 1024) (j : Fin 512) : ℝ := max (∑ c, poolR x n c * w1 c j + b1 j) 0

def muR (n : Fin 1024) (d : Fin 256) : ℝ := ∑ j, hidR x w1 b1 n j * w2 j d + b2 d

/-- Σ_d −(μ − y)² / 2. -/
def posR (n : Fin 1024) : ℝ :=
  ∑ d, -((muR x w1 b1 w2 b2 n d - poolR y n d) * (muR x w1 b1 w2 b2 n d - poolR y n d)) / 2

/-- Σ_d −(mean_j (y_j − μ_n)²) / 2. -/
def negR (n : Fin 1024) : ℝ :=
  ∑ d, -((∑ j, (poolR y j d - muR x w1 b1 w2 b2 n d) * (poolR y j d - muR x w1 b1 w2 b2 n d)) / 1024) / 2

/-- The reference's result. -/
def resR : ℝ := (∑ n, (posR x y w1 b1 w2 b2 n - negR x y w1 b1 w2 b2 n)) / 1024

end Cert.Spec

end
-- ==== Proof.Arrays.lean ====
/-
  Argument arrays as families of real numbers.

  An input whose entries are all finite is the coercion of an array of real numbers. This module names the
  re-indexings that turn such arrays into the coordinate families of `Cert.Spec`: a rank-4 input
  `[1024, C, 8, 8]` read at sample `n`, channel `c` and spatial position `k = 8·h + w`; a matrix read at
  `(p, q)`; a vector read at `p`.
-/
import proofs.«173461_j48704929137027_2_alg».proof.Proof.Spec
import Idealize.ShloMosaic.Lib.ValueIdx

noncomputable section

namespace Cert.Arrays

open Idealize.ShloMosaic Idealize.ShloMosaic.ValueIdx

/-- A rank-4 array `[1024, C, 8, 8]` of reals as `(n, c, k)` with `k = 8·h + w`. -/
def pooled {C : ℕ} (a : (⟨4, ![1024, C, 8, 8]⟩ : Shape).Idx → ℝ) : Fin 1024 → Fin C → Fin 64 → ℝ :=
  fun n c k => a (ix4 n c ⟨k.val / 8, by omega⟩ ⟨k.val % 8, by omega⟩)

/-- A matrix of reals by its two coordinates. -/
def mat {A B : ℕ} (a : (⟨2, ![A, B]⟩ : Shape).Idx → ℝ) : Fin A → Fin B → ℝ := fun p q => a (ix2 p q)

/-- A vector of reals by its coordinate. -/
def vec {A : ℕ} (a : (⟨1, ![A]⟩ : Shape).Idx → ℝ) : Fin A → ℝ := fun p => a (ix1 p)

/-- An array of reals as an array of extended reals. -/
def lift {s : Shape} (a : s.Idx → ℝ) : s.Idx → EReal := fun i => ((a i : ℝ) : EReal)

variable (a0 : (⟨4, ![1024, 512, 8, 8]⟩ : Shape).Idx → ℝ) (a1 : (⟨4, ![1024, 256, 8, 8]⟩ : Shape).Idx → ℝ)
  (a2 : (⟨2, ![512, 512]⟩ : Shape).Idx → ℝ) (a3 : (⟨1, ![512]⟩ : Shape).Idx → ℝ)
  (a4 : (⟨2, ![512, 256]⟩ : Shape).Idx → ℝ) (a5 : (⟨1, ![256]⟩ : Shape).Idx → ℝ)

/-- The kernel's formula at six arrays of reals. -/
def resK : ℝ := Cert.Spec.resK (pooled a0) (pooled a1) (mat a2) (vec a3) (mat a4) (vec a5)

/-- The reference's formula at six arrays of reals. -/
def resR : ℝ := Cert.Spec.resR (pooled a0) (pooled a1) (mat a2) (vec a3) (mat a4) (vec a5)

end Cert.Arrays

end
-- ==== Proof.KI.PayBase.lean ====
/-
  Tools for reading the kernel's payloads at arrays of real numbers: the real values of the float constants the
  kernel spells, the coercion of a finite sum of reals, and a sum over the last axis read at an index.
-/
import proofs.«173461_j48704929137027_2_alg».proof.Proof.Arrays
import Idealize.ShloMosaic.Lib.ValueIdx
import Idealize.ShloMosaic.Lib.ValueLayout
import Idealize.ShloMosaic.Lib.Pipeline.Value
import Idealize.ShloMosaic.PureOps.Ideal.Laws

noncomputable section

namespace Cert.Pay

open Cert.Arrays Idealize.ShloMosaic Idealize.ShloMosaic.ValueIdx
open Finset BigOperators

/-! ## The constants -/

/-- The word `0x3C800000` denotes the real `1/64`. -/
theorem ofBits_inv64 : Ideal.ofBits .f32 0x3C800000#32 = (((1 : ℝ) / 64 : ℝ) : EReal) := by
  simp [Ideal.ofBits, Ideal.ieee, -EReal.coe_mul]; norm_num

/-- The word `0xBF000000` denotes the real `-1/2`. -/
theorem ofBits_neg_half : Ideal.ofBits .f32 0xBF000000#32 = (((-1 : ℝ) / 2 : ℝ) : EReal) := by
  simp [Ideal.ofBits, Ideal.ieee, -EReal.coe_mul]; norm_num

/-- The word `0x3F000000` denotes the real `1/2`. -/
theorem ofBits_half : Ideal.ofBits .f32 0x3F000000#32 = (((1 : ℝ) / 2 : ℝ) : EReal) := by
  simp [Ideal.ofBits, Ideal.ieee, -EReal.coe_mul]; norm_num

/-- The zero word denotes the real `0`. -/
theorem ofBits_zero : Ideal.ofBits .f32 0x00000000#32 = ((0 : ℝ) : EReal) := by
  rw [Ideal.ofBits_zero_f32, EReal.coe_zero]

/-! ## Coercions -/

/-- The coercion of a finite sum of reals is the sum of the coercions. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A lifted array read at an index is the coercion of the real entry. -/
theorem lift_apply {s : Shape} (a : s.Idx → ℝ) (i : s.Idx) : lift a i = ((a i : ℝ) : EReal) := rfl

/-! ## A sum over the last axis, read at an index -/

/-- A rank-3 array summed over its last axis reads, at `(p, q)`, the sum over `k` of the entries `(p, q, k)`. -/
theorem sum_last3_apply {A B C : ℕ} (src : FVec Ideal ⟨3, ![A, B, C]⟩ .f32)
    (h : (⟨3, ![A, B, C]⟩ : Shape).Reduces [2] ⟨2, ![A, B]⟩) (hφ : FKind.Formats .f32)
    (hacc : (0x00000000#32 : BitVec 32) = 0x00000000#32) (p : Fin A) (q : Fin B) :
    multiReduction (F := Ideal) .add [2] ⟨2, ![A, B]⟩ src 0x00000000#32 h hφ hacc (ix2 p q)
      = ∑ k : Fin C, src (ix3 p q k) := by
  refine (Ideal.multiReduction_add_single src 0x00000000#32 h hφ hacc (ix2 p q)).trans ?_
  refine Finset.sum_congr rfl fun k _ => congrArg src ?_
  funext a
  apply Fin.ext
  match a with
  | ⟨0, _⟩ => rfl
  | ⟨1, _⟩ => rfl
  | ⟨2, _⟩ => rfl

/-- A matrix summed over its last axis reads, at `r`, the sum over `d` of the entries `(r, d)`. -/
theorem sum_last2_apply {A B : ℕ} (src : FVec Ideal ⟨2, ![A, B]⟩ .f32)
    (h : (⟨2, ![A, B]⟩ : Shape).Reduces [1] ⟨1, ![A]⟩) (hφ : FKind.Formats .f32)
    (hacc : (0x00000000#32 : BitVec 32) = 0x00000000#32) (r : Fin A) :
    multiReduction (F := Ideal) .add [1] ⟨1, ![A]⟩ src 0x00000000#32 h hφ hacc (ix1 r)
      = ∑ d : Fin B, src (ix2 r d) := by
  refine (Ideal.multiReduction_add_single src 0x00000000#32 h hφ hacc (ix1 r)).trans ?_
  refine Finset.sum_congr rfl fun k _ => congrArg src ?_
  funext a
  apply Fin.ext
  match a with
  | ⟨0, _⟩ => rfl
  | ⟨1, _⟩ => rfl

end Cert.Pay

end
-- ==== Proof.KI.PayPool.lean ====
/-
  The two pooling payloads at arrays of real numbers: each channel's 64 positions summed and multiplied by 1/64.
-/
import proofs.«173461_j48704929137027_2_alg».proof.Proof.Gen.KernelIdeal.Skeleton
import proofs.«173461_j48704929137027_2_alg».proof.Proof.KI.PayBase

noncomputable section

namespace Cert.Pay

open Cert.KernelIdeal Cert.KernelIdeal.Gen Cert.Arrays Idealize.ShloMosaic Idealize.ShloMosaic.ValueIdx
open Finset BigOperators

/-- A block of 64 samples pooled: at `(n, c)` the sum over the 64 positions times `1/64`. -/
def poolBlk {C : ℕ} (x : (⟨3, ![64, C, 64]⟩ : Shape).Idx → ℝ) : (⟨2, ![64, C]⟩ : Shape).Idx → ℝ :=
  fun j => (∑ k : Fin 64, x (ix3 (j 0) (j 1) k)) * (1 / 64)

/-- The pooling arithmetic at one index, for any channel count. -/
theorem pool_apply {C : ℕ} (x : (⟨3, ![64, C, 64]⟩ : Shape).Idx → ℝ)
    (h : (⟨3, ![64, C, 64]⟩ : Shape).Reduces [2] ⟨2, ![64, C]⟩) (hφ : FKind.Formats .f32)
    (hacc : (0x00000000#32 : BitVec 32) = 0x00000000#32) (p : Fin 64) (q : Fin C) :
    mulf (multiReduction (F := Ideal) .add [2] ⟨2, ![64, C]⟩ (lift x) 0x00000000#32 h hφ hacc)
        (broadcast ⟨2, ![64, C]⟩ (Scalar.ofBits (F := Ideal) .f32 0x3C800000#32)) (ix2 p q)
      = lift (poolBlk x) (ix2 p q) := by
  rw [mulf_apply, broadcast_apply, sum_last3_apply]
  show (∑ k : Fin 64, lift x (ix3 p q k)) * Ideal.ofBits .f32 0x3C800000#32 = _
  rw [ofBits_inv64, lift_apply]
  unfold poolBlk
  simp only [lift_apply]
  rw [← coe_sum, ← EReal.coe_mul]
  rfl

theorem pay_pool0 (x : S64x512x64.Idx → ℝ) : k0_pay1 (F := Ideal) (lift x) = lift (poolBlk x) := by
  funext j
  obtain ⟨p, q, rfl⟩ : ∃ (p : Fin 64) (q : Fin 512), j = ix2 p q := ⟨j 0, j 1, eq_ix2 j⟩
  unfold k0_pay1
  rw [shapeCast_self]
  exact pool_apply x _ _ _ p q

theorem pay_pool1 (x : S64x256x64.Idx → ℝ) : k1_pay1 (F := Ideal) (lift x) = lift (poolBlk x) := by
  funext j
  obtain ⟨p, q, rfl⟩ : ∃ (p : Fin 64) (q : Fin 256), j = ix2 p q := ⟨j 0, j 1, eq_ix2 j⟩
  unfold k1_pay1
  rw [shapeCast_self]
  exact pool_apply x _ _ _ p q

end Cert.Pay

end
-- ==== Proof.KI.PayMu.lean ====
/-
  The network payload at arrays of real numbers: `relu(x·W1 + b1)·W2 + b2` on a block of 256 pooled samples.
-/
import proofs.«173461_j48704929137027_2_alg».proof.Proof.Gen.KernelIdeal.Skeleton
import proofs.«173461_j48704929137027_2_alg».proof.Proof.KI.PayBase

noncomputable section

namespace Cert.Pay

open Cert.KernelIdeal Cert.KernelIdeal.Gen Cert.Arrays Idealize.ShloMosaic Idealize.ShloMosaic.ValueIdx
open Finset BigOperators

/-! ## The two matrix products read at an index -/

theorem mmHid_lhs0 (i : S256x512.Idx) (q : dot_S256x512_S512x512_S256x512_1_0_0_1_n_n.contr.Idx) :
    (dot_S256x512_S512x512_S256x512_1_0_0_1_n_n.lhsIdx i q 0).val = (i 0).val := by
  unfold DotDims.lhsIdx
  rw [dif_neg (show ¬(0 : Fin S256x512.rank) ∈ dot_S256x512_S512x512_S256x512_1_0_0_1_n_n.lhsBatch by decide), dif_pos (show (0 : Fin S256x512.rank) ∈ dot_S256x512_S512x512_S256x512_1_0_0_1_n_n.lhsNonContracting by decide)]
  rfl

theorem mmHid_rhs1 (i : S256x512.Idx) (q : dot_S256x512_S512x512_S256x512_1_0_0_1_n_n.contr.Idx) :
    (dot_S256x512_S512x512_S256x512_1_0_0_1_n_n.rhsIdx i q 1).val = (i 1).val := by
  unfold DotDims.rhsIdx
  rw [dif_neg (show ¬(1 : Fin S512x512.rank) ∈ dot_S256x512_S512x512_S256x512_1_0_0_1_n_n.rhsBatch by decide), dif_pos (show (1 : Fin S512x512.rank) ∈ dot_S256x512_S512x512_S256x512_1_0_0_1_n_n.rhsNonContracting by decide)]
  rfl

/-- The matrix product into a zero accumulator reads, at `(p, q)`, the sum over `k` of `a (p, k) * b (k, q)`. -/
theorem mmHid_apply (a : FVec Ideal S256x512 .f32) (b : FVec Ideal S512x512 .f32) (p : Fin 256) (q : Fin 512) :
    matmul dot_S256x512_S512x512_S256x512_1_0_0_1_n_n none a b (constant (F := Ideal) S256x512 .f32 0x00000000#32) (ix2 p q)
      = ∑ k : Fin 512, a (ix2 p k) * b (ix2 k q) := by
  simp only [matmul]
  rw [Ideal.matmul_constant_zero_apply, ← Equiv.sum_comp (contrEquiv1 dot_S256x512_S512x512_S256x512_1_0_0_1_n_n 512 rfl rfl).symm]
  refine Finset.sum_congr rfl fun k _ => ?_
  have hk := contrEquiv1_symm_val dot_S256x512_S512x512_S256x512_1_0_0_1_n_n 512 rfl rfl k
  have el : dot_S256x512_S512x512_S256x512_1_0_0_1_n_n.lhsIdx (ix2 p q) ((contrEquiv1 dot_S256x512_S512x512_S256x512_1_0_0_1_n_n 512 rfl rfl).symm k) = ix2 p k := funext fun c => Fin.ext (by
    match c with
    | ⟨0, _⟩ => exact mmHid_lhs0 _ _
    | ⟨1, _⟩ => exact (dot_S256x512_S512x512_S256x512_1_0_0_1_n_n.lhsIdx_val_of_single rfl _ _).trans hk)
  have er : dot_S256x512_S512x512_S256x512_1_0_0_1_n_n.rhsIdx (ix2 p q) ((contrEquiv1 dot_S256x512_S512x512_S256x512_1_0_0_1_n_n 512 rfl rfl).symm k) = ix2 k q := funext fun c => Fin.ext (by
    match c with
    | ⟨0, _⟩ => exact (dot_S256x512_S512x512_S256x512_1_0_0_1_n_n.rhsIdx_val_of_single rfl _ _).trans hk
    | ⟨1, _⟩ => exact mmHid_rhs1 _ _)
  rw [el, er]

theorem mmOut_lhs0 (i : S256x256.Idx) (q : dot_S256x512_S512x256_S256x256_1_0_0_1_n_n.contr.Idx) :
    (dot_S256x512_S512x256_S256x256_1_0_0_1_n_n.lhsIdx i q 0).val = (i 0).val := by
  unfold DotDims.lhsIdx
  rw [dif_neg (show ¬(0 : Fin S256x512.rank) ∈ dot_S256x512_S512x256_S256x256_1_0_0_1_n_n.lhsBatch by decide), dif_pos (show (0 : Fin S256x512.rank) ∈ dot_S256x512_S512x256_S256x256_1_0_0_1_n_n.lhsNonContracting by decide)]
  rfl

theorem mmOut_rhs1 (i : S256x256.Idx) (q : dot_S256x512_S512x256_S256x256_1_0_0_1_n_n.contr.Idx) :
    (dot_S256x512_S512x256_S256x256_1_0_0_1_n_n.rhsIdx i q 1).val = (i 1).val := by
  unfold DotDims.rhsIdx
  rw [dif_neg (show ¬(1 : Fin S512x256.rank) ∈ dot_S256x512_S512x256_S256x256_1_0_0_1_n_n.rhsBatch by decide), dif_pos (show (1 : Fin S512x256.rank) ∈ dot_S256x512_S512x256_S256x256_1_0_0_1_n_n.rhsNonContracting by decide)]
  rfl

/-- The matrix product into a zero accumulator reads, at `(p, q)`, the sum over `k` of `a (p, k) * b (k, q)`. -/
theorem mmOut_apply (a : FVec Ideal S256x512 .f32) (b : FVec Ideal S512x256 .f32) (p : Fin 256) (q : Fin 256) :
    matmul dot_S256x512_S512x256_S256x256_1_0_0_1_n_n none a b (constant (F := Ideal) S256x256 .f32 0x00000000#32) (ix2 p q)
      = ∑ k : Fin 512, a (ix2 p k) * b (ix2 k q) := by
  simp only [matmul]
  rw [Ideal.matmul_constant_zero_apply, ← Equiv.sum_comp (contrEquiv1 dot_S256x512_S512x256_S256x256_1_0_0_1_n_n 512 rfl rfl).symm]
  refine Finset.sum_congr rfl fun k _ => ?_
  have hk := contrEquiv1_symm_val dot_S256x512_S512x256_S256x256_1_0_0_1_n_n 512 rfl rfl k
  have el : dot_S256x512_S512x256_S256x256_1_0_0_1_n_n.lhsIdx (ix2 p q) ((contrEquiv1 dot_S256x512_S512x256_S256x256_1_0_0_1_n_n 512 rfl rfl).symm k) = ix2 p k := funext fun c => Fin.ext (by
    match c with
    | ⟨0, _⟩ => exact mmOut_lhs0 _ _
    | ⟨1, _⟩ => exact (dot_S256x512_S512x256_S256x256_1_0_0_1_n_n.lhsIdx_val_of_single rfl _ _).trans hk)
  have er : dot_S256x512_S512x256_S256x256_1_0_0_1_n_n.rhsIdx (ix2 p q) ((contrEquiv1 dot_S256x512_S512x256_S256x256_1_0_0_1_n_n 512 rfl rfl).symm k) = ix2 k q := funext fun c => Fin.ext (by
    match c with
    | ⟨0, _⟩ => exact (dot_S256x512_S512x256_S256x256_1_0_0_1_n_n.rhsIdx_val_of_single rfl _ _).trans hk
    | ⟨1, _⟩ => exact mmOut_rhs1 _ _)
  rw [el, er]

/-! ## The two layers on extended reals -/

/-- The hidden layer at `(p, h)`: the product's entry plus the bias, cut below at zero. -/
theorem hidE_apply (X : FVec Ideal S256x512 .f32) (W : FVec Ideal S512x512 .f32) (B : FVec Ideal S1x512 .f32)
    (p : Fin 256) (h : Fin 512) :
    maximumf (addf (matmul dot_S256x512_S512x512_S256x512_1_0_0_1_n_n none X W (constant (F := Ideal) S256x512 .f32 0x00000000#32))
        (broadcastTo S256x512 B broadcasts_S1x512_S256x512))
      (broadcast S256x512 (Scalar.ofBits (F := Ideal) .f32 0x00000000#32)) (ix2 p h)
      = max ((∑ c : Fin 512, X (ix2 p c) * W (ix2 c h)) + B (ix2 (0 : Fin 1) h)) 0 := by
  rw [maximumf_apply, addf_apply, broadcast_apply, mmHid_apply, broadcastTo_1b_ab_apply]
  show max _ (Ideal.ofBits .f32 0x00000000#32) = _
  rw [Ideal.ofBits_zero_f32]

/-- The output layer at `(p, q)`: the product's entry plus the bias. -/
theorem outE_apply (H : FVec Ideal S256x512 .f32) (W : FVec Ideal S512x256 .f32) (B : FVec Ideal S1x256 .f32)
    (p q : Fin 256) :
    addf (matmul dot_S256x512_S512x256_S256x256_1_0_0_1_n_n none H W (constant (F := Ideal) S256x256 .f32 0x00000000#32))
        (broadcastTo S256x256 B broadcasts_S1x256_S256x256) (ix2 p q)
      = (∑ h : Fin 512, H (ix2 p h) * W (ix2 h q)) + B (ix2 (0 : Fin 1) q) := by
  rw [addf_apply, mmOut_apply, broadcastTo_1b_ab_apply]

/-! ## The network on real arrays -/

/-- The network's output on a block of 256 pooled samples. -/
def muBlk (x : S256x512.Idx → ℝ) (w1 : S512x512.Idx → ℝ) (b1 : S1x512.Idx → ℝ) (w2 : S512x256.Idx → ℝ) (b2 : S1x256.Idx → ℝ) : S256x256.Idx → ℝ :=
  fun j => (∑ h : Fin 512, max ((∑ c : Fin 512, x (ix2 (j 0) c) * w1 (ix2 c h)) + b1 (ix2 0 h)) 0 * w2 (ix2 h (j 1))) + b2 (ix2 0 (j 1))

/-- The coercion of a maximum of two reals is the maximum of the coercions. -/
theorem coe_max (a b : ℝ) : ((max a b : ℝ) : EReal) = max (a : EReal) (b : EReal) :=
  EReal.coe_strictMono.monotone.map_max

/-- The hidden layer of lifted real arrays is the coercion of the real hidden layer. -/
theorem hid_lift_apply (x : S256x512.Idx → ℝ) (w1 : S512x512.Idx → ℝ) (b1 : S1x512.Idx → ℝ) (p : Fin 256) (h : Fin 512) :
    max ((∑ c : Fin 512, lift x (ix2 p c) * lift w1 (ix2 c h)) + lift b1 (ix2 (0 : Fin 1) h)) 0
      = ((max ((∑ c : Fin 512, x (ix2 p c) * w1 (ix2 c h)) + b1 (ix2 0 h)) 0 : ℝ) : EReal) := by
  simp only [lift_apply]
  rw [coe_max, EReal.coe_add, coe_sum, EReal.coe_zero]
  simp only [EReal.coe_mul]

theorem pay_mu (x : S256x512.Idx → ℝ) (w1 : S512x512.Idx → ℝ) (b1 : S1x512.Idx → ℝ) (w2 : S512x256.Idx → ℝ) (b2 : S1x256.Idx → ℝ) :
    k2_pay3 (F := Ideal) (lift x) (lift w1) (lift b1) (lift w2) (lift b2) = lift (muBlk x w1 b1 w2 b2) := by
  funext j
  obtain ⟨p, q, rfl⟩ : ∃ (p : Fin 256) (q : Fin 256), j = ix2 p q := ⟨j 0, j 1, eq_ix2 j⟩
  unfold k2_pay3
  rw [shapeCast_self, shapeCast_self, shapeCast_self]
  refine (outE_apply _ _ _ p q).trans ?_
  simp only [hidE_apply, hid_lift_apply]
  simp only [lift_apply]
  unfold muBlk
  rw [EReal.coe_add, coe_sum]
  simp only [EReal.coe_mul]

end Cert.Pay

end
-- ==== Proof.KI.PayStep.lean ====
/-
  The accumulation payload at arrays of real numbers: the contributions of a block of 256 samples, summed and added
  to the running total.
-/
import proofs.«173461_j48704929137027_2_alg».proof.Proof.KI.PayMu

noncomputable section

namespace Cert.Pay

open Cert.KernelIdeal Cert.KernelIdeal.Gen Cert.Arrays Idealize.ShloMosaic Idealize.ShloMosaic.ValueIdx
open Finset BigOperators

/-! ## The three row statistics of a block -/

/-- Per row, `-1/2` times the sum over the columns of `(μ − y)²`. -/
def sqBlk (mu y : S256x256.Idx → ℝ) : S256.Idx → ℝ :=
  fun j => (-1 / 2) * ∑ d : Fin 256, (mu (ix2 (j 0) d) - y (ix2 (j 0) d)) * (mu (ix2 (j 0) d) - y (ix2 (j 0) d))

/-- Per row, the sum over the columns of `μ · ȳ`. -/
def crossBlk (mu : S256x256.Idx → ℝ) (ybar : S1x256.Idx → ℝ) : S256.Idx → ℝ :=
  fun j => ∑ d : Fin 256, mu (ix2 (j 0) d) * ybar (ix2 0 d)

/-- Per row, the sum over the columns of `μ²`. -/
def normBlk (mu : S256x256.Idx → ℝ) : S256.Idx → ℝ :=
  fun j => ∑ d : Fin 256, mu (ix2 (j 0) d) * mu (ix2 (j 0) d)

theorem sq_lift (mu y : S256x256.Idx → ℝ) :
    mulf (broadcast S256 (Scalar.ofBits (F := Ideal) .f32 0xBF000000#32))
      (multiReduction (F := Ideal) .add [1] S256 (mulf (subf (lift mu) (lift y)) (subf (lift mu) (lift y)))
        0x00000000#32 reduces_S256x256_S256 (.inl rfl) rfl) = lift (sqBlk mu y) := by
  funext j
  obtain ⟨r, rfl⟩ : ∃ r : Fin 256, j = ix1 r := ⟨j 0, eq_ix1 j⟩
  rw [mulf_apply, broadcast_apply, sum_last2_apply]
  show Ideal.ofBits .f32 0xBF000000#32 * _ = _
  rw [ofBits_neg_half]
  simp only [mulf_apply, subf_apply, lift_apply]
  unfold sqBlk
  rw [EReal.coe_mul, coe_sum]
  simp only [EReal.coe_mul, EReal.coe_sub]

theorem cross_lift (mu : S256x256.Idx → ℝ) (ybar : S1x256.Idx → ℝ) :
    multiReduction (F := Ideal) .add [1] S256
        (mulf (lift mu) (broadcastTo S256x256 (lift ybar) broadcasts_S1x256_S256x256))
        0x00000000#32 reduces_S256x256_S256 (.inl rfl) rfl = lift (crossBlk mu ybar) := by
  funext j
  obtain ⟨r, rfl⟩ : ∃ r : Fin 256, j = ix1 r := ⟨j 0, eq_ix1 j⟩
  rw [sum_last2_apply]
  simp only [mulf_apply, broadcastTo_1b_ab_apply, lift_apply]
  unfold crossBlk
  rw [coe_sum]
  simp only [EReal.coe_mul]

theorem norm_lift (mu : S256x256.Idx → ℝ) :
    multiReduction (F := Ideal) .add [1] S256 (mulf (lift mu) (lift mu))
        0x00000000#32 reduces_S256x256_S256 (.inl rfl) rfl = lift (normBlk mu) := by
  funext j
  obtain ⟨r, rfl⟩ : ∃ r : Fin 256, j = ix1 r := ⟨j 0, eq_ix1 j⟩
  rw [sum_last2_apply]
  simp only [mulf_apply, lift_apply]
  unfold normBlk
  rw [coe_sum]
  simp only [EReal.coe_mul]

/-! ## The payloads that feed the accumulation -/

theorem pay4_lift (x : S256x512.Idx → ℝ) (y : S256x256.Idx → ℝ) (w1 : S512x512.Idx → ℝ) (b1 : S1x512.Idx → ℝ)
    (w2 : S512x256.Idx → ℝ) (b2 : S1x256.Idx → ℝ) :
    k2_pay4 (F := Ideal) (lift x) (lift y) (lift w1) (lift b1) (lift w2) (lift b2)
      = lift (sqBlk (muBlk x w1 b1 w2 b2) y) := by
  unfold k2_pay4
  rw [pay_mu, shapeCast_self]
  exact sq_lift _ _

theorem pay5_lift (x : S256x512.Idx → ℝ) (w1 : S512x512.Idx → ℝ) (b1 : S1x512.Idx → ℝ)
    (w2 : S512x256.Idx → ℝ) (b2 : S1x256.Idx → ℝ) (ybar : S1x256.Idx → ℝ) :
    k2_pay5 (F := Ideal) (lift x) (lift w1) (lift b1) (lift w2) (lift b2) (lift ybar)
      = lift (crossBlk (muBlk x w1 b1 w2 b2) ybar) := by
  unfold k2_pay5
  rw [pay_mu, shapeCast_self]
  exact cross_lift _ _

theorem pay6_lift (x : S256x512.Idx → ℝ) (w1 : S512x512.Idx → ℝ) (b1 : S1x512.Idx → ℝ)
    (w2 : S512x256.Idx → ℝ) (b2 : S1x256.Idx → ℝ) :
    k2_pay6 (F := Ideal) (lift x) (lift w1) (lift b1) (lift w2) (lift b2)
      = lift (normBlk (muBlk x w1 b1 w2 b2)) := by
  unfold k2_pay6
  rw [pay_mu]
  exact norm_lift _

theorem pay7_lift : k2_pay7 (F := Ideal) = lift (fun _ : S256.Idx => ((1 : ℝ) / 2 : ℝ)) := by
  funext j
  unfold k2_pay7
  rw [broadcast_apply]
  show Ideal.ofBits .f32 0x3F000000#32 = _
  rw [ofBits_half]
  rfl

/-! ## The accumulation -/

/-- The contribution of row `r` of a block. -/
def rowBlk (mu y : S256x256.Idx → ℝ) (ybar : S1x256.Idx → ℝ) (r : Fin 256) : ℝ :=
  (-1 / 2) * (∑ d : Fin 256, (mu (ix2 r d) - y (ix2 r d)) * (mu (ix2 r d) - y (ix2 r d))) - ((∑ d : Fin 256, mu (ix2 r d) * ybar (ix2 0 d)) - (1 / 2) * ∑ d : Fin 256, mu (ix2 r d) * mu (ix2 r d))

/-- The accumulation on four lifted real vectors: the total plus the sum over the rows of `a − (b − h·c)`. -/
theorem pay1_lift (a b c h : S256.Idx → ℝ) (acc : S1x1.Idx → ℝ) :
    k2_pay1 (F := Ideal) (lift a) (lift b) (lift c) (lift h) (lift acc)
      = lift (fun _ => acc (ix2 0 0) + ∑ r : Fin 256, (a (ix1 r) - (b (ix1 r) - h (ix1 r) * c (ix1 r)))) := by
  funext j
  obtain ⟨u, v, rfl⟩ : ∃ (u : Fin 1) (v : Fin 1), j = ix2 u v := ⟨j 0, j 1, eq_ix2 j⟩
  obtain rfl : u = 0 := Subsingleton.elim _ _
  obtain rfl : v = 0 := Subsingleton.elim _ _
  unfold k2_pay1
  rw [shapeCast_self, addf_apply, broadcast_apply]
  unfold extractAt
  have e : (fun a : Fin S1x1.rank => (⟨(![0, 0] : Fin 2 → ℕ) a, inpos_S1x1_p0_0 a⟩ : Fin (S1x1.size a))) = ix2 (0 : Fin 1) (0 : Fin 1) := by
    funext a
    apply Fin.ext
    match a with
    | ⟨0, _⟩ => rfl
    | ⟨1, _⟩ => rfl
  rw [e, shapeCast_a_1a_apply, sum_last2_apply]
  simp only [shapeCast_a_1a_apply, subf_apply, mulf_apply, lift_apply]
  rw [EReal.coe_add, coe_sum]
  simp only [EReal.coe_sub, EReal.coe_mul]

theorem pay_step (x : S256x512.Idx → ℝ) (y : S256x256.Idx → ℝ) (w1 : S512x512.Idx → ℝ) (b1 : S1x512.Idx → ℝ) (w2 : S512x256.Idx → ℝ) (b2 : S1x256.Idx → ℝ) (ybar : S1x256.Idx → ℝ) (acc : S1x1.Idx → ℝ) :
    k2_pay1 (F := Ideal) (k2_pay4 (lift x) (lift y) (lift w1) (lift b1) (lift w2) (lift b2)) (k2_pay5 (lift x) (lift w1) (lift b1) (lift w2) (lift b2) (lift ybar)) (k2_pay6 (lift x) (lift w1) (lift b1) (lift w2) (lift b2)) (k2_pay7 (F := Ideal)) (lift acc)
      = lift (fun _ => acc (ix2 0 0) + ∑ r : Fin 256, rowBlk (muBlk x w1 b1 w2 b2) y ybar r) := by
  rw [pay4_lift, pay5_lift, pay6_lift, pay7_lift, pay1_lift]
  rfl

theorem pay_reset : k2_pay2 (F := Ideal) = lift (fun _ : S1x1.Idx => (0 : ℝ)) := by
  funext j
  unfold k2_pay2
  rw [shapeCast_self, broadcast_apply]
  show Ideal.ofBits .f32 0x00000000#32 = _
  rw [ofBits_zero]
  rfl

end Cert.Pay

end
-- ==== Proof.KI.Pay.lean ====
/-
  The kernel's payloads at arrays of real numbers, gathered: pooling (`pay_pool0`, `pay_pool1`), the network
  (`pay_mu`), and the accumulation with its reset (`pay_step`, `pay_reset`), all in namespace `Cert.Pay`.
-/
import proofs.«173461_j48704929137027_2_alg».proof.Proof.KI.PayPool
import proofs.«173461_j48704929137027_2_alg».proof.Proof.KI.PayMu
import proofs.«173461_j48704929137027_2_alg».proof.Proof.KI.PayStep
-- ==== Proof.KI.ValDefs.lean ====
/-
  The kernel program's value as a chain of real-number formulas, stage by stage as the program computes it: the two
  pooled arrays, the column statistics the host computes between the regions, the contribution of each group of 256
  rows as the network region computes it on its blocks, and the accumulated result.
-/
import proofs.«173461_j48704929137027_2_alg».proof.Proof.KI.Pay
import proofs.«173461_j48704929137027_2_alg».proof.Proof.Arrays

noncomputable section

namespace Cert.Chain

open Cert.KernelIdeal Cert.Arrays Idealize.ShloMosaic Idealize.ShloMosaic.ValueIdx

/-- A rank-4 input `[1024, C, 8, 8]` with its two spatial axes merged into one of 64 positions. -/
def merged {C : ℕ} (a : (⟨4, ![1024, C, 8, 8]⟩ : Shape).Idx → ℝ) : (⟨3, ![1024, C, 64]⟩ : Shape).Idx → ℝ :=
  fun i => a (ix4 (i 0) (i 1) ⟨(i 2).val / 8, by have h : (i 2).val < 64 := (i 2).isLt; omega⟩ ⟨(i 2).val % 8, by omega⟩)

/-- The pooled array of an array of reals `[1024, C, 64]`: the sum of the 64 positions times 1/64. -/
def poolArr {C : ℕ} (X : (⟨3, ![1024, C, 64]⟩ : Shape).Idx → ℝ) : (⟨2, ![1024, C]⟩ : Shape).Idx → ℝ :=
  fun i => (∑ k : Fin 64, X (ix3 (i 0) (i 1) k)) * (1 / 64)

/-- A bias vector as a one-row matrix. -/
def rowOf {A : ℕ} (a : (⟨1, ![A]⟩ : Shape).Idx → ℝ) : (⟨2, ![1, A]⟩ : Shape).Idx → ℝ := fun i => a (ix1 (i 1))

/-- The column means of a matrix `[1024, 256]`, as a one-row matrix. -/
def colMean (Y : S1024x256.Idx → ℝ) : S1x256.Idx → ℝ := fun i => (∑ n : Fin 1024, Y (ix2 n (i 1))) / 1024

/-- −½ times the sum over the columns of the column means of the squares. -/
def halfSq (Y : S1024x256.Idx → ℝ) : ℝ := (-1 / 2) * ∑ d : Fin 256, (∑ n : Fin 1024, Y (ix2 n d) * Y (ix2 n d)) / 1024

/-- The block of 256 consecutive rows number `t` of a matrix with 1024 rows. -/
def rows {B : ℕ} (P : (⟨2, ![1024, B]⟩ : Shape).Idx → ℝ) (t : Fin 4) : (⟨2, ![256, B]⟩ : Shape).Idx → ℝ :=
  fun j => P (ix2 ⟨256 * t.val + (j 0).val, by have h : (j 0).val < 256 := (j 0).isLt; have := t.isLt; omega⟩ (j 1))

variable (a0 : S1024x512x8x8.Idx → ℝ) (a1 : S1024x256x8x8.Idx → ℝ) (a2 : S512x512.Idx → ℝ) (a3 : S512.Idx → ℝ)
  (a4 : S512x256.Idx → ℝ) (a5 : S256.Idx → ℝ)

/-- The contribution of the group `t` of 256 rows, as the network region computes it on its blocks. -/
def group (t : Fin 4) : ℝ :=
  ∑ r : Fin 256, Cert.Pay.rowBlk (Cert.Pay.muBlk (rows (poolArr (merged a0)) t) a2 (rowOf a3) a4 (rowOf a5)) (rows (poolArr (merged a1)) t)
    (colMean (poolArr (merged a1))) r

/-- The accumulator after point `n`: reset to zero at the first point, each point adding its group. -/
def acc : ℕ → ℝ
  | 0 => 0 + group a0 a1 a2 a3 a4 a5 0
  | n + 1 => acc n + (if h : n + 1 < 4 then group a0 a1 a2 a3 a4 a5 ⟨n + 1, h⟩ else 0)

/-- The kernel program's result. -/
def result : ℝ := acc a0 a1 a2 a3 a4 a5 3 / 1024 - halfSq (poolArr (merged a1))

end Cert.Chain

end
-- ==== Proof.KI.ValPool.lean ====
/-
  The values of the two pooling regions over the extended reals: when the region's input array holds real numbers, its
  output array ends holding, at every sample and channel, the sum of the 64 positions times 1/64. Each grid point writes
  the block of its 64 samples, and the 16 blocks tile the array.
-/
import proofs.«173461_j48704929137027_2_alg».proof.Proof.KI.Pools
import proofs.«173461_j48704929137027_2_alg».proof.Proof.KI.ValDefs
import proofs.«173461_j48704929137027_2_alg».proof.Proof.Arrays
import Idealize.ShloMosaic.Lib.Pipeline.Value
import Idealize.ShloMosaic.Lib.ValueIdx

set_option maxRecDepth 16384

noncomputable section

namespace Cert.KernelIdeal.Hand

open Cert.KernelIdeal Cert.KernelIdeal.Gen Cert.Arrays Cert.Chain
open Idealize.ShloMosaic Idealize.ShloMosaic.TcCoe Idealize.ShloMosaic.ValueIdx
open Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

section
variable (V : (c : Dev nD) → (b : Ref sig .tc) → Buf (Elt Ideal) ((c : Thread nD τ).loc b))

/-- The printed index maps of call 0, decided over the grid: point `t` reads block `t` of the samples and writes block `t`. -/
theorem idx_facts0 : ∀ t : Fin cfg0.N, win0_0.index t (0 : Fin 3) = t.val ∧ win0_0.index t (1 : Fin 3) = 0 ∧ win0_0.index t (2 : Fin 3) = 0
    ∧ win0_1.index t (0 : Fin 2) = t.val ∧ win0_1.index t (1 : Fin 2) = 0 :=
  (by decide +kernel : ∀ t : Fin grid0.N, _)

/-- What point `t` writes back is block `t` of the pooled array. -/
theorem flushed0_eq (c : Dev nD) (X : S1024x512x64.Idx → ℝ) (hV : (V c main_v0 : S1024x512x64.Idx → EReal) = lift X) (t : Fin cfg0.N) :
    (dat0 V c).flushed 1 t = ((cfg0.win 1).blk t).view.read (Elt Ideal) (lift (poolArr X)) := by
  show (cfg0.win 1).cut (grid0.coords t) ((dat0 V c).after 1 t) = _
  rw [after0_1]
  unfold out0_1
  rw [View.canon_unit_zero hz2]
  simp only [View.ld_unit_zero (S := S64x512x64) hz3]
  have hblk : iblk0 V c 0 t = lift (fun j : S64x512x64.Idx => X (((cfg0.win 0).blk t).view.emb j)) := by
    unfold iblk0
    show ((cfg0.win 0).blk t).view.read (Elt Ideal) (V c main_v0) = _
    rw [hV]; rfl
  rw [hblk, Cert.Pay.pay_pool0]
  obtain ⟨e0, e1, e2, e3, e4⟩ := idx_facts0 t
  funext j
  show lift (Cert.Pay.poolBlk fun j : S64x512x64.Idx => X (((cfg0.win 0).blk t).view.emb j)) j = lift (poolArr X) (((cfg0.win 1).blk t).view.emb j)
  unfold lift Cert.Pay.poolBlk poolArr
  refine congrArg (fun s : ℝ => ((s * (1 / 64) : ℝ) : EReal)) (Finset.sum_congr rfl fun k _ => congrArg X ?_)
  funext a; apply Fin.ext
  match a with
  | ⟨0, _⟩ => show win0_0.index t (0 : Fin 3) * 64 + 1 * (j 0).val = win0_1.index t (0 : Fin 2) * 64 + 1 * (j 0).val; omega
  | ⟨1, _⟩ => show win0_0.index t (1 : Fin 3) * 512 + 1 * (j 1).val = win0_1.index t (1 : Fin 2) * 512 + 1 * (j 1).val; omega
  | ⟨2, _⟩ => show win0_0.index t (2 : Fin 3) * 64 + 1 * k.val = k.val; omega

theorem mem_blk0 (t : Fin cfg0.N) (i : S1024x512.Idx) :
    i ∈ ((cfg0.win 1).blk t).view.set ↔ ∀ a : Fin 2, win0_1.index t a * S64x512.size a ≤ (i a).val ∧ (i a).val < win0_1.index t a * S64x512.size a + S64x512.size a := by
  show i ∈ ((View.whole main_v2).slice (win0_1.rect t)).set ↔ _
  rw [View.set_slice_whole, Rect.mem_set_unit]
  exact Iff.rfl

/-- Every entry of the pooled array is in the block of the point that handles its sample. -/
theorem cover0 (i : S1024x512.Idx) : ∃ t : Fin cfg0.N, (cfg0.win 1).flush t = true ∧ i ∈ ((cfg0.win 1).blk t).view.set := by
  have hi0 : (i 0).val < 1024 := (i 0).isLt
  have hi1 : (i 1).val < 512 := (i 1).isLt
  have hN : cfg0.N = 16 := N_0
  have ht : (i 0).val / 64 < cfg0.N := by rw [hN]; omega
  refine ⟨⟨(i 0).val / 64, ht⟩, flush0_1 _, ?_⟩
  rw [mem_blk0]
  obtain ⟨e0, e1, e2, e3, e4⟩ := idx_facts0 ⟨(i 0).val / 64, ht⟩
  intro a
  match a with
  | ⟨0, _⟩ =>
    show win0_1.index ⟨(i 0).val / 64, ht⟩ (0 : Fin 2) * 64 ≤ (i 0).val ∧ (i 0).val < win0_1.index ⟨(i 0).val / 64, ht⟩ (0 : Fin 2) * 64 + 64
    rw [e3]; dsimp only; omega
  | ⟨1, _⟩ =>
    show win0_1.index ⟨(i 0).val / 64, ht⟩ (1 : Fin 2) * 512 ≤ (i 1).val ∧ (i 1).val < win0_1.index ⟨(i 0).val / 64, ht⟩ (1 : Fin 2) * 512 + 512
    rw [e4]; omega

/-- The pooled array after the region: every entry the sum of its 64 positions times 1/64. -/
theorem final0 (c : Dev nD) (X : S1024x512x64.Idx → ℝ) (hV : (V c main_v0 : S1024x512x64.Idx → EReal) = lift X) :
    ((dat0 V c).arrAt 1 cfg0.N : S1024x512.Idx → EReal) = lift (poolArr X) :=
  (dat0 V c).arrAt_eq_of_cover 1 (lift (poolArr X)) (fun t _ => flushed0_eq V c X hV t) cover0

/-- The printed index maps of call 1, decided over the grid: point `t` reads block `t` of the samples and writes block `t`. -/
theorem idx_facts1 : ∀ t : Fin cfg1.N, win1_0.index t (0 : Fin 3) = t.val ∧ win1_0.index t (1 : Fin 3) = 0 ∧ win1_0.index t (2 : Fin 3) = 0
    ∧ win1_1.index t (0 : Fin 2) = t.val ∧ win1_1.index t (1 : Fin 2) = 0 :=
  (by decide +kernel : ∀ t : Fin grid1.N, _)

/-- What point `t` writes back is block `t` of the pooled array. -/
theorem flushed1_eq (c : Dev nD) (X : S1024x256x64.Idx → ℝ) (hV : (V c main_v1 : S1024x256x64.Idx → EReal) = lift X) (t : Fin cfg1.N) :
    (dat1 V c).flushed 1 t = ((cfg1.win 1).blk t).view.read (Elt Ideal) (lift (poolArr X)) := by
  show (cfg1.win 1).cut (grid1.coords t) ((dat1 V c).after 1 t) = _
  rw [after1_1]
  unfold out1_1
  rw [View.canon_unit_zero hz2]
  simp only [View.ld_unit_zero (S := S64x256x64) hz3]
  have hblk : iblk1 V c 0 t = lift (fun j : S64x256x64.Idx => X (((cfg1.win 0).blk t).view.emb j)) := by
    unfold iblk1
    show ((cfg1.win 0).blk t).view.read (Elt Ideal) (V c main_v1) = _
    rw [hV]; rfl
  rw [hblk, Cert.Pay.pay_pool1]
  obtain ⟨e0, e1, e2, e3, e4⟩ := idx_facts1 t
  funext j
  show lift (Cert.Pay.poolBlk fun j : S64x256x64.Idx => X (((cfg1.win 0).blk t).view.emb j)) j = lift (poolArr X) (((cfg1.win 1).blk t).view.emb j)
  unfold lift Cert.Pay.poolBlk poolArr
  refine congrArg (fun s : ℝ => ((s * (1 / 64) : ℝ) : EReal)) (Finset.sum_congr rfl fun k _ => congrArg X ?_)
  funext a; apply Fin.ext
  match a with
  | ⟨0, _⟩ => show win1_0.index t (0 : Fin 3) * 64 + 1 * (j 0).val = win1_1.index t (0 : Fin 2) * 64 + 1 * (j 0).val; omega
  | ⟨1, _⟩ => show win1_0.index t (1 : Fin 3) * 256 + 1 * (j 1).val = win1_1.index t (1 : Fin 2) * 256 + 1 * (j 1).val; omega
  | ⟨2, _⟩ => show win1_0.index t (2 : Fin 3) * 64 + 1 * k.val = k.val; omega

theorem mem_blk1 (t : Fin cfg1.N) (i : S1024x256.Idx) :
    i ∈ ((cfg1.win 1).blk t).view.set ↔ ∀ a : Fin 2, win1_1.index t a * S64x256.size a ≤ (i a).val ∧ (i a).val < win1_1.index t a * S64x256.size a + S64x256.size a := by
  show i ∈ ((View.whole main_v3).slice (win1_1.rect t)).set ↔ _
  rw [View.set_slice_whole, Rect.mem_set_unit]
  exact Iff.rfl

/-- Every entry of the pooled array is in the block of the point that handles its sample. -/
theorem cover1 (i : S1024x256.Idx) : ∃ t : Fin cfg1.N, (cfg1.win 1).flush t = true ∧ i ∈ ((cfg1.win 1).blk t).view.set := by
  have hi0 : (i 0).val < 1024 := (i 0).isLt
  have hi1 : (i 1).val < 256 := (i 1).isLt
  have hN : cfg1.N = 16 := N_1
  have ht : (i 0).val / 64 < cfg1.N := by rw [hN]; omega
  refine ⟨⟨(i 0).val / 64, ht⟩, flush1_1 _, ?_⟩
  rw [mem_blk1]
  obtain ⟨e0, e1, e2, e3, e4⟩ := idx_facts1 ⟨(i 0).val / 64, ht⟩
  intro a
  match a with
  | ⟨0, _⟩ =>
    show win1_1.index ⟨(i 0).val / 64, ht⟩ (0 : Fin 2) * 64 ≤ (i 0).val ∧ (i 0).val < win1_1.index ⟨(i 0).val / 64, ht⟩ (0 : Fin 2) * 64 + 64
    rw [e3]; dsimp only; omega
  | ⟨1, _⟩ =>
    show win1_1.index ⟨(i 0).val / 64, ht⟩ (1 : Fin 2) * 256 ≤ (i 1).val ∧ (i 1).val < win1_1.index ⟨(i 0).val / 64, ht⟩ (1 : Fin 2) * 256 + 256
    rw [e4]; omega

/-- The pooled array after the region: every entry the sum of its 64 positions times 1/64. -/
theorem final1 (c : Dev nD) (X : S1024x256x64.Idx → ℝ) (hV : (V c main_v1 : S1024x256x64.Idx → EReal) = lift X) :
    ((dat1 V c).arrAt 1 cfg1.N : S1024x256.Idx → EReal) = lift (poolArr X) :=
  (dat1 V c).arrAt_eq_of_cover 1 (lift (poolArr X)) (fun t _ => flushed1_eq V c X hV t) cover1

end

end Cert.KernelIdeal.Hand

end
-- ==== Proof.KI.MlpPieces.lean ====
/-
  The network region's found pieces as payload terms.

  In each of its three cases the kernel body of the network region leaves one covering store in the accumulator cell,
  and in the last case one in the output block. Read back, each is the step's payload `k2_pay1` of the four row
  statistics of the point's input blocks and of the accumulator's value before the step: the zero payload at the
  first point (the cell is reset, then read back), the carried contents at the later points. At the last point the
  output block is stored the accumulator's value read after its own store, the same term.
-/
import proofs.«173461_j48704929137027_2_alg».proof.Proof.KI.Mlp
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The offsets of every access of the body: the origin. -/
theorem pieces_hz : (![0, 0] : Fin 2 → Nat) = fun _ => 0 := funext fun a => by fin_cases a <;> rfl

/-- The first point: the accumulator is reset to the zero payload, read back, and stored the step's payload of it. -/
theorem sout2_A_eq (c : Dev nD) (i : grid2.Coords) (arg1 : Memref sig .tc .vmem S256x512 .f32) (harg1 : arg1.IsWhole) (arg2 : Memref sig .tc .vmem S256x256 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S1x1 .f32) (harg9 : arg9.IsWhole) (hc0 : cond2_0 i) (hc1 : ¬cond2_1 i) (x0 : Vec F S256x512 .f32) (x1 : Vec F S256x256 .f32) (x2 : Vec F S512x512 .f32) (x3 : Vec F S1x512 .f32) (x4 : Vec F S512x256 .f32) (x5 : Vec F S1x256 .f32) (x6 : Vec F S1x256 .f32) :
    sout2_A (F := F) c i arg1 harg1 arg2 harg2 arg3 harg3 arg4 harg4 arg5 harg5 arg6 harg6 arg7 harg7 arg8 harg8 arg9 harg9 hc0 hc1 x0 x1 x2 x3 x4 x5 x6 = k2_pay1 (k2_pay4 x0 x1 x2 x3 x4 x5) (k2_pay5 x0 x2 x3 x4 x5 x6) (k2_pay6 x0 x2 x3 x4 x5) (k2_pay7 (F := F)) (k2_pay2 (F := F)) := by
  unfold sout2_A
  rw [View.read_writes_eq_canon _ _ _ (scover2_A c i arg1 harg1 arg2 harg2 arg3 harg3 arg4 harg4 arg5 harg5 arg6 harg6 arg7 harg7 arg8 harg8 arg9 harg9 hc0 hc1 x0 x1 x2 x3 x4 x5 x6)]
  unfold kernelRun2_A
  dsimp only
  sl_unfold_words
  rw [View.canon_cons_unit_zero (S := S1x1) pieces_hz, View.readCov_unit_zero (S := S1x1) _ pieces_hz]
  simp only [View.readAt_eq_ld, harg1.read_unread, harg2.read_unread, harg3.read_unread, harg4.read_unread,
    harg5.read_unread, harg6.read_unread, harg7.read_unread, View.ld_unit_zero (S := S256x512) pieces_hz,
    View.ld_unit_zero (S := S256x256) pieces_hz, View.ld_unit_zero (S := S512x512) pieces_hz, View.ld_unit_zero (S := S1x512) pieces_hz,
    View.ld_unit_zero (S := S512x256) pieces_hz, View.ld_unit_zero (S := S1x256) pieces_hz]

/-- A middle point: the accumulator, holding `xs`, is stored the step's payload of it. -/
theorem sout2_B_eq (c : Dev nD) (i : grid2.Coords) (arg1 : Memref sig .tc .vmem S256x512 .f32) (harg1 : arg1.IsWhole) (arg2 : Memref sig .tc .vmem S256x256 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : ¬cond2_1 i) (x0 : Vec F S256x512 .f32) (x1 : Vec F S256x256 .f32) (x2 : Vec F S512x512 .f32) (x3 : Vec F S1x512 .f32) (x4 : Vec F S512x256 .f32) (x5 : Vec F S1x256 .f32) (x6 : Vec F S1x256 .f32) (xs : Vec F S1x1 .f32) :
    sout2_B (F := F) c i arg1 harg1 arg2 harg2 arg3 harg3 arg4 harg4 arg5 harg5 arg6 harg6 arg7 harg7 arg8 harg8 arg9 harg9 hc0 hc1 x0 x1 x2 x3 x4 x5 x6 xs = k2_pay1 (k2_pay4 x0 x1 x2 x3 x4 x5) (k2_pay5 x0 x2 x3 x4 x5 x6) (k2_pay6 x0 x2 x3 x4 x5) (k2_pay7 (F := F)) xs := by
  unfold sout2_B
  rw [View.read_writes_eq_canon _ _ _ (scover2_B c i arg1 harg1 arg2 harg2 arg3 harg3 arg4 harg4 arg5 harg5 arg6 harg6 arg7 harg7 arg8 harg8 arg9 harg9 hc0 hc1 x0 x1 x2 x3 x4 x5 x6 xs)]
  unfold kernelRun2_B
  dsimp only
  sl_unfold_words
  rw [View.canon_unit_zero (S := S1x1) pieces_hz]
  simp only [View.readAt_eq_ld, harg1.read_unread, harg2.read_unread, harg3.read_unread, harg4.read_unread,
    harg5.read_unread, harg6.read_unread, harg7.read_unread, harg9.read_unread, View.ld_unit_zero (S := S256x512) pieces_hz,
    View.ld_unit_zero (S := S256x256) pieces_hz, View.ld_unit_zero (S := S512x512) pieces_hz, View.ld_unit_zero (S := S1x512) pieces_hz,
    View.ld_unit_zero (S := S512x256) pieces_hz, View.ld_unit_zero (S := S1x256) pieces_hz, View.ld_unit_zero (S := S1x1) pieces_hz]

/-- The last point: the accumulator as at a middle point. -/
theorem sout2_C_eq (c : Dev nD) (i : grid2.Coords) (arg1 : Memref sig .tc .vmem S256x512 .f32) (harg1 : arg1.IsWhole) (arg2 : Memref sig .tc .vmem S256x256 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : cond2_1 i) (x0 : Vec F S256x512 .f32) (x1 : Vec F S256x256 .f32) (x2 : Vec F S512x512 .f32) (x3 : Vec F S1x512 .f32) (x4 : Vec F S512x256 .f32) (x5 : Vec F S1x256 .f32) (x6 : Vec F S1x256 .f32) (xs : Vec F S1x1 .f32) :
    sout2_C (F := F) c i arg1 harg1 arg2 harg2 arg3 harg3 arg4 harg4 arg5 harg5 arg6 harg6 arg7 harg7 arg8 harg8 arg9 harg9 hc0 hc1 x0 x1 x2 x3 x4 x5 x6 xs = k2_pay1 (k2_pay4 x0 x1 x2 x3 x4 x5) (k2_pay5 x0 x2 x3 x4 x5 x6) (k2_pay6 x0 x2 x3 x4 x5) (k2_pay7 (F := F)) xs := by
  unfold sout2_C
  rw [View.read_writes_eq_canon _ _ _ (scover2_C c i arg1 harg1 arg2 harg2 arg3 harg3 arg4 harg4 arg5 harg5 arg6 harg6 arg7 harg7 arg8 harg8 arg9 harg9 hc0 hc1 x0 x1 x2 x3 x4 x5 x6 xs)]
  unfold kernelRun2_C
  dsimp only
  sl_unfold_words
  rw [View.canon_unit_zero (S := S1x1) pieces_hz]
  simp only [View.readAt_eq_ld, harg1.read_unread, harg2.read_unread, harg3.read_unread, harg4.read_unread,
    harg5.read_unread, harg6.read_unread, harg7.read_unread, harg9.read_unread, View.ld_unit_zero (S := S256x512) pieces_hz,
    View.ld_unit_zero (S := S256x256) pieces_hz, View.ld_unit_zero (S := S512x512) pieces_hz, View.ld_unit_zero (S := S1x512) pieces_hz,
    View.ld_unit_zero (S := S512x256) pieces_hz, View.ld_unit_zero (S := S1x256) pieces_hz, View.ld_unit_zero (S := S1x1) pieces_hz]

/-- The last point: the output block is stored the accumulator's value read after its store. -/
theorem out2_C_eq (c : Dev nD) (i : grid2.Coords) (arg1 : Memref sig .tc .vmem S256x512 .f32) (harg1 : arg1.IsWhole) (arg2 : Memref sig .tc .vmem S256x256 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : cond2_1 i) (x0 : Vec F S256x512 .f32) (x1 : Vec F S256x256 .f32) (x2 : Vec F S512x512 .f32) (x3 : Vec F S1x512 .f32) (x4 : Vec F S512x256 .f32) (x5 : Vec F S1x256 .f32) (x6 : Vec F S1x256 .f32) (xs : Vec F S1x1 .f32) :
    out2_C (F := F) c i arg1 harg1 arg2 harg2 arg3 harg3 arg4 harg4 arg5 harg5 arg6 harg6 arg7 harg7 arg8 harg8 arg9 harg9 hc0 hc1 x0 x1 x2 x3 x4 x5 x6 xs = k2_pay1 (k2_pay4 x0 x1 x2 x3 x4 x5) (k2_pay5 x0 x2 x3 x4 x5 x6) (k2_pay6 x0 x2 x3 x4 x5) (k2_pay7 (F := F)) xs := by
  unfold out2_C
  rw [View.read_writes_eq_canon _ _ _ (cover2_C c i arg1 harg1 arg2 harg2 arg3 harg3 arg4 harg4 arg5 harg5 arg6 harg6 arg7 harg7 arg8 harg8 arg9 harg9 hc0 hc1 x0 x1 x2 x3 x4 x5 x6 xs)]
  unfold kernelRun2_C
  dsimp only
  sl_unfold_words
  rw [View.canon_unit_zero (S := S1x1) pieces_hz, View.readCov_unit_zero (S := S1x1) _ pieces_hz]
  simp only [View.readAt_eq_ld, harg1.read_unread, harg2.read_unread, harg3.read_unread, harg4.read_unread,
    harg5.read_unread, harg6.read_unread, harg7.read_unread, harg9.read_unread, View.ld_unit_zero (S := S256x512) pieces_hz,
    View.ld_unit_zero (S := S256x256) pieces_hz, View.ld_unit_zero (S := S512x512) pieces_hz, View.ld_unit_zero (S := S1x512) pieces_hz,
    View.ld_unit_zero (S := S512x256) pieces_hz, View.ld_unit_zero (S := S1x256) pieces_hz, View.ld_unit_zero (S := S1x1) pieces_hz]

end Cert.KernelIdeal.Hand

end
-- ==== Proof.KI.ValMlp.lean ====
/-
  The value of the network region over the extended reals. When the arrays the region is entered with hold real numbers,
  the accumulator holds, after each grid point, the sum of the contributions of the groups of 256 rows handled so far
  (by induction over the four points), and the region's output cell ends holding the accumulator after the last point.
-/
import proofs.«173461_j48704929137027_2_alg».proof.Proof.KI.MlpPieces
import proofs.«173461_j48704929137027_2_alg».proof.Proof.KI.ValDefs
import Idealize.ShloMosaic.Lib.Pipeline.Value
import Idealize.ShloMosaic.Lib.ValueIdx

set_option maxRecDepth 16384

noncomputable section

namespace Cert.KernelIdeal.Hand

open Cert.KernelIdeal Cert.KernelIdeal.Gen Cert.Arrays Cert.Chain
open Idealize.ShloMosaic Idealize.ShloMosaic.TcCoe Idealize.ShloMosaic.ValueIdx
open Idealize.SL.Sem
open Idealize.ShloMosaic.Pipeline (Dat)

/-- The accumulator after point `n`, from the groups' contributions: reset at the first point, each point adding its group. -/
def accOf (G : Fin 4 → ℝ) : ℕ → ℝ
  | 0 => 0 + G 0
  | n + 1 => accOf G n + (if h : n + 1 < 4 then G ⟨n + 1, h⟩ else 0)

/-- The printed index maps of call 2, decided over the grid: point `t` reads block `t` of the rows of the two pooled
    arrays and the whole of every other operand. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

section
variable (V : (c : Dev nD) → (b : Ref sig .tc) → Buf (Elt Ideal) ((c : Thread nD τ).loc b)) (c : Dev nD)
variable (P0 : S1024x512.Idx → ℝ) (P1 : S1024x256.Idx → ℝ) (w1 : S512x512.Idx → ℝ) (b1 : S1x512.Idx → ℝ)
  (w2 : S512x256.Idx → ℝ) (b2 : S1x256.Idx → ℝ) (yb : S1x256.Idx → ℝ)

/-- The contribution of group `t`, from the region's entry contents. -/
def grp (t : Fin 4) : ℝ :=
  ∑ r : Fin 256, Cert.Pay.rowBlk (Cert.Pay.muBlk (rows P0 t) w1 b1 w2 b2) (rows P1 t) yb r

theorem fin4 (t : Fin cfg2.N) : t.val < 4 := lt_of_lt_of_eq t.isLt (show cfg2.N = 4 from N_2)

/-- The block of rows the region reads at point `t` from the first pooled array. -/
theorem blk2_0 (h : (V c main_v2 : S1024x512.Idx → EReal) = lift P0) (t : Fin cfg2.N) :
    iblk2 V c 0 t = lift (rows P0 ⟨t.val, fin4 t⟩) := by
  unfold iblk2
  show ((cfg2.win 0).blk t).view.read (Elt Ideal) (V c main_v2) = _
  rw [h]
  obtain ⟨e0, e1, -⟩ := idx_facts2 t
  funext j
  show lift P0 (((cfg2.win 0).blk t).view.emb j) = lift (rows P0 ⟨t.val, fin4 t⟩) j
  unfold lift rows
  refine congrArg (fun i => ((P0 i : ℝ) : EReal)) ?_
  funext a; apply Fin.ext
  match a with
  | ⟨0, _⟩ => show win2_0.index t (0 : Fin 2) * 256 + 1 * (j 0).val = 256 * t.val + (j 0).val; omega
  | ⟨1, _⟩ => show win2_0.index t (1 : Fin 2) * 512 + 1 * (j 1).val = (j 1).val; omega

theorem blk2_1 (h : (V c main_v3 : S1024x256.Idx → EReal) = lift P1) (t : Fin cfg2.N) :
    iblk2 V c 1 t = lift (rows P1 ⟨t.val, fin4 t⟩) := by
  unfold iblk2
  show ((cfg2.win 1).blk t).view.read (Elt Ideal) (V c main_v3) = _
  rw [h]
  obtain ⟨-, -, e0, e1, -⟩ := idx_facts2 t
  funext j
  show lift P1 (((cfg2.win 1).blk t).view.emb j) = lift (rows P1 ⟨t.val, fin4 t⟩) j
  unfold lift rows
  refine congrArg (fun i => ((P1 i : ℝ) : EReal)) ?_
  funext a; apply Fin.ext
  match a with
  | ⟨0, _⟩ => show win2_1.index t (0 : Fin 2) * 256 + 1 * (j 0).val = 256 * t.val + (j 0).val; omega
  | ⟨1, _⟩ => show win2_1.index t (1 : Fin 2) * 256 + 1 * (j 1).val = (j 1).val; omega

/-- Window 2 is the whole of its array at every point. -/
theorem blk2_2 (h : (V c main_arg2 : S512x512.Idx → EReal) = lift w1) (t : Fin cfg2.N) :
    iblk2 V c 2 t = lift w1 := by
  unfold iblk2
  show ((cfg2.win 2).blk t).view.read (Elt Ideal) (V c main_arg2) = _
  rw [h]
  obtain ⟨-, -, -, -, e0, e1, -⟩ := idx_facts2 t
  funext j
  show lift w1 (((cfg2.win 2).blk t).view.emb j) = lift w1 j
  refine congrArg (lift w1) ?_
  funext a; apply Fin.ext
  match a with
  | ⟨0, _⟩ => show win2_2.index t (0 : Fin 2) * 512 + 1 * (j 0).val = (j 0).val; omega
  | ⟨1, _⟩ => show win2_2.index t (1 : Fin 2) * 512 + 1 * (j 1).val = (j 1).val; omega

/-- Window 3 is the whole of its array at every point. -/
theorem blk2_3 (h : (V c main_v14 : S1x512.Idx → EReal) = lift b1) (t : Fin cfg2.N) :
    iblk2 V c 3 t = lift b1 := by
  unfold iblk2
  show ((cfg2.win 3).blk t).view.read (Elt Ideal) (V c main_v14) = _
  rw [h]
  obtain ⟨-, -, -, -, -, -, e0, e1, -⟩ := idx_facts2 t
  funext j
  show lift b1 (((cfg2.win 3).blk t).view.emb j) = lift b1 j
  refine congrArg (lift b1) ?_
  funext a; apply Fin.ext
  match a with
  | ⟨0, _⟩ => show win2_3.index t (0 : Fin 2) * 1 + 1 * (j 0).val = (j 0).val; omega
  | ⟨1, _⟩ => show win2_3.index t (1 : Fin 2) * 512 + 1 * (j 1).val = (j 1).val; omega

/-- Window 4 is the whole of its array at every point. -/
theorem blk2_4 (h : (V c main_arg4 : S512x256.Idx → EReal) = lift w2) (t : Fin cfg2.N) :
    iblk2 V c 4 t = lift w2 := by
  unfold iblk2
  show ((cfg2.win 4).blk t).view.read (Elt Ideal) (V c main_arg4) = _
  rw [h]
  obtain ⟨-, -, -, -, -, -, -, -, e0, e1, -⟩ := idx_facts2 t
  funext j
  show lift w2 (((cfg2.win 4).blk t).view.emb j) = lift w2 j
  refine congrArg (lift w2) ?_
  funext a; apply Fin.ext
  match a with
  | ⟨0, _⟩ => show win2_4.index t (0 : Fin 2) * 512 + 1 * (j 0).val = (j 0).val; omega
  | ⟨1, _⟩ => show win2_4.index t (1 : Fin 2) * 256 + 1 * (j 1).val = (j 1).val; omega

/-- Window 5 is the whole of its array at every point. -/
theorem blk2_5 (h : (V c main_v15 : S1x256.Idx → EReal) = lift b2) (t : Fin cfg2.N) :
    iblk2 V c 5 t = lift b2 := by
  unfold iblk2
  show ((cfg2.win 5).blk t).view.read (Elt Ideal) (V c main_v15) = _
  rw [h]
  obtain ⟨-, -, -, -, -, -, -, -, -, -, e0, e1, -⟩ := idx_facts2 t
  funext j
  show lift b2 (((cfg2.win 5).blk t).view.emb j) = lift b2 j
  refine congrArg (lift b2) ?_
  funext a; apply Fin.ext
  match a with
  | ⟨0, _⟩ => show win2_5.index t (0 : Fin 2) * 1 + 1 * (j 0).val = (j 0).val; omega
  | ⟨1, _⟩ => show win2_5.index t (1 : Fin 2) * 256 + 1 * (j 1).val = (j 1).val; omega

/-- Window 6 is the whole of its array at every point. -/
theorem blk2_6 (h : (V c main_v7 : S1x256.Idx → EReal) = lift yb) (t : Fin cfg2.N) :
    iblk2 V c 6 t = lift yb := by
  unfold iblk2
  show ((cfg2.win 6).blk t).view.read (Elt Ideal) (V c main_v7) = _
  rw [h]
  obtain ⟨-, -, -, -, -, -, -, -, -, -, -, -, e0, e1, -⟩ := idx_facts2 t
  funext j
  show lift yb (((cfg2.win 6).blk t).view.emb j) = lift yb j
  refine congrArg (lift yb) ?_
  funext a; apply Fin.ext
  match a with
  | ⟨0, _⟩ => show win2_6.index t (0 : Fin 2) * 1 + 1 * (j 0).val = (j 0).val; omega
  | ⟨1, _⟩ => show win2_6.index t (1 : Fin 2) * 256 + 1 * (j 1).val = (j 1).val; omega

theorem mem_blk2_7 (t : Fin cfg2.N) (i : S1x1.Idx) :
    i ∈ ((cfg2.win 7).blk t).view.set ↔ ∀ a : Fin 2, win2_7.index t a * S1x1.size a ≤ (i a).val ∧ (i a).val < win2_7.index t a * S1x1.size a + S1x1.size a := by
  show i ∈ ((View.whole main_v16).slice (win2_7.rect t)).set ↔ _
  rw [View.set_slice_whole, Rect.mem_set_unit]
  exact Iff.rfl

variable (h0 : (V c main_v2 : S1024x512.Idx → EReal) = lift P0) (h1 : (V c main_v3 : S1024x256.Idx → EReal) = lift P1)
  (h2 : (V c main_arg2 : S512x512.Idx → EReal) = lift w1) (h3 : (V c main_v14 : S1x512.Idx → EReal) = lift b1)
  (h4 : (V c main_arg4 : S512x256.Idx → EReal) = lift w2) (h5 : (V c main_v15 : S1x256.Idx → EReal) = lift b2)
  (h6 : (V c main_v7 : S1x256.Idx → EReal) = lift yb)

include h0 h1 h2 h3 h4 h5 h6

/-- One step of the accumulator at point `t` from contents `lift s`: the contents plus the group's contribution. -/
theorem step_at (t : Fin cfg2.N) (s : S1x1.Idx → ℝ) :
    k2_pay1 (F := Ideal) (k2_pay4 (iblk2 V c 0 t) (iblk2 V c 1 t) (iblk2 V c 2 t) (iblk2 V c 3 t) (iblk2 V c 4 t) (iblk2 V c 5 t))
        (k2_pay5 (iblk2 V c 0 t) (iblk2 V c 2 t) (iblk2 V c 3 t) (iblk2 V c 4 t) (iblk2 V c 5 t) (iblk2 V c 6 t))
        (k2_pay6 (iblk2 V c 0 t) (iblk2 V c 2 t) (iblk2 V c 3 t) (iblk2 V c 4 t) (iblk2 V c 5 t)) (k2_pay7 (F := Ideal)) (lift s)
      = lift (fun _ : S1x1.Idx => s (ix2 0 0) + grp P0 P1 w1 b1 w2 b2 yb ⟨t.val, fin4 t⟩) := by
  rw [blk2_0 V c P0 h0 t, blk2_1 V c P1 h1 t, blk2_2 V c w1 h2 t, blk2_3 V c b1 h3 t, blk2_4 V c w2 h4 t, blk2_5 V c b2 h5 t, blk2_6 V c yb h6 t]
  exact Cert.Pay.pay_step _ _ _ _ _ _ _ _

/-- THE ACCUMULATOR after each point. -/
theorem acc_at : ∀ (n : ℕ) (hn : n < cfg2.N),
    (outsAt2 V c n hn).2 = lift (fun _ : S1x1.Idx => accOf (grp P0 P1 w1 b1 w2 b2 yb) n) := by
  intro n
  induction n with
  | zero =>
    intro hn
    have hA := outsAt2_A V c ⟨0, hn⟩ (Nat.zero_mod _) (by show ¬(0 : ℕ) % 4 = 3; decide)
    rw [show outsAt2 V c 0 hn = outsAt2 V c (⟨0, hn⟩ : Fin cfg2.N).val (⟨0, hn⟩ : Fin cfg2.N).isLt from rfl, hA]
    dsimp only
    rw [sout2_A_eq, Cert.Pay.pay_reset, step_at V c P0 P1 w1 b1 w2 b2 yb h0 h1 h2 h3 h4 h5 h6 ⟨0, hn⟩ (fun _ => 0)]
    rfl
  | succ n ih =>
    intro hn
    have hN : n + 1 < 4 := lt_of_lt_of_eq hn (show cfg2.N = 4 from N_2)
    have hprev := ih (Nat.lt_of_succ_lt hn)
    have hne : ¬(n + 1) % 4 = 0 := by omega
    by_cases h3' : (n + 1) % 4 = 3
    · have hC := outsAt2_C V c ⟨n + 1, hn⟩ hne h3'
      rw [show outsAt2 V c (n + 1) hn = outsAt2 V c (⟨n + 1, hn⟩ : Fin cfg2.N).val (⟨n + 1, hn⟩ : Fin cfg2.N).isLt from rfl, hC]
      dsimp only
      rw [sout2_C_eq]
      rw [show (outsAt2 V c ((⟨n + 1, hn⟩ : Fin cfg2.N).val - 1) (Nat.lt_of_le_of_lt (Nat.sub_le _ _) (⟨n + 1, hn⟩ : Fin cfg2.N).isLt)).2
        = lift (fun _ : S1x1.Idx => accOf (grp P0 P1 w1 b1 w2 b2 yb) n) from hprev]
      rw [step_at V c P0 P1 w1 b1 w2 b2 yb h0 h1 h2 h3 h4 h5 h6 ⟨n + 1, hn⟩ _]
      show _ = lift (fun _ : S1x1.Idx => accOf (grp P0 P1 w1 b1 w2 b2 yb) n + (if h : n + 1 < 4 then grp P0 P1 w1 b1 w2 b2 yb ⟨n + 1, h⟩ else 0))
      rw [dif_pos hN]
    · have hB := outsAt2_B V c ⟨n + 1, hn⟩ hne h3'
      rw [show outsAt2 V c (n + 1) hn = outsAt2 V c (⟨n + 1, hn⟩ : Fin cfg2.N).val (⟨n + 1, hn⟩ : Fin cfg2.N).isLt from rfl, hB]
      dsimp only
      rw [sout2_B_eq]
      rw [show (outsAt2 V c ((⟨n + 1, hn⟩ : Fin cfg2.N).val - 1) (Nat.lt_of_le_of_lt (Nat.sub_le _ _) (⟨n + 1, hn⟩ : Fin cfg2.N).isLt)).2
        = lift (fun _ : S1x1.Idx => accOf (grp P0 P1 w1 b1 w2 b2 yb) n) from hprev]
      rw [step_at V c P0 P1 w1 b1 w2 b2 yb h0 h1 h2 h3 h4 h5 h6 ⟨n + 1, hn⟩ _]
      show _ = lift (fun _ : S1x1.Idx => accOf (grp P0 P1 w1 b1 w2 b2 yb) n + (if h : n + 1 < 4 then grp P0 P1 w1 b1 w2 b2 yb ⟨n + 1, h⟩ else 0))
      rw [dif_pos hN]

/-- What the last point stores into the output cell: the accumulator after it. -/
theorem out_last (t : Fin cfg2.N) (ht : t.val % 4 = 3) :
    (outsAt2 V c t.val t.isLt).1 = lift (fun _ : S1x1.Idx => accOf (grp P0 P1 w1 b1 w2 b2 yb) 3) := by
  have hN := fin4 t
  have ht3 : t.val = 3 := by omega
  have hC := outsAt2_C V c t (by omega) ht
  rw [hC]
  dsimp only
  rw [out2_C_eq]
  have hprev := acc_at V c P0 P1 w1 b1 w2 b2 yb h0 h1 h2 h3 h4 h5 h6 (t.val - 1) (Nat.lt_of_le_of_lt (Nat.sub_le _ _) t.isLt)
  rw [hprev, step_at V c P0 P1 w1 b1 w2 b2 yb h0 h1 h2 h3 h4 h5 h6 t _]
  refine congrArg (fun r : ℝ => lift (fun _ : S1x1.Idx => r)) ?_
  have e : t.val - 1 = 2 := by omega
  show accOf (grp P0 P1 w1 b1 w2 b2 yb) (t.val - 1) + grp P0 P1 w1 b1 w2 b2 yb ⟨t.val, fin4 t⟩ = accOf (grp P0 P1 w1 b1 w2 b2 yb) 3
  rw [e]
  show _ = accOf (grp P0 P1 w1 b1 w2 b2 yb) 2 + (if h : 2 + 1 < 4 then grp P0 P1 w1 b1 w2 b2 yb ⟨2 + 1, h⟩ else 0)
  rw [dif_pos (by decide)]
  refine congrArg (fun u => accOf (grp P0 P1 w1 b1 w2 b2 yb) 2 + grp P0 P1 w1 b1 w2 b2 yb u) (Fin.ext ht3)

/-- THE OUTPUT CELL after the region: the accumulator after the fourth point. -/
theorem final2 : ((dat2 V c).arrAt 7 cfg2.N : S1x1.Idx → EReal) = lift (fun _ : S1x1.Idx => accOf (grp P0 P1 w1 b1 w2 b2 yb) 3) := by
  refine (dat2 V c).arrAt_eq_of_cover 7 (lift (fun _ : S1x1.Idx => accOf (grp P0 P1 w1 b1 w2 b2 yb) 3)) (fun t hf => ?_) (fun i => ?_)
  · have ht : t.val % 4 = 3 := (flush2_7 t).mp hf
    show (cfg2.win 7).cut (grid2.coords t) ((dat2 V c).after 7 t) = _
    rw [after2_7, out_last V c P0 P1 w1 b1 w2 b2 yb h0 h1 h2 h3 h4 h5 h6 t ht]
    rfl
  · have hN : cfg2.N = 4 := N_2
    have h3lt : 3 < cfg2.N := by rw [hN]; decide
    refine ⟨⟨3, h3lt⟩, (flush2_7 ⟨3, h3lt⟩).mpr (show (3 : ℕ) % 4 = 3 from rfl), ?_⟩
    rw [mem_blk2_7]
    obtain ⟨-, -, -, -, -, -, -, -, -, -, -, -, -, -, e0, e1⟩ := idx_facts2 ⟨3, h3lt⟩
    have hi0 : (i 0).val < 1 := (i 0).isLt
    have hi1 : (i 1).val < 1 := (i 1).isLt
    intro a
    match a with
    | ⟨0, _⟩ =>
      show win2_7.index ⟨3, h3lt⟩ (0 : Fin 2) * 1 ≤ (i 0).val ∧ (i 0).val < win2_7.index ⟨3, h3lt⟩ (0 : Fin 2) * 1 + 1
      rw [e0]; omega
    | ⟨1, _⟩ =>
      show win2_7.index ⟨3, h3lt⟩ (1 : Fin 2) * 1 ≤ (i 1).val ∧ (i 1).val < win2_7.index ⟨3, h3lt⟩ (1 : Fin 2) * 1 + 1
      rw [e1]; omega

end

end Cert.KernelIdeal.Hand

end
-- ==== Proof.RefValue.lean ====
/-
  The reference program's result as a real number.

  Applied to arrays of real numbers (coerced into the extended reals), every stage of the reference is again the
  coercion of an array of reals, namely the corresponding function of `Cert.Spec`: the pooled channels (the sum of
  the 64 spatial positions divided by 64), the hidden layer, the network's output μ, the two per-sample sums, and the
  mean of their difference over the samples. Each stage is read at one index from the stages below it; the
  coercion ℝ → EReal commutes with sums, products, differences, negation, `max` and division by a nonzero real.
  The intermediate of shape 1024 × 1024 × 256 is only ever read at an index.
-/
import proofs.«173461_j48704929137027_2_alg».proof.Proof.Arrays
import proofs.«173461_j48704929137027_2_alg».proof.Proof.Gen.ReferenceIdeal.Read

noncomputable section

namespace Cert.RefValue

open Idealize.ShloMosaic Idealize.ShloMosaic.ValueIdx Cert.ReferenceIdeal Cert.ReferenceIdeal.Read Cert.Arrays Cert.Spec

/-! ## The coercion ℝ → EReal and the operations -/

/-- The coercion of a finite sum is the sum of the coercions. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The coercion is monotone, so it commutes with `max`. -/
theorem coe_max (a b : ℝ) : ((max a b : ℝ) : EReal) = max (a : EReal) (b : EReal) :=
  EReal.coe_strictMono.monotone.map_max

/-- Division of a real by a nonzero real, on the extended reals, is the real quotient. -/
theorem div_real (x y : ℝ) (h : y ≠ 0) : Ideal.div (x : EReal) (y : EReal) = ((x / y : ℝ) : EReal) := by
  rw [Ideal.div_coe h, ← EReal.coe_mul, mul_one_div]

/-- A sum over the indices of a rank-1 shape is the sum over its coordinate. -/
theorem sum_idx1 {M : Type} [AddCommMonoid M] {n : ℕ} (f : (⟨1, ![n]⟩ : Shape).Idx → M) :
    ∑ i, f i = ∑ a : Fin n, f (ix1 a) :=
  (Equiv.sum_comp (⟨fun a => ix1 a, fun i => i 0, fun _ => rfl, fun i => (eq_ix1 i).symm⟩ : Fin n ≃ (⟨1, ![n]⟩ : Shape).Idx) f).symm

/-! ## The float literals of the reference -/

/-- The word `0x42800000` denotes 64. -/
theorem ofBits_64 : Ideal.ofBits .f32 0x42800000#32 = ((64 : ℝ) : EReal) := by
  simp [Ideal.ofBits, Ideal.ieee, -EReal.coe_mul]; norm_num

/-- The word `0x40000000` denotes 2. -/
theorem ofBits_2 : Ideal.ofBits .f32 0x40000000#32 = ((2 : ℝ) : EReal) := by
  simp [Ideal.ofBits, Ideal.ieee, -EReal.coe_mul]; norm_num

/-- The word `0x44800000` denotes 1024. -/
theorem ofBits_1024 : Ideal.ofBits .f32 0x44800000#32 = ((1024 : ℝ) : EReal) := by
  simp [Ideal.ofBits, Ideal.ieee, -EReal.coe_mul]; norm_num

/-! ## The sum over the two spatial axes -/

/-- The host's sum of a `[1024, C, 8, 8]` array over its last two axes, at `(n, c)`: the initial value plus the 64
    entries of that sample and channel, the spatial position `k = 8·h + w` running over `Fin 64`. The indices that
    drop to `(n, c)` are exactly the `(n, c, k / 8, k % 8)`. -/
theorem reduce_spatial {C : ℕ} (h' : (⟨4, ![1024, C, 8, 8]⟩ : Shape).ReducesTo [2, 3] ⟨2, ![1024, C]⟩)
    (x : (⟨4, ![1024, C, 8, 8]⟩ : Shape).Idx → EReal) (init : EReal) (n : Fin 1024) (c : Fin C) :
    Ideal.hostReduceAdd h' x init (ix2 n c)
      = init + ∑ k : Fin 64, x (ix4 n c ⟨k.val / 8, by omega⟩ ⟨k.val % 8, by omega⟩) := by
  have d0 : ∀ i, (h'.drop i 0).val = (i 0).val := fun i => rfl
  have d1 : ∀ i, (h'.drop i 1).val = (i 1).val := fun i => rfl
  unfold Ideal.hostReduceAdd
  refine congrArg (init + ·) (Eq.symm ?_)
  refine Finset.sum_nbij' (fun k : Fin 64 => ix4 n c ⟨k.val / 8, by omega⟩ ⟨k.val % 8, by omega⟩)
    (fun i => (⟨8 * (i 2).val + (i 3).val, by
      have h2 : (i 2).val < 8 := (i 2).isLt
      have h3 : (i 3).val < 8 := (i 3).isLt
      omega⟩ : Fin 64)) ?_ ?_ ?_ ?_ ?_
  · intro k _
    rw [Finset.mem_filter]
    refine ⟨Finset.mem_univ _, funext fun b => Fin.ext ?_⟩
    match b with
    | ⟨0, _⟩ => exact d0 _
    | ⟨1, _⟩ => exact d1 _
  · intro i _; exact Finset.mem_univ _
  · intro k _
    refine Fin.ext ?_
    show 8 * (k.val / 8) + k.val % 8 = k.val
    omega
  · intro i hi
    rw [Finset.mem_filter] at hi
    have hd := hi.2
    have e0 : (i 0).val = n.val := (d0 i).symm.trans (congrArg Fin.val (congrFun hd 0))
    have e1 : (i 1).val = c.val := (d1 i).symm.trans (congrArg Fin.val (congrFun hd 1))
    have h2 : (i 2).val < 8 := (i 2).isLt
    have h3 : (i 3).val < 8 := (i 3).isLt
    funext a
    refine Fin.ext ?_
    match a with
    | ⟨0, _⟩ => exact e0.symm
    | ⟨1, _⟩ => exact e1.symm
    | ⟨2, _⟩ => show (8 * (i 2).val + (i 3).val) / 8 = (i 2).val; omega
    | ⟨3, _⟩ => show (8 * (i 2).val + (i 3).val) % 8 = (i 3).val; omega
  · intro k _; rfl

/-! ## The stages -/

section Stages

variable (a0 : S1024x512x8x8.Idx → ℝ) (a1 : S1024x256x8x8.Idx → ℝ) (a2 : S512x512.Idx → ℝ) (a3 : S512.Idx → ℝ)
  (a4 : S512x256.Idx → ℝ) (a5 : S256.Idx → ℝ)

/-- The pooled first input at `(n, c)`: the sum of the 64 positions divided by 64. -/
theorem pool0 (n : Fin 1024) (c : Fin 512) :
    val_main_v2 (F := Ideal) (lift a0) (ix2 n c) = ((poolR (pooled a0) n c : ℝ) : EReal) := by
  rw [val_main_v2_apply, val_main_v1_apply, val_main_cst_0_apply]
  unfold val_main_v0
  simp only [Host.reduceAdd, Ideal.hostReduceAdd_def, Ideal.hostDivf_def, Ideal.ofBits_def]
  rw [reduce_spatial, val_main_cst_apply, Ideal.ofBits_def, Ideal.ofBits_zero_f32, zero_add, ofBits_64]
  have e : (∑ k : Fin 64, lift a0 (ix4 n c ⟨k.val / 8, by omega⟩ ⟨k.val % 8, by omega⟩))
      = ((∑ k : Fin 64, pooled a0 n c k : ℝ) : EReal) := (coe_sum _ _).symm
  rw [e, div_real _ _ (by norm_num)]
  rfl

/-- The pooled second input at `(n, d)`. -/
theorem pool1 (n : Fin 1024) (d : Fin 256) :
    val_main_v5 (F := Ideal) (lift a1) (ix2 n d) = ((poolR (pooled a1) n d : ℝ) : EReal) := by
  rw [val_main_v5_apply, val_main_v4_apply, val_main_cst_2_apply]
  unfold val_main_v3
  simp only [Host.reduceAdd, Ideal.hostReduceAdd_def, Ideal.hostDivf_def, Ideal.ofBits_def]
  rw [reduce_spatial, val_main_cst_1_apply, Ideal.ofBits_def, Ideal.ofBits_zero_f32, zero_add, ofBits_64]
  have e : (∑ k : Fin 64, lift a1 (ix4 n d ⟨k.val / 8, by omega⟩ ⟨k.val % 8, by omega⟩))
      = ((∑ k : Fin 64, pooled a1 n d k : ℝ) : EReal) := (coe_sum _ _).symm
  rw [e, div_real _ _ (by norm_num)]
  rfl

/-! ### The composed index functions, by coordinates -/

theorem lidx6 (n : Fin 1024) (j k : Fin 512) : lidx_main_v6 (ix2 n j) k = ix2 n k :=
  funext fun a => Fin.ext (by match a with | ⟨0, _⟩ => rfl | ⟨1, _⟩ => rfl)
theorem ridx6 (n : Fin 1024) (j k : Fin 512) : ridx_main_v6 (ix2 n j) k = ix2 k j :=
  funext fun a => Fin.ext (by match a with | ⟨0, _⟩ => rfl | ⟨1, _⟩ => rfl)
theorem idx78 (n : Fin 1024) (j : Fin 512) : idx_main_v7 (idx_main_v8 (ix2 n j)) = ix1 j :=
  funext fun a => Fin.ext (by match a with | ⟨0, _⟩ => rfl)
theorem lidx11 (n : Fin 1024) (d : Fin 256) (k : Fin 512) : lidx_main_v11 (ix2 n d) k = ix2 n k :=
  funext fun a => Fin.ext (by match a with | ⟨0, _⟩ => rfl | ⟨1, _⟩ => rfl)
theorem ridx11 (n : Fin 1024) (d : Fin 256) (k : Fin 512) : ridx_main_v11 (ix2 n d) k = ix2 k d :=
  funext fun a => Fin.ext (by match a with | ⟨0, _⟩ => rfl | ⟨1, _⟩ => rfl)
theorem idx1213 (n : Fin 1024) (d : Fin 256) : idx_main_v12 (idx_main_v13 (ix2 n d)) = ix1 d :=
  funext fun a => Fin.ext (by match a with | ⟨0, _⟩ => rfl)
theorem idx20 (n : Fin 1024) (k : Fin 256) : idx_main_v20 (ix1 n) k = ix2 n k :=
  funext fun a => Fin.ext (by match a with | ⟨0, _⟩ => rfl | ⟨1, _⟩ => rfl)
theorem idx33 (n : Fin 1024) (k : Fin 256) : idx_main_v33 (ix1 n) k = ix2 n k :=
  funext fun a => Fin.ext (by match a with | ⟨0, _⟩ => rfl | ⟨1, _⟩ => rfl)
theorem idx27 (n : Fin 1024) (d : Fin 256) (k : Fin 1024) : idx_main_v27 (ix2 n d) k = ix3 n k d :=
  funext fun a => Fin.ext (by match a with | ⟨0, _⟩ => rfl | ⟨1, _⟩ => rfl | ⟨2, _⟩ => rfl)
theorem idx2123 (n k : Fin 1024) (d : Fin 256) : idx_main_v21 (idx_main_v23 (ix3 n k d)) = ix2 k d :=
  funext fun a => Fin.ext (by match a with | ⟨0, _⟩ => rfl | ⟨1, _⟩ => rfl)
theorem idx2224 (n k : Fin 1024) (d : Fin 256) : idx_main_v22 (idx_main_v24 (ix3 n k d)) = ix2 n d :=
  funext fun a => Fin.ext (by match a with | ⟨0, _⟩ => rfl | ⟨1, _⟩ => rfl)

/-! ### The network -/

/-- The hidden layer at `(n, j)`: the row of pooled channels times column `j` of the first weight matrix, plus the
    bias, cut off below at zero. -/
theorem hidden (n : Fin 1024) (j : Fin 512) :
    val_main_v10 (F := Ideal) (lift a0) (lift a2) (lift a3) (ix2 n j)
      = ((hidR (pooled a0) (mat a2) (vec a3) n j : ℝ) : EReal) := by
  rw [val_main_v10_apply, val_main_call0_v0_apply, val_main_call0_cst_apply, val_main_v9_apply, val_main_v6_apply,
    val_main_v8_apply, val_main_v7_apply, idx78]
  have hsum : (∑ k : Fin 512, val_main_v2 (F := Ideal) (lift a0) (lidx_main_v6 (ix2 n j) k) * lift a2 (ridx_main_v6 (ix2 n j) k))
      = ((∑ c : Fin 512, poolR (pooled a0) n c * mat a2 c j : ℝ) : EReal) := by
    rw [coe_sum]
    refine Finset.sum_congr rfl fun k _ => ?_
    rw [lidx6, ridx6, pool0, EReal.coe_mul]
    rfl
  rw [hsum]
  simp only [Ideal.maximumf_def, Ideal.addf_def, Ideal.ofBits_def]
  rw [Ideal.ofBits_zero_f32]
  show max (((∑ c : Fin 512, poolR (pooled a0) n c * mat a2 c j : ℝ) : EReal) + ((vec a3 j : ℝ) : EReal)) 0 = _
  rw [← EReal.coe_add, ← EReal.coe_zero, ← coe_max]
  rfl

/-- The network's output μ at `(n, d)`. -/
theorem mu (n : Fin 1024) (d : Fin 256) :
    val_main_v14 (F := Ideal) (lift a0) (lift a2) (lift a3) (lift a4) (lift a5) (ix2 n d)
      = ((muR (pooled a0) (mat a2) (vec a3) (mat a4) (vec a5) n d : ℝ) : EReal) := by
  rw [val_main_v14_apply, val_main_v11_apply, val_main_v13_apply, val_main_v12_apply, idx1213]
  have hsum : (∑ k : Fin 512, val_main_v10 (F := Ideal) (lift a0) (lift a2) (lift a3) (lidx_main_v11 (ix2 n d) k) * lift a4 (ridx_main_v11 (ix2 n d) k))
      = ((∑ j : Fin 512, hidR (pooled a0) (mat a2) (vec a3) n j * mat a4 j d : ℝ) : EReal) := by
    rw [coe_sum]
    refine Finset.sum_congr rfl fun k _ => ?_
    rw [lidx11, ridx11, hidden, EReal.coe_mul]
    rfl
  rw [hsum]
  simp only [Ideal.addf_def]
  show ((∑ j : Fin 512, hidR (pooled a0) (mat a2) (vec a3) n j * mat a4 j d : ℝ) : EReal) + ((vec a5 d : ℝ) : EReal) = _
  rw [← EReal.coe_add]
  rfl

end Stages

/-! ### The two per-sample sums -/

section Sums

variable (a0 : S1024x512x8x8.Idx → ℝ) (a1 : S1024x256x8x8.Idx → ℝ) (a2 : S512x512.Idx → ℝ) (a3 : S512.Idx → ℝ)
  (a4 : S512x256.Idx → ℝ) (a5 : S256.Idx → ℝ)

/-- One term of the first sum: `−(μ − y)² / 2` at `(n, d)`. -/
theorem posTerm (n : Fin 1024) (d : Fin 256) :
    val_main_v19 (F := Ideal) (lift a0) (lift a1) (lift a2) (lift a3) (lift a4) (lift a5) (ix2 n d)
      = ((-((muR (pooled a0) (mat a2) (vec a3) (mat a4) (vec a5) n d - poolR (pooled a1) n d)
            * (muR (pooled a0) (mat a2) (vec a3) (mat a4) (vec a5) n d - poolR (pooled a1) n d)) / 2 : ℝ) : EReal) := by
  rw [val_main_v19_apply, val_main_v18_apply, val_main_cst_3_apply, val_main_v17_apply, val_main_v16_apply,
    val_main_v15_apply, mu, pool1]
  simp only [Ideal.hostDivf_def, Ideal.hostNegf_def, Ideal.negf_def, Ideal.mulf_def, Ideal.subf_def, Ideal.ofBits_def]
  rw [ofBits_2, ← EReal.coe_sub, ← EReal.coe_mul, ← EReal.coe_neg, div_real _ _ (by norm_num)]

/-- The first sum at sample `n`. -/
theorem pos (n : Fin 1024) :
    val_main_v20 (F := Ideal) (lift a0) (lift a1) (lift a2) (lift a3) (lift a4) (lift a5) (ix1 n)
      = ((posR (pooled a0) (pooled a1) (mat a2) (vec a3) (mat a4) (vec a5) n : ℝ) : EReal) := by
  rw [val_main_v20_apply, val_main_cst_4_apply, Ideal.ofBits_def, Ideal.ofBits_zero_f32, zero_add]
  unfold posR
  rw [coe_sum]
  refine Finset.sum_congr rfl fun k _ => ?_
  rw [idx20, posTerm]

/-- One entry of the array of all pairs: `(y_j − μ_n)²` at `(n, j, d)`. -/
theorem pairSq (n j : Fin 1024) (d : Fin 256) :
    val_main_v26 (F := Ideal) (lift a0) (lift a1) (lift a2) (lift a3) (lift a4) (lift a5) (ix3 n j d)
      = (((poolR (pooled a1) j d - muR (pooled a0) (mat a2) (vec a3) (mat a4) (vec a5) n d)
            * (poolR (pooled a1) j d - muR (pooled a0) (mat a2) (vec a3) (mat a4) (vec a5) n d) : ℝ) : EReal) := by
  rw [val_main_v26_apply, val_main_v25_apply, val_main_v23_apply, val_main_v21_apply, val_main_v24_apply,
    val_main_v22_apply, idx2123, idx2224, mu, pool1]
  simp only [Ideal.mulf_def, Ideal.subf_def]
  rw [← EReal.coe_sub, ← EReal.coe_mul]

/-- One term of the second sum: minus the mean over the samples `j` of `(y_j − μ_n)²`, halved, at `(n, d)`. -/
theorem negTerm (n : Fin 1024) (d : Fin 256) :
    val_main_v32 (F := Ideal) (lift a0) (lift a1) (lift a2) (lift a3) (lift a4) (lift a5) (ix2 n d)
      = ((-((∑ j : Fin 1024, (poolR (pooled a1) j d - muR (pooled a0) (mat a2) (vec a3) (mat a4) (vec a5) n d)
              * (poolR (pooled a1) j d - muR (pooled a0) (mat a2) (vec a3) (mat a4) (vec a5) n d)) / 1024) / 2 : ℝ) : EReal) := by
  rw [val_main_v32_apply, val_main_v31_apply, val_main_cst_7_apply, val_main_v30_apply, val_main_v29_apply,
    val_main_v28_apply, val_main_cst_6_apply, val_main_v27_apply, val_main_cst_5_apply]
  have hsum : (∑ k : Fin 1024, val_main_v26 (F := Ideal) (lift a0) (lift a1) (lift a2) (lift a3) (lift a4) (lift a5) (idx_main_v27 (ix2 n d) k))
      = ((∑ j : Fin 1024, (poolR (pooled a1) j d - muR (pooled a0) (mat a2) (vec a3) (mat a4) (vec a5) n d)
              * (poolR (pooled a1) j d - muR (pooled a0) (mat a2) (vec a3) (mat a4) (vec a5) n d) : ℝ) : EReal) := by
    rw [coe_sum]
    refine Finset.sum_congr rfl fun k _ => ?_
    rw [idx27, pairSq]
  rw [hsum]
  simp only [Ideal.hostDivf_def, Ideal.hostNegf_def, Ideal.negf_def, Ideal.ofBits_def]
  rw [Ideal.ofBits_zero_f32, zero_add, ofBits_1024, ofBits_2, div_real _ _ (by norm_num), ← EReal.coe_neg,
    div_real _ _ (by norm_num)]

/-- The second sum at sample `n`. -/
theorem neg (n : Fin 1024) :
    val_main_v33 (F := Ideal) (lift a0) (lift a1) (lift a2) (lift a3) (lift a4) (lift a5) (ix1 n)
      = ((negR (pooled a0) (pooled a1) (mat a2) (vec a3) (mat a4) (vec a5) n : ℝ) : EReal) := by
  rw [val_main_v33_apply, val_main_cst_8_apply, Ideal.ofBits_def, Ideal.ofBits_zero_f32, zero_add]
  unfold negR
  rw [coe_sum]
  refine Finset.sum_congr rfl fun k _ => ?_
  rw [idx33, negTerm]

/-! ### The result -/

/-- The reference's result: the mean over the samples of the difference of the two sums. -/
theorem ref_value (a0 : Cert.ReferenceIdeal.S1024x512x8x8.Idx → ℝ) (a1 : Cert.ReferenceIdeal.S1024x256x8x8.Idx → ℝ) (a2 : Cert.ReferenceIdeal.S512x512.Idx → ℝ) (a3 : Cert.ReferenceIdeal.S512.Idx → ℝ) (a4 : Cert.ReferenceIdeal.S512x256.Idx → ℝ) (a5 : Cert.ReferenceIdeal.S256.Idx → ℝ) :
    Cert.ReferenceIdeal.Read.val_main_v36 (F := Ideal) (Cert.Arrays.lift a0) (Cert.Arrays.lift a1) (Cert.Arrays.lift a2) (Cert.Arrays.lift a3) (Cert.Arrays.lift a4) (Cert.Arrays.lift a5) = fun _ => ((Cert.Arrays.resR a0 a1 a2 a3 a4 a5 : ℝ) : EReal) := by
  funext i
  rw [val_main_v36_apply, val_main_cst_10_apply, val_main_v35_apply, val_main_cst_9_apply, sum_idx1]
  have hsum : (∑ n : Fin 1024, val_main_v34 (F := Ideal) (lift a0) (lift a1) (lift a2) (lift a3) (lift a4) (lift a5) (ix1 n))
      = ((∑ n : Fin 1024, (posR (pooled a0) (pooled a1) (mat a2) (vec a3) (mat a4) (vec a5) n
            - negR (pooled a0) (pooled a1) (mat a2) (vec a3) (mat a4) (vec a5) n) : ℝ) : EReal) := by
    rw [coe_sum]
    refine Finset.sum_congr rfl fun n _ => ?_
    rw [val_main_v34_apply, pos, neg, Ideal.subf_def, ← EReal.coe_sub]
  rw [hsum]
  simp only [Ideal.hostDivf_def, Ideal.ofBits_def]
  rw [Ideal.ofBits_zero_f32, zero_add, ofBits_1024, div_real _ _ (by norm_num)]
  rfl

end Sums

end Cert.RefValue

end
-- ==== Proof.KI.Host.lean ====
/-
  The host operations of the kernel's program, on arrays of real numbers.

  Between its three kernel regions the kernel's program runs three stretches of host operations: two reshapes of the
  inputs `[1024, C, 8, 8] → [1024, C, 64]` (the spatial grid read row by row); the column statistics of the pooled
  second input `Y` (the column means `Σ_n Y_n,d / 1024` and `−½ Σ_d (Σ_n Y_n,d²) / 1024`) and two reshapes of the
  bias vectors to rows; and the final `s / 1024 − k`. Each result below is stated for any contents the stretch starts
  from in which the buffers it reads hold (coercions of) real arrays, and is again the coercion of a real array.
-/
import proofs.«173461_j48704929137027_2_alg».proof.Proof.Gen.KernelIdeal.Launch
import proofs.«173461_j48704929137027_2_alg».proof.Proof.Gen.KernelIdeal.Regions
import proofs.«173461_j48704929137027_2_alg».proof.Proof.Arrays
import proofs.«173461_j48704929137027_2_alg».proof.Proof.RefValue
import Idealize.ShloMosaic.Lib.Pipeline.Value

noncomputable section

namespace Cert.KernelIdeal.Host

open Cert.KernelIdeal Cert.KernelIdeal.Gen Cert.Arrays Idealize.ShloMosaic Idealize.ShloMosaic.ValueIdx Idealize.ShloMosaic.StableHlo

/-! ## The layout operations at an index -/

/-- The reshape `[1024, C, 8, 8] → [1024, C, 64]` at `(n, c, k)` reads `(n, c, k / 8, k % 8)`: both have row-major
    position `(n·C + c)·64 + k`. -/
theorem reshape_spatial {C : ℕ} {α : Type} (x : (⟨4, ![1024, C, 8, 8]⟩ : Shape).Idx → α)
    (hc : (⟨4, ![1024, C, 8, 8]⟩ : Shape).ShapeCasts ⟨3, ![1024, C, 64]⟩) (i : (⟨3, ![1024, C, 64]⟩ : Shape).Idx) :
    shapeCast ⟨3, ![1024, C, 64]⟩ x hc i
      = x (ix4 (i 0) (i 1) ⟨(i 2).val / 8, by have h2 : (i 2).val < 64 := (i 2).isLt; omega⟩ ⟨(i 2).val % 8, by omega⟩) := by
  refine shapeCast_apply x hc i _ ?_
  rw [Shape.rowMajor_val_four, Shape.rowMajor_val_three]
  show (((i 0).val * C + (i 1).val) * 8 + (i 2).val / 8) * 8 + (i 2).val % 8 = ((i 0).val * C + (i 1).val) * 64 + (i 2).val
  omega

/-- The reshape of a vector `[A]` to a row `[1, A]` at `(0, p)` reads `p`. -/
theorem reshape_row {A : ℕ} {α : Type} (x : (⟨1, ![A]⟩ : Shape).Idx → α)
    (hc : (⟨1, ![A]⟩ : Shape).ShapeCasts ⟨2, ![1, A]⟩) (i : (⟨2, ![1, A]⟩ : Shape).Idx) :
    shapeCast ⟨2, ![1, A]⟩ x hc i = x (ix1 (i 1)) := by
  refine shapeCast_apply x hc i _ ?_
  rw [Shape.rowMajor_val_one, Shape.rowMajor_val_two]
  have h0 : (i 0).val < 1 := (i 0).isLt
  show (i 1).val = (i 0).val * A + (i 1).val
  have : (i 0).val = 0 := by omega
  rw [this]; omega

/-- The reshape of a `[1, 1]` array to a scalar reads its one entry. -/
theorem reshape_scalar {α : Type} (x : (⟨2, ![1, 1]⟩ : Shape).Idx → α)
    (hc : (⟨2, ![1, 1]⟩ : Shape).ShapeCasts ⟨0, ![]⟩) (i : (⟨0, ![]⟩ : Shape).Idx) :
    shapeCast ⟨0, ![]⟩ x hc i = x (ix2 0 0) := by
  refine shapeCast_apply x hc i _ ?_
  rw [Shape.rowMajor_val_two]
  exact (Shape.rowMajorPi_zero _ _).symm

/-- The host's sum of a `[1024, 256]` array over its first axis, at column `d`. -/
theorem colsum (x : S1024x256.Idx → EReal) (init : S_.Idx → EReal) (red : S1024x256.ReducesTo [0] S256)
    (hu : 0 < S_.numel) (d : Fin 256) :
    Host.reduceAdd (F := Ideal) (φ := .f32) x init red hu (ix1 d) = init (Shape.Idx.first hu) + ∑ n : Fin 1024, x (ix2 n d) := by
  simp only [Host.reduceAdd, Ideal.hostReduceAdd_def]
  rw [Ideal.hostReduceAdd_single red (by decide)]
  refine congrArg (_ + ·) (Finset.sum_congr rfl fun k _ => ?_)
  exact congrArg x (funext fun a => Fin.ext (by match a with | ⟨0, _⟩ => rfl | ⟨1, _⟩ => rfl))

/-- The host's sum of a `[256]` vector over its one axis. -/
theorem totsum (x : S256.Idx → EReal) (init : S_.Idx → EReal) (red : S256.ReducesTo [0] S_) (hu : 0 < S_.numel) (i : S_.Idx) :
    Host.reduceAdd (F := Ideal) (φ := .f32) x init red hu i = init (Shape.Idx.first hu) + ∑ d : Fin 256, x (ix1 d) := by
  simp only [Host.reduceAdd, Ideal.hostReduceAdd_def]
  rw [Ideal.hostReduceAdd_total red (fun b => b.elim0), Cert.RefValue.sum_idx1]

/-- The word `0xBF000000` denotes −½. -/
theorem ofBits_neg_half : Ideal.ofBits .f32 0xBF000000#32 = ((-1 / 2 : ℝ) : EReal) := by
  simp [Ideal.ofBits, Ideal.ieee, -EReal.coe_mul]; norm_num

/-! ## The first stretch: the two reshapes of the inputs -/

theorem h0_v0 (W : Valuation τ sig (Elt Ideal)) (a0 : S1024x512x8x8.Idx → ℝ)
    (h : (W (Proc.devRef .tc main_arg0) : S1024x512x8x8.Idx → EReal) = lift a0) :
    (after hostOps0 W (Proc.devRef .tc main_v0) : S1024x512x64.Idx → EReal)
      = lift (fun i : S1024x512x64.Idx => a0 (ix4 (i 0) (i 1) ⟨(i 2).val / 8, by have h2 : (i 2).val < 64 := (i 2).isLt; omega⟩ ⟨(i 2).val % 8, by omega⟩)) := by
  after_results
  rw [h]
  funext i
  exact reshape_spatial (lift a0) _ i

theorem h0_v1 (W : Valuation τ sig (Elt Ideal)) (a1 : S1024x256x8x8.Idx → ℝ)
    (h : (W (Proc.devRef .tc main_arg1) : S1024x256x8x8.Idx → EReal) = lift a1) :
    (after hostOps0 W (Proc.devRef .tc main_v1) : S1024x256x64.Idx → EReal)
      = lift (fun i : S1024x256x64.Idx => a1 (ix4 (i 0) (i 1) ⟨(i 2).val / 8, by have h2 : (i 2).val < 64 := (i 2).isLt; omega⟩ ⟨(i 2).val % 8, by omega⟩)) := by
  after_results
  rw [h]
  funext i
  exact reshape_spatial (lift a1) _ i

/-! ## The second stretch: the column statistics of `Y`, and the bias rows -/

/-- The column means of `Y`, as a row: `(Σ_n Y_n,d) / 1024` at `(0, d)`. -/
theorem h2_v7 (W : Valuation τ sig (Elt Ideal)) (Y : S1024x256.Idx → ℝ)
    (h : (W (Proc.devRef .tc main_v3) : S1024x256.Idx → EReal) = lift Y) :
    (after hostOps2 W (Proc.devRef .tc main_v7) : S1x256.Idx → EReal)
      = lift (fun i : S1x256.Idx => (∑ n : Fin 1024, Y (ix2 n (i 1))) / 1024) := by
  after_results
  rw [h]
  funext i
  obtain ⟨p, q, rfl⟩ : ∃ (p : Fin 1) (q : Fin 256), i = ix2 p q := ⟨i 0, i 1, eq_ix2 i⟩
  show Ideal.div
      (broadcastInDim S1x256 ![1] bcast_S256_S1x256_1
        (Host.reduceAdd (F := Ideal) (φ := .f32) (lift Y) (constant (F := Ideal) S_ .f32 0x00000000#32) reducesTo_S1024x256_S256_d0 h_S_) (ix2 p q))
      (broadcastInDim S1x256 ![] bcast_S_S1x256 (constant (F := Ideal) S_ .f32 0x44800000#32) (ix2 p q)) = _
  rw [broadcastInDim_apply _ bcast_S256_S1x256_1 _ (ix2 p q) (ix1 q) (fun a => match a with
      | ⟨0, _⟩ => by show q.val = if (256 : Nat) = 1 then 0 else q.val; rw [if_neg (by decide)]),
    broadcastInDim_apply _ bcast_S_S1x256 _ (ix2 p q) ix0 (fun a => a.elim0), colsum]
  show Ideal.div (Ideal.ofBits .f32 0x00000000#32 + ∑ n : Fin 1024, ((Y (ix2 n q) : ℝ) : EReal)) (Ideal.ofBits .f32 0x44800000#32) = _
  rw [Ideal.ofBits_zero_f32, zero_add, Cert.RefValue.ofBits_1024, ← Cert.RefValue.coe_sum, Cert.RefValue.div_real _ _ (by norm_num)]
  rfl

/-- `−½ Σ_d (Σ_n Y_n,d²) / 1024`. -/
theorem h2_v13 (W : Valuation τ sig (Elt Ideal)) (Y : S1024x256.Idx → ℝ)
    (h : (W (Proc.devRef .tc main_v3) : S1024x256.Idx → EReal) = lift Y) :
    (after hostOps2 W (Proc.devRef .tc main_v13) : S_.Idx → EReal)
      = lift (fun _ : S_.Idx => (-1 / 2) * ∑ d : Fin 256, (∑ n : Fin 1024, Y (ix2 n d) * Y (ix2 n d)) / 1024) := by
  after_results
  rw [h]
  funext i
  show Ideal.ofBits .f32 0xBF000000#32 *
      Host.reduceAdd (F := Ideal) (φ := .f32)
        (Host.divf (F := Ideal)
          (Host.reduceAdd (F := Ideal) (φ := .f32) (mulf (lift Y) (lift Y)) (constant (F := Ideal) S_ .f32 0x00000000#32) reducesTo_S1024x256_S256_d0 h_S_)
          (broadcastInDim S256 ![] bcast_S_S256 (constant (F := Ideal) S_ .f32 0x44800000#32)))
        (constant (F := Ideal) S_ .f32 0x00000000#32) reducesTo_S256_S_d0 h_S_ i = _
  have hcol : ∀ d : Fin 256,
      Host.divf (F := Ideal)
          (Host.reduceAdd (F := Ideal) (φ := .f32) (mulf (lift Y) (lift Y)) (constant (F := Ideal) S_ .f32 0x00000000#32) reducesTo_S1024x256_S256_d0 h_S_)
          (broadcastInDim S256 ![] bcast_S_S256 (constant (F := Ideal) S_ .f32 0x44800000#32)) (ix1 d)
        = (((∑ n : Fin 1024, Y (ix2 n d) * Y (ix2 n d)) / 1024 : ℝ) : EReal) := by
    intro d
    show Ideal.div _ _ = _
    rw [broadcastInDim_apply _ bcast_S_S256 _ (ix1 d) ix0 (fun a => a.elim0), colsum]
    show Ideal.div (Ideal.ofBits .f32 0x00000000#32 + ∑ n : Fin 1024, ((Y (ix2 n d) : ℝ) : EReal) * ((Y (ix2 n d) : ℝ) : EReal)) (Ideal.ofBits .f32 0x44800000#32) = _
    rw [Ideal.ofBits_zero_f32, zero_add, Cert.RefValue.ofBits_1024]
    have e : (∑ n : Fin 1024, ((Y (ix2 n d) : ℝ) : EReal) * ((Y (ix2 n d) : ℝ) : EReal))
        = ((∑ n : Fin 1024, Y (ix2 n d) * Y (ix2 n d) : ℝ) : EReal) := by
      rw [Cert.RefValue.coe_sum]
      exact Finset.sum_congr rfl fun n _ => (EReal.coe_mul _ _).symm
    rw [e, Cert.RefValue.div_real _ _ (by norm_num)]
  rw [totsum]
  show Ideal.ofBits .f32 0xBF000000#32 * (Ideal.ofBits .f32 0x00000000#32 + ∑ d : Fin 256, _) = _
  rw [Finset.sum_congr rfl fun d _ => hcol d, Ideal.ofBits_zero_f32, zero_add, ofBits_neg_half, ← Cert.RefValue.coe_sum, ← EReal.coe_mul]
  rfl

/-- The first bias as a row. -/
theorem h2_v14 (W : Valuation τ sig (Elt Ideal)) (a3 : S512.Idx → ℝ)
    (h : (W (Proc.devRef .tc main_arg3) : S512.Idx → EReal) = lift a3) :
    (after hostOps2 W (Proc.devRef .tc main_v14) : S1x512.Idx → EReal) = lift (fun i : S1x512.Idx => a3 (ix1 (i 1))) := by
  after_results
  rw [h]
  funext i
  exact reshape_row (lift a3) _ i

/-- The second bias as a row. -/
theorem h2_v15 (W : Valuation τ sig (Elt Ideal)) (a5 : S256.Idx → ℝ)
    (h : (W (Proc.devRef .tc main_arg5) : S256.Idx → EReal) = lift a5) :
    (after hostOps2 W (Proc.devRef .tc main_v15) : S1x256.Idx → EReal) = lift (fun i : S1x256.Idx => a5 (ix1 (i 1))) := by
  after_results
  rw [h]
  funext i
  exact reshape_row (lift a5) _ i

/-- A buffer the second stretch does not write keeps its contents. -/
theorem h2_keep (W : Valuation τ sig (Elt Ideal)) (r : Ref sig .tc) (hr : r ∉ hostOps2_W) :
    after hostOps2 W (Proc.devRef .tc r) = W (Proc.devRef .tc r) :=
  StableHlo.after_of_writes_sub hostOps2 _ hostOps2_writes hr

/-! ## The third stretch: the result -/

/-- `s / 1024 − k`. -/
theorem h3_v19 (W : Valuation τ sig (Elt Ideal)) (s : S1x1.Idx → ℝ) (k : S_.Idx → ℝ)
    (hs : (W (Proc.devRef .tc main_v16) : S1x1.Idx → EReal) = lift s)
    (hk : (W (Proc.devRef .tc main_v13) : S_.Idx → EReal) = lift k) :
    (after hostOps3 W (Proc.devRef .tc main_v19) : S_.Idx → EReal) = lift (fun _ : S_.Idx => s (ix2 0 0) / 1024 - k ix0) := by
  after_results
  rw [hs, hk]
  funext i
  show Ideal.div (shapeCast S_ (lift s) shapeCasts_S1x1_S_ i) (Ideal.ofBits .f32 0x44800000#32) - lift k i = _
  rw [reshape_scalar, Cert.RefValue.ofBits_1024, eq_ix0 i]
  show Ideal.div ((s (ix2 0 0) : ℝ) : EReal) ((1024 : ℝ) : EReal) - ((k ix0 : ℝ) : EReal) = _
  rw [Cert.RefValue.div_real _ _ (by norm_num), ← EReal.coe_sub]
  rfl

end Cert.KernelIdeal.Host

end
-- ==== Proof.KI.Value.lean ====
/-
  The kernel program's result over the extended reals, when the six inputs hold real numbers: the contents of the result
  buffer at the last boundary, followed stage by stage from the launch — the reshapes, the two pooling regions, the
  column statistics computed on the host, the network region's accumulator, and the final division and subtraction.
-/
import proofs.«173461_j48704929137027_2_alg».proof.Proof.KI.Run
import proofs.«173461_j48704929137027_2_alg».proof.Proof.KI.ValPool
import proofs.«173461_j48704929137027_2_alg».proof.Proof.KI.ValMlp
import proofs.«173461_j48704929137027_2_alg».proof.Proof.KI.Host

set_option maxRecDepth 16384

noncomputable section

namespace Cert.KernelIdeal.Hand

open Cert.KernelIdeal Cert.KernelIdeal.Gen Cert.Arrays Cert.Chain Cert.KernelIdeal.Host
open Idealize.ShloMosaic Idealize.ShloMosaic.TcCoe Idealize.ShloMosaic.ValueIdx Idealize.ShloMosaic.StableHlo
open Idealize.SL.Sem
open Idealize.ShloMosaic.Pipeline (Dat)

variable (m : (ℓ : Loc nD τ sig) → Buf (Elt Ideal) ℓ) (ρ : Dev nD → PrngReg) (c : Dev nD)
variable (a0 : S1024x512x8x8.Idx → ℝ) (a1 : S1024x256x8x8.Idx → ℝ) (a2 : S512x512.Idx → ℝ) (a3 : S512.Idx → ℝ)
  (a4 : S512x256.Idx → ℝ) (a5 : S256.Idx → ℝ)

/-- The accumulator's recursion on the program's own groups is the chain's. -/
theorem accOf_eq (n : ℕ) :
    accOf (grp (poolArr (merged a0)) (poolArr (merged a1)) a2 (rowOf a3) a4 (rowOf a5) (colMean (poolArr (merged a1)))) n
      = Cert.Chain.acc a0 a1 a2 a3 a4 a5 n := by
  induction n with
  | zero => rfl
  | succ n ih =>
    show accOf _ n + _ = Cert.Chain.acc a0 a1 a2 a3 a4 a5 n + _
    rw [ih]; rfl

/-- An argument no region and no earlier host operation writes holds its launch contents when the network region's
    host prelude starts. -/
theorem Bd3_keep (r : Ref sig .tc) (h1 : ∀ w, Pipeline.arrRef spec1 w ≠ r) (h0 : ∀ w, Pipeline.arrRef spec0 w ≠ r) (hw : r ∉ hostOps0_W) :
    Bd3 m ρ c (Proc.devRef .tc r) = Bd0 m ρ c (Proc.devRef .tc r) :=
  (Bd3_of_ne m ρ c r h1).trans ((Bd2_of_ne m ρ c r h0).trans (StableHlo.after_of_writes_sub hostOps0 _ hostOps0_writes (r := r) hw))

variable (h0 : m ((c.tc : Thread nD τ).loc main_arg0) = lift a0) (h1 : m ((c.tc : Thread nD τ).loc main_arg1) = lift a1)
  (h2 : m ((c.tc : Thread nD τ).loc main_arg2) = lift a2) (h3 : m ((c.tc : Thread nD τ).loc main_arg3) = lift a3)
  (h4 : m ((c.tc : Thread nD τ).loc main_arg4) = lift a4) (h5 : m ((c.tc : Thread nD τ).loc main_arg5) = lift a5)

include h0 in
/-- The first pooled array after region 0. -/
theorem pooled0 : ((dat0 (En0 m ρ) c).arrAt 1 cfg0.N : S1024x512.Idx → EReal) = lift (poolArr (merged a0)) :=
  final0 (En0 m ρ) c (merged a0) (h0_v0 (Bd0 m ρ c) a0 h0)

include h1 in
/-- The second pooled array after region 1. -/
theorem pooled1 : ((dat1 (En1 m ρ) c).arrAt 1 cfg1.N : S1024x256.Idx → EReal) = lift (poolArr (merged a1)) :=
  final1 (En1 m ρ) c (merged a1) ((Bd2_of_ne m ρ c main_v1 (by decide)).trans (h0_v1 (Bd0 m ρ c) a1 h1))

include h0 in
theorem Bd3_v2 : (Bd3 m ρ c (Proc.devRef .tc main_v2) : S1024x512.Idx → EReal) = lift (poolArr (merged a0)) :=
  (Bd3_of_ne m ρ c main_v2 (by decide)).trans ((Bd2_arr m ρ c 1).trans (pooled0 m ρ c a0 h0))

include h1 in
theorem Bd3_v3 : (Bd3 m ρ c (Proc.devRef .tc main_v3) : S1024x256.Idx → EReal) = lift (poolArr (merged a1)) :=
  (Bd3_arr m ρ c 1).trans (pooled1 m ρ c a1 h1)

include h0 h1 h2 h3 h4 h5 in
/-- The network region's output cell after the region. -/
theorem cell : ((dat2 (En2 m ρ) c).arrAt 7 cfg2.N : S1x1.Idx → EReal) = lift (fun _ : S1x1.Idx => Cert.Chain.acc a0 a1 a2 a3 a4 a5 3) := by
  rw [← accOf_eq a0 a1 a2 a3 a4 a5 3]
  refine final2 (En2 m ρ) c (poolArr (merged a0)) (poolArr (merged a1)) a2 (rowOf a3) a4 (rowOf a5) (colMean (poolArr (merged a1))) ?_ ?_ ?_ ?_ ?_ ?_ ?_
  · exact (h2_keep (Bd3 m ρ c) main_v2 (by decide)).trans (Bd3_v2 m ρ c a0 h0)
  · exact (h2_keep (Bd3 m ρ c) main_v3 (by decide)).trans (Bd3_v3 m ρ c a1 h1)
  · exact (h2_keep (Bd3 m ρ c) main_arg2 (by decide)).trans ((Bd3_keep m ρ c main_arg2 (by decide) (by decide) (by decide)).trans h2)
  · exact h2_v14 (Bd3 m ρ c) a3 ((Bd3_keep m ρ c main_arg3 (by decide) (by decide) (by decide)).trans h3)
  · exact (h2_keep (Bd3 m ρ c) main_arg4 (by decide)).trans ((Bd3_keep m ρ c main_arg4 (by decide) (by decide) (by decide)).trans h4)
  · exact h2_v15 (Bd3 m ρ c) a5 ((Bd3_keep m ρ c main_arg5 (by decide) (by decide) (by decide)).trans h5)
  · exact h2_v7 (Bd3 m ρ c) (poolArr (merged a1)) (Bd3_v3 m ρ c a1 h1)

include h0 h1 h2 h3 h4 h5 in
/-- THE RESULT at the last boundary. -/
theorem value : (Bd6 m ρ c (Proc.devRef .tc main_v19) : S_.Idx → EReal) = lift (fun _ : S_.Idx => Cert.Chain.result a0 a1 a2 a3 a4 a5) :=
  h3_v19 (Bd5 m ρ c) (fun _ => Cert.Chain.acc a0 a1 a2 a3 a4 a5 3) (fun _ => halfSq (poolArr (merged a1)))
    ((Bd5_arr m ρ c 7).trans (cell m ρ c a0 a1 a2 a3 a4 a5 h0 h1 h2 h3 h4 h5))
    ((Bd5_of_ne m ρ c main_v13 (by decide)).trans (h2_v13 (Bd3 m ρ c) (poolArr (merged a1)) (Bd3_v3 m ρ c a1 h1)))

end Cert.KernelIdeal.Hand

end
-- ==== Proof.LibBlocks.lean ====
/-
  A sum over the index type `Fin (G * R)` taken in `G` consecutive blocks of `R` indices each.
-/
import Mathlib.Algebra.BigOperators.Fin
import Mathlib.Logic.Equiv.Fin.Basic

namespace Cert.Lib

open Finset BigOperators

/-- The position `R * t + r` of the `r`-th index of the `t`-th block of length `R` lies below `G * R`. -/
theorem block_index_lt {G R : ℕ} (t : Fin G) (r : Fin R) : R * t.val + r.val < G * R := by
  have ht : t.val + 1 ≤ G := t.isLt
  have hr : r.val < R := r.isLt
  calc R * t.val + r.val < R * t.val + R := Nat.add_lt_add_left hr _
    _ = R * (t.val + 1) := by rw [Nat.mul_succ]
    _ ≤ R * G := Nat.mul_le_mul_left R ht
    _ = G * R := Nat.mul_comm R G

/-- A sum over `Fin (G * R)` is the sum over the `G` blocks of the sums over the `R` consecutive indices
`R * t + 0, …, R * t + (R - 1)` of block `t`. Valid in every additive commutative monoid. -/
theorem sum_univ_blocks {M : Type*} [AddCommMonoid M] (G R : ℕ) (f : Fin (G * R) → M) :
    ∑ i, f i = ∑ t : Fin G, ∑ r : Fin R, f ⟨R * t.val + r.val, block_index_lt t r⟩ := by
  rw [← Fintype.sum_prod_type' (f := fun (t : Fin G) (r : Fin R) => f ⟨R * t.val + r.val, block_index_lt t r⟩)]
  rw [← Equiv.sum_comp (finProdFinEquiv (m := G) (n := R)) f]
  refine Finset.sum_congr rfl ?_
  rintro ⟨t, r⟩ -
  congr 1
  apply Fin.ext
  simp [finProdFinEquiv, Nat.add_comm]

end Cert.Lib
-- ==== Proof.Algebra.lean ====
/-
  The kernel's formula and the reference's formula are the same real number.

  Three steps. (1) Pooling by "times 1/64" and by "divided by 64" agree, hence so do the hidden layer and the
  network output. (2) For one sample, expanding the square
      Σ_j (y_j − μ)² = Σ_j y_j² − 2 μ Σ_j y_j + N μ²       (N the number of samples)
  column by column turns the reference's contribution into the kernel's contribution minus the constant
  `c0K`. (3) The sum over the 1024 samples is the sum over the four groups of 256 consecutive samples.
-/
import Mathlib.Tactic.Ring
import Mathlib.Tactic.FieldSimp
import Mathlib.Tactic.Linarith
import proofs.«173461_j48704929137027_2_alg».proof.Proof.Spec
import proofs.«173461_j48704929137027_2_alg».proof.Proof.LibBlocks

namespace Cert.Spec

open Finset BigOperators

/-! ## Step 1: the two ways of pooling agree -/

theorem poolK_eq_poolR {C : ℕ} (a : Fin 1024 → Fin C → Fin 64 → ℝ) : poolK a = poolR a := by
  funext n c
  unfold poolK poolR
  rw [mul_one_div]

theorem hidK_eq_hidR (x : Fin 1024 → Fin 512 → Fin 64 → ℝ) (w1 : Fin 512 → Fin 512 → ℝ) (b1 : Fin 512 → ℝ) :
    hidK x w1 b1 = hidR x w1 b1 := by
  funext n j
  unfold hidK hidR
  rw [poolK_eq_poolR]

theorem muK_eq_muR (x : Fin 1024 → Fin 512 → Fin 64 → ℝ) (w1 : Fin 512 → Fin 512 → ℝ) (b1 : Fin 512 → ℝ)
    (w2 : Fin 512 → Fin 256 → ℝ) (b2 : Fin 256 → ℝ) : muK x w1 b1 w2 b2 = muR x w1 b1 w2 b2 := by
  funext n d
  unfold muK muR
  rw [hidK_eq_hidR]

/-! ## Step 2: one sample, over abstract finite index types -/

section Abstract

variable {J D : Type*} [Fintype J] [Fintype D]

/-- Expanding the square: Σ_j (p_j − m)² = Σ_j p_j² − 2 m Σ_j p_j + N m², with N the number of indices. -/
theorem sum_sq_sub (p : J → ℝ) (m : ℝ) :
    ∑ j, (p j - m) * (p j - m) = (∑ j, p j * p j) - 2 * m * (∑ j, p j) + (Fintype.card J : ℝ) * (m * m) := by
  have h : ∀ j, (p j - m) * (p j - m) = p j * p j - 2 * m * p j + m * m := fun j => by ring
  simp only [h, Finset.sum_add_distrib, Finset.sum_sub_distrib, ← Finset.mul_sum, Finset.sum_const,
    Finset.card_univ, nsmul_eq_mul]
  ring

/-- One column of one sample: the reference's two terms against the kernel's four. -/
theorem column_identity (N : ℝ) (hN : N ≠ 0) (S1 S2 m q : ℝ) :
    -((m - q) * (m - q)) / 2 - -((S2 - 2 * m * S1 + N * (m * m)) / N) / 2
      = (-1 / 2) * ((m - q) * (m - q)) - (m * (S1 / N) - (1 / 2) * (m * m)) - (-1 / 2) * (S2 / N) := by
  field_simp
  ring

/-- One sample: the reference's contribution is the kernel's contribution minus the constant term. -/
theorem row_identity (N : ℝ) (hcard : (Fintype.card J : ℝ) = N) (hN : N ≠ 0) (p : J → D → ℝ) (m q : D → ℝ) :
    (∑ d, -((m d - q d) * (m d - q d)) / 2) - (∑ d, -((∑ j, (p j d - m d) * (p j d - m d)) / N) / 2)
      = ((-1 / 2) * (∑ d, (m d - q d) * (m d - q d))
          - ((∑ d, m d * ((∑ j, p j d) / N)) - (1 / 2) * ∑ d, m d * m d))
        - (-1 / 2) * ∑ d, (∑ j, p j d * p j d) / N := by
  have h : ∀ d, -((m d - q d) * (m d - q d)) / 2 - -((∑ j, (p j d - m d) * (p j d - m d)) / N) / 2
      = (-1 / 2) * ((m d - q d) * (m d - q d)) - (m d * ((∑ j, p j d) / N) - (1 / 2) * (m d * m d))
        - (-1 / 2) * ((∑ j, p j d * p j d) / N) := fun d => by
    rw [sum_sq_sub (fun j => p j d) (m d), hcard]
    exact column_identity N hN _ _ _ _
  rw [← Finset.sum_sub_distrib, Finset.sum_congr rfl (fun d _ => h d)]
  simp only [Finset.sum_sub_distrib, ← Finset.mul_sum]

end Abstract

/-! ## Step 3: the concrete programs -/

section Concrete

variable (x : Fin 1024 → Fin 512 → Fin 64 → ℝ) (y : Fin 1024 → Fin 256 → Fin 64 → ℝ)
  (w1 : Fin 512 → Fin 512 → ℝ) (b1 : Fin 512 → ℝ) (w2 : Fin 512 → Fin 256 → ℝ) (b2 : Fin 256 → ℝ)

/-- One sample of the reference is the kernel's contribution of that sample minus `c0K`. -/
theorem posR_sub_negR (n : Fin 1024) :
    posR x y w1 b1 w2 b2 n - negR x y w1 b1 w2 b2 n = rowK x y w1 b1 w2 b2 n - c0K y := by
  unfold posR negR rowK c0K ybarK
  rw [muK_eq_muR, poolK_eq_poolR]
  exact row_identity (1024 : ℝ) (by simp) (by norm_num) (fun j d => poolR y j d)
    (fun d => muR x w1 b1 w2 b2 n d) (fun d => poolR y n d)

/-- The accumulator is the sum of the contributions of all 1024 samples. -/
theorem accK_eq_sum : accK x y w1 b1 w2 b2 = ∑ n, rowK x y w1 b1 w2 b2 n := by
  have h := Cert.Lib.sum_univ_blocks 4 256 (fun n : Fin (4 * 256) => rowK x y w1 b1 w2 b2 n)
  rw [Fin.sum_univ_four] at h
  unfold accK groupK
  exact h.symm

end Concrete

/-- The kernel's result equals the reference's result: the mean over the samples of "contribution minus
`c0K`" is the mean of the contributions minus `c0K`. -/
theorem resK_eq_resR (x : Fin 1024 → Fin 512 → Fin 64 → ℝ) (y : Fin 1024 → Fin 256 → Fin 64 → ℝ)
    (w1 : Fin 512 → Fin 512 → ℝ) (b1 : Fin 512 → ℝ) (w2 : Fin 512 → Fin 256 → ℝ) (b2 : Fin 256 → ℝ) :
    resK x y w1 b1 w2 b2 = resR x y w1 b1 w2 b2 := by
  unfold resK resR
  rw [accK_eq_sum]
  simp only [posR_sub_negR, Finset.sum_sub_distrib, Finset.sum_const, Finset.card_univ, Fintype.card_fin,
    nsmul_eq_mul]
  field_simp
  ring

end Cert.Spec
-- ==== Proof.KI.ChainAlg.lean ====
/-
  The chain of real formulas that the kernel program computes on its blocks is the kernel's formula of the
  specification, and hence the reference's: stage by stage, each block formula read at an index is the
  specification's formula at the corresponding sample, channel and column.
-/
import proofs.«173461_j48704929137027_2_alg».proof.Proof.KI.ValDefs
import proofs.«173461_j48704929137027_2_alg».proof.Proof.Algebra

noncomputable section

namespace Cert.Chain

open Cert.KernelIdeal Cert.Arrays Idealize.ShloMosaic Idealize.ShloMosaic.ValueIdx
open Finset BigOperators

/-! ## Pooling -/

/-- The pooled array at `(n, c)` is the specification's pooled channel. -/
theorem poolArr_merged {C : ℕ} (a : (⟨4, ![1024, C, 8, 8]⟩ : Shape).Idx → ℝ) (n : Fin 1024) (c : Fin C) :
    poolArr (merged a) (ix2 n c) = Cert.Spec.poolK (pooled a) n c := rfl

/-- Row `r` of the block `t` of the pooled array is the pooled sample `256 t + r`. -/
theorem rows_pool {C : ℕ} (a : (⟨4, ![1024, C, 8, 8]⟩ : Shape).Idx → ℝ) (t : Fin 4) (r : Fin 256) (c : Fin C) :
    rows (poolArr (merged a)) t (ix2 r c) = Cert.Spec.poolK (pooled a) (Cert.Spec.rowAt t r) c := rfl

section

variable (a0 : S1024x512x8x8.Idx → ℝ) (a1 : S1024x256x8x8.Idx → ℝ) (a2 : S512x512.Idx → ℝ) (a3 : S512.Idx → ℝ)
  (a4 : S512x256.Idx → ℝ) (a5 : S256.Idx → ℝ)

/-! ## The network on a block -/

/-- The network on the block `t` at `(r, d)` is the specification's network at sample `256 t + r`, column `d`. -/
theorem mu_rows (t : Fin 4) (r d : Fin 256) :
    Cert.Pay.muBlk (rows (poolArr (merged a0)) t) a2 (rowOf a3) a4 (rowOf a5) (ix2 r d)
      = Cert.Spec.muK (pooled a0) (mat a2) (vec a3) (mat a4) (vec a5) (Cert.Spec.rowAt t r) d := by
  unfold Cert.Pay.muBlk Cert.Spec.muK Cert.Spec.hidK
  refine congrArg₂ (· + ·) (Finset.sum_congr rfl fun h _ => ?_) rfl
  refine congrArg₂ (· * ·) ?_ rfl
  refine congrArg₂ max (congrArg₂ (· + ·) (Finset.sum_congr rfl fun c _ => ?_) rfl) rfl
  exact congrArg₂ (· * ·) (rows_pool a0 t r c) rfl

/-! ## The column statistics -/

/-- The column mean at `d` is the specification's. -/
theorem colMean_eq (d : Fin 256) :
    colMean (poolArr (merged a1)) (ix2 0 d) = Cert.Spec.ybarK (pooled a1) d := by
  unfold colMean Cert.Spec.ybarK
  exact congrArg (· / 1024) (Finset.sum_congr rfl fun n _ => poolArr_merged a1 n d)

/-- The constant term is the specification's. -/
theorem halfSq_eq : halfSq (poolArr (merged a1)) = Cert.Spec.c0K (pooled a1) := by
  unfold halfSq Cert.Spec.c0K
  simp only [poolArr_merged]

/-! ## Rows, groups, accumulator -/

/-- The contribution of row `r` of block `t` is the specification's contribution of sample `256 t + r`. -/
theorem rowBlk_eq (t : Fin 4) (r : Fin 256) :
    Cert.Pay.rowBlk (Cert.Pay.muBlk (rows (poolArr (merged a0)) t) a2 (rowOf a3) a4 (rowOf a5))
        (rows (poolArr (merged a1)) t) (colMean (poolArr (merged a1))) r
      = Cert.Spec.rowK (pooled a0) (pooled a1) (mat a2) (vec a3) (mat a4) (vec a5) (Cert.Spec.rowAt t r) := by
  unfold Cert.Pay.rowBlk Cert.Spec.rowK
  simp only [mu_rows, rows_pool, colMean_eq]

/-- The contribution of group `t` is the specification's. -/
theorem group_eq (t : Fin 4) :
    group a0 a1 a2 a3 a4 a5 t = Cert.Spec.groupK (pooled a0) (pooled a1) (mat a2) (vec a3) (mat a4) (vec a5) t := by
  unfold group Cert.Spec.groupK
  exact Finset.sum_congr rfl fun r _ => rowBlk_eq a0 a1 a2 a3 a4 a5 t r

/-- One more point: the accumulator gains that point's group. -/
theorem acc_succ (n : ℕ) (h : n + 1 < 4) :
    acc a0 a1 a2 a3 a4 a5 (n + 1) = acc a0 a1 a2 a3 a4 a5 n + group a0 a1 a2 a3 a4 a5 ⟨n + 1, h⟩ := by
  rw [acc, dif_pos h]

/-- The accumulator after the four points is the sum of the four groups, added in order from zero. -/
theorem acc_three : acc a0 a1 a2 a3 a4 a5 3
    = 0 + group a0 a1 a2 a3 a4 a5 0 + group a0 a1 a2 a3 a4 a5 1 + group a0 a1 a2 a3 a4 a5 2
      + group a0 a1 a2 a3 a4 a5 3 := by
  have e0 : acc a0 a1 a2 a3 a4 a5 0 = 0 + group a0 a1 a2 a3 a4 a5 0 := by rw [acc]
  have e1 : acc a0 a1 a2 a3 a4 a5 1 = acc a0 a1 a2 a3 a4 a5 0 + group a0 a1 a2 a3 a4 a5 1 :=
    acc_succ a0 a1 a2 a3 a4 a5 0 (by norm_num)
  have e2 : acc a0 a1 a2 a3 a4 a5 2 = acc a0 a1 a2 a3 a4 a5 1 + group a0 a1 a2 a3 a4 a5 2 :=
    acc_succ a0 a1 a2 a3 a4 a5 1 (by norm_num)
  have e3 : acc a0 a1 a2 a3 a4 a5 3 = acc a0 a1 a2 a3 a4 a5 2 + group a0 a1 a2 a3 a4 a5 3 :=
    acc_succ a0 a1 a2 a3 a4 a5 2 (by norm_num)
  rw [e3, e2, e1, e0]

/-- The accumulator after the four points is the specification's. -/
theorem acc_eq : acc a0 a1 a2 a3 a4 a5 3
    = Cert.Spec.accK (pooled a0) (pooled a1) (mat a2) (vec a3) (mat a4) (vec a5) := by
  rw [acc_three, zero_add]
  unfold Cert.Spec.accK
  simp only [group_eq]

end

/-! ## The result -/

/-- The chain's result is the kernel's formula at the six arrays. -/
theorem result_eq_resK (a0 : Cert.KernelIdeal.S1024x512x8x8.Idx → ℝ) (a1 : Cert.KernelIdeal.S1024x256x8x8.Idx → ℝ)
    (a2 : Cert.KernelIdeal.S512x512.Idx → ℝ) (a3 : Cert.KernelIdeal.S512.Idx → ℝ)
    (a4 : Cert.KernelIdeal.S512x256.Idx → ℝ) (a5 : Cert.KernelIdeal.S256.Idx → ℝ) :
    result a0 a1 a2 a3 a4 a5 = Cert.Arrays.resK a0 a1 a2 a3 a4 a5 := by
  unfold result Cert.Arrays.resK Cert.Spec.resK
  rw [acc_eq, halfSq_eq]

/-- The chain's result is the reference's formula at the six arrays. -/
theorem result_eq_resR (a0 : Cert.KernelIdeal.S1024x512x8x8.Idx → ℝ) (a1 : Cert.KernelIdeal.S1024x256x8x8.Idx → ℝ)
    (a2 : Cert.KernelIdeal.S512x512.Idx → ℝ) (a3 : Cert.KernelIdeal.S512.Idx → ℝ)
    (a4 : Cert.KernelIdeal.S512x256.Idx → ℝ) (a5 : Cert.KernelIdeal.S256.Idx → ℝ) :
    result a0 a1 a2 a3 a4 a5 = Cert.Arrays.resR a0 a1 a2 a3 a4 a5 := by
  rw [result_eq_resK]
  exact Cert.Spec.resK_eq_resR _ _ _ _ _ _

end Cert.Chain

end
-- ==== Proof.Finite.lean ====
/-
  Finiteness of the inputs.

  The precondition states, for each of the six argument arrays, that every entry has absolute value below +∞.
  On the extended reals that excludes exactly the two infinities, so every entry is a real number and each
  argument array is the coercion of an array of real numbers.
-/
import proofs.«173461_j48704929137027_2_alg».proof.Defs
import proofs.«173461_j48704929137027_2_alg».proof.Proof.Gen.Pre_finite_inputs
import proofs.«173461_j48704929137027_2_alg».proof.Proof.Arrays
import Idealize.ShloMosaic.Lib.ReduceAll

noncomputable section

namespace Cert.Finite

open Idealize.ShloMosaic Idealize.SL.Sem

/-- The scalar shape has one index. -/
instance : Subsingleton Cert.Pre_finite_inputs.S_.Idx := ⟨fun _ _ => funext fun d => d.elim0⟩

/-- The word `0x7F800000` denotes +∞. -/
theorem ofBits_inf : Ideal.ofBits .f32 0x7F800000#32 = ⊤ := by
  simp [Ideal.ofBits, Ideal.ieee]

/-- An extended real whose absolute value `max x (-x)` compares below +∞ is a real number: at either infinity the
    absolute value is +∞ itself. -/
theorem real_of_abs_lt (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | coe r => exact ⟨r, rfl⟩
  | top => simp [Ideal.cmp] at h

/-- One conjunct of the precondition, `all (|x| < +∞)` being true, makes `x` the coercion of an array of reals. -/
theorem lift_of_all {s : Shape} {axes : List (Fin s.rank)} (x : FVec Ideal s .f32)
    (bc : Cert.Pre_finite_inputs.S_.BroadcastsInDim s (![] : Fin 0 → Fin s.rank))
    (red : s.ReducesTo axes Cert.Pre_finite_inputs.S_) (hu : 0 < Cert.Pre_finite_inputs.S_.numel)
    (init : IVec Cert.Pre_finite_inputs.S_ 1) (j : Cert.Pre_finite_inputs.S_.Idx)
    (h : Host.reduce IntOp.andi
          (cmpf .olt (Host.absf x) (broadcastInDim s ![] bc (constant (F := Ideal) Cert.Pre_finite_inputs.S_ .f32 0x7F800000#32)))
          init red hu j = 1#1) :
    ∃ a : s.Idx → ℝ, x = Cert.Arrays.lift a := by
  have hall : ∀ i : s.Idx, ∃ r : ℝ, x i = (r : EReal) := fun i =>
    real_of_abs_lt (x i) (Host.reduce_andi_all _ init red hu j h i)
  exact ⟨fun i => (hall i).choose, funext fun i => (hall i).choose_spec⟩

theorem reals_of_pre (m : (ℓ : Loc Cert.KernelIdeal.nD Cert.KernelIdeal.τ Cert.KernelIdeal.sig) → Buf (Elt Ideal) ℓ) (h : Cert.Pre_KernelIdeal (hPre_finite_inputs := Cert.Pre_finite_inputs.Gen.facts) m) (c : Dev Cert.KernelIdeal.nD) :
    ∃ (a0 : Cert.KernelIdeal.S1024x512x8x8.Idx → ℝ) (a1 : Cert.KernelIdeal.S1024x256x8x8.Idx → ℝ) (a2 : Cert.KernelIdeal.S512x512.Idx → ℝ) (a3 : Cert.KernelIdeal.S512.Idx → ℝ) (a4 : Cert.KernelIdeal.S512x256.Idx → ℝ) (a5 : Cert.KernelIdeal.S256.Idx → ℝ),
      m ((c.tc : Thread Cert.KernelIdeal.nD Cert.KernelIdeal.τ).loc Cert.KernelIdeal.main_arg0) = Cert.Arrays.lift a0
      ∧ m ((c.tc : Thread Cert.KernelIdeal.nD Cert.KernelIdeal.τ).loc Cert.KernelIdeal.main_arg1) = Cert.Arrays.lift a1
      ∧ m ((c.tc : Thread Cert.KernelIdeal.nD Cert.KernelIdeal.τ).loc Cert.KernelIdeal.main_arg2) = Cert.Arrays.lift a2
      ∧ m ((c.tc : Thread Cert.KernelIdeal.nD Cert.KernelIdeal.τ).loc Cert.KernelIdeal.main_arg3) = Cert.Arrays.lift a3
      ∧ m ((c.tc : Thread Cert.KernelIdeal.nD Cert.KernelIdeal.τ).loc Cert.KernelIdeal.main_arg4) = Cert.Arrays.lift a4
      ∧ m ((c.tc : Thread Cert.KernelIdeal.nD Cert.KernelIdeal.τ).loc Cert.KernelIdeal.main_arg5) = Cert.Arrays.lift a5 := by
  have h0 := congrFun (h c) ValueIdx.ix0
  dsimp only [Cert.Pre_finite_inputs.fn, Cert.Pre_finite_inputs.fn_part1] at h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  obtain ⟨a0, r0⟩ := lift_of_all _ _ _ _ _ _ e0
  obtain ⟨a1, r1⟩ := lift_of_all _ _ _ _ _ _ e1
  obtain ⟨a2, r2⟩ := lift_of_all _ _ _ _ _ _ e2
  obtain ⟨a3, r3⟩ := lift_of_all _ _ _ _ _ _ e3
  obtain ⟨a4, r4⟩ := lift_of_all _ _ _ _ _ _ e4
  obtain ⟨a5, r5⟩ := lift_of_all _ _ _ _ _ _ e5
  exact ⟨a0, a1, a2, a3, a4, a5, r0, r1, r2, r3, r4, r5⟩

end Cert.Finite

end
-- ==== Proof.lean ====
/-
  The certificate of the pooled-network kernel against its reference, over the extended reals.

  Both programs pool each channel of the two inputs over its 64 spatial positions, send the pooled first input through
  μ = relu(x·W1 + b1)·W2 + b2, and return the mean over the 1024 samples n of
      −½ Σ_d (μ_n,d − y_n,d)²  +  ½ Σ_d mean_j (y_j,d − μ_n,d)².
  The reference forms all 1024 × 1024 pairs (n, j). The kernel expands the square,
      mean_j (y_j,d − μ_n,d)² = mean_j y_j,d² − 2 μ_n,d mean_j y_j,d + μ_n,d²,
  computes the two column statistics of y once on the host, and accumulates the samples in four groups of 256 rows in a
  scratch cell carried across the grid of its third region. The law joining the two sides is distributivity of the
  product over finite sums and cancellation, which hold on the reals and fail at the infinities: the precondition
  (every input finite) is used to read every input as an array of real numbers, both programs are followed on real
  numbers, and the two real formulas are equal by algebra.

  The frames: each program's run is assembled from its three kernel regions and its stretches of host operations; no
  operation and no region writes an argument.
-/
import proofs.«173461_j48704929137027_2_alg».proof.Defs
import proofs.«173461_j48704929137027_2_alg».proof.Proof.Gen.Kernel
import proofs.«173461_j48704929137027_2_alg».proof.Proof.Gen.KernelIdeal
import proofs.«173461_j48704929137027_2_alg».proof.Proof.Gen.ReferenceIdeal
import proofs.«173461_j48704929137027_2_alg».proof.Proof.Gen.Pre_finite_inputs
import proofs.«173461_j48704929137027_2_alg».proof.Proof.Gen.ReferenceIdeal.Read
import proofs.«173461_j48704929137027_2_alg».proof.Proof.K.Run
import proofs.«173461_j48704929137027_2_alg».proof.Proof.KI.Value
import proofs.«173461_j48704929137027_2_alg».proof.Proof.KI.ChainAlg
import proofs.«173461_j48704929137027_2_alg».proof.Proof.RefValue
import proofs.«173461_j48704929137027_2_alg».proof.Proof.Finite
import Idealize.ShloMosaic.Adequacy
import Idealize.ShloMosaic.Init

noncomputable section

namespace Cert.Proof

open Idealize.ShloMosaic Idealize.SL.Sem

/-- The word-level kernel program runs to the end and leaves its arguments as launched. -/
theorem frame_k : Cert.frame_Kernel (hKernel := Cert.Kernel.Gen.facts) (hPre_finite_inputs := Cert.Pre_finite_inputs.Gen.facts) :=
  fun m ρ _ => Cert.Kernel.Hand.frame m ρ

/-- So does its reading over the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference is a line of host operations: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on finite arguments both programs end with the same result: each is followed on the real
    numbers the arguments hold, and the two real formulas are equal. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  have hre := fun c => Cert.Finite.reals_of_pre m hpre c
  choose a0 a1 a2 a3 a4 a5 h using hre
  refine ⟨fun c => Cert.Arrays.lift (fun _ : Cert.KernelIdeal.S_.Idx => Cert.Chain.result (a0 c) (a1 c) (a2 c) (a3 c) (a4 c) (a5 c)), ?_, ?_⟩
  · refine (θ_run Cert.KernelIdeal.defs _ _).mono (fun r hr c => ?_) (Cert.KernelIdeal.Hand.run m ρ)
    obtain ⟨k0, k1, k2, k3, k4, k5⟩ := h c
    exact ⟨(hr c _ (Cert.KernelIdeal.Hand.mem_uc Cert.KernelIdeal.main_v19 (by decide))).trans
        (Cert.KernelIdeal.Hand.value m ρ c (a0 c) (a1 c) (a2 c) (a3 c) (a4 c) (a5 c) k0 k1 k2 k3 k4 k5),
      (hr c _ (Cert.KernelIdeal.Hand.mem_uc Cert.KernelIdeal.main_arg0 (by decide))).trans (Cert.KernelIdeal.Hand.Bd6_main_arg0 m ρ c),
      (hr c _ (Cert.KernelIdeal.Hand.mem_uc Cert.KernelIdeal.main_arg1 (by decide))).trans (Cert.KernelIdeal.Hand.Bd6_main_arg1 m ρ c),
      (hr c _ (Cert.KernelIdeal.Hand.mem_uc Cert.KernelIdeal.main_arg2 (by decide))).trans (Cert.KernelIdeal.Hand.Bd6_main_arg2 m ρ c),
      (hr c _ (Cert.KernelIdeal.Hand.mem_uc Cert.KernelIdeal.main_arg3 (by decide))).trans (Cert.KernelIdeal.Hand.Bd6_main_arg3 m ρ c),
      (hr c _ (Cert.KernelIdeal.Hand.mem_uc Cert.KernelIdeal.main_arg4 (by decide))).trans (Cert.KernelIdeal.Hand.Bd6_main_arg4 m ρ c),
      (hr c _ (Cert.KernelIdeal.Hand.mem_uc Cert.KernelIdeal.main_arg5 (by decide))).trans (Cert.KernelIdeal.Hand.Bd6_main_arg5 m ρ c)⟩
  · refine (θ_run Cert.ReferenceIdeal.defs _ _).mono (fun r hr c => ⟨(hr c).1.trans ?_, (hr c).2⟩) (Cert.ReferenceIdeal.Value.run (F := Ideal) m' ρ')
    obtain ⟨g0, g1, g2, g3, g4, g5⟩ := hagree c
    obtain ⟨k0, k1, k2, k3, k4, k5⟩ := h c
    rw [Cert.ReferenceIdeal.Read.val_main_v36_eq, g0, g1, g2, g3, g4, g5, k0, k1, k2, k3, k4, k5, Cert.RefValue.ref_value,
      ← Cert.Chain.result_eq_resR]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
